-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x7x7x30 : Shape := ⟨4, ![16384, 7, 7, 30]⟩
abbrev S_ : Shape := ⟨0, ![]⟩

class Facts : Prop where
  bcast_S_S16384x7x7x30 : S_.BroadcastsInDim S16384x7x7x30 (![] : Fin 0 → Fin S16384x7x7x30.rank)
  reducesTo_S16384x7x7x30_S_d0_1_2_3 : S16384x7x7x30.ReducesTo [0, 1, 2, 3] S_
  h_S_ : 0 < S_.numel

variable [Facts]

def fn {F : FTy → Type} [FloatOps F] (main_arg0 : FVec F S16384x7x7x30 .f32) (main_arg1 : FVec F S16384x7x7x30 .f32) : IVec S_ 1 :=
  let main_v0 : FVec F S16384x7x7x30 .f32 := Host.absf main_arg0
  let main_cst : FVec F S_ .f32 := constant S_ .f32 0x7F800000#32
  let main_v1 : FVec F S16384x7x7x30 .f32 := broadcastInDim S16384x7x7x30 ![] bcast_S_S16384x7x7x30 main_cst
  let main_v2 : IVec S16384x7x7x30 1 := cmpf .olt main_v0 main_v1
  let main_c : IVec S_ 1 := constantI S_ 1 1#1
  let main_v3 : IVec S_ 1 := (fun x v => Host.reduce IntOp.andi x v reducesTo_S16384x7x7x30_S_d0_1_2_3 h_S_) main_v2 main_c
  let main_v4 : FVec F S16384x7x7x30 .f32 := Host.absf main_arg1
  let main_cst_0 : FVec F S_ .f32 := constant S_ .f32 0x7F800000#32
  let main_v5 : FVec F S16384x7x7x30 .f32 := broadcastInDim S16384x7x7x30 ![] bcast_S_S16384x7x7x30 main_cst_0
  let main_v6 : IVec S16384x7x7x30 1 := cmpf .olt main_v4 main_v5
  let main_c_1 : IVec S_ 1 := constantI S_ 1 1#1
  let main_v7 : IVec S_ 1 := (fun x v => Host.reduce IntOp.andi x v reducesTo_S16384x7x7x30_S_d0_1_2_3 h_S_) main_v6 main_c_1
  let main_v8 : IVec S_ 1 := andi main_v3 main_v7
  main_v8
-- ==== Kernel.lean ====
abbrev S16384x7x7x30 : Shape := ⟨4, ![16384, 7, 7, 30]⟩
abbrev S802816x30 : Shape := ⟨2, ![802816, 30]⟩
abbrev S2x8x128 : Shape := ⟨3, ![2, 8, 128]⟩
abbrev S2048x30 : Shape := ⟨2, ![2048, 30]⟩
abbrev S1x8x128 : Shape := ⟨3, ![1, 8, 128]⟩
abbrev S8x128 : Shape := ⟨2, ![8, 128]⟩
abbrev S2048x1 : Shape := ⟨2, ![2048, 1]⟩
abbrev S2048x20 : Shape := ⟨2, ![2048, 20]⟩
abbrev S2048 : Shape := ⟨1, ![2048]⟩
abbrev S2048x4 : Shape := ⟨2, ![2048, 4]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S16384x7x7x30, .f32⟩
  | .hbm, ⟨1, _⟩ => ⟨S16384x7x7x30, .f32⟩
  | .hbm, ⟨2, _⟩ => ⟨S802816x30, .f32⟩
  | .hbm, ⟨3, _⟩ => ⟨S802816x30, .f32⟩
  | .hbm, ⟨4, _⟩ => ⟨S2x8x128, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S2048x30, .f32⟩
  | .local _ .vmem, ⟨1, _⟩ => ⟨S2048x30, .f32⟩
  | .local _ .vmem, ⟨2, _⟩ => ⟨S2048x30, .f32⟩
  | .local _ .vmem, ⟨3, _⟩ => ⟨S2048x30, .f32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S16384x7x7x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 196], ![false, false]⟩

def k0_cond2 (i : grid0.Coords) : BitVec 1 :=
  let arg1 : BitVec 32 := BitVec.ofNat 32 (i 1).val
  let c195_i32 : BitVec 32 := 195#32
  let v214 : BitVec 1 := Scalar.cmpi .eq arg1 c195_i32
  let v215 : BitVec 32 := Scalar.extui v214
  let c0_i32_37 : BitVec 32 := 0#32
  let v216 : BitVec 1 := Scalar.cmpi .ne v215 c0_i32_37
  v216

def cc0_transform_0 (i : grid0.Coords) : Fin 2 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16384x7x7x30_S802816x30 : S16384x7x7x30.ShapeCasts S802816x30
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S2048x30_S2048x30_0_0 : ∀ a, (![0, 0] : Fin 2 → Nat) a + S2048x30.size a ≤ S2048x30.size a
  h_S2048x30 : 0 < S2048x30.numel
  shapeCasts_S2048x30_S2048x30 : S2048x30.ShapeCasts S2048x30
  slices_S2048x30_o0_4_S2048x1 : S2048x30.Slices ![0, 4] S2048x1
  natLt_1_32 : 1 < 32
  slices_S2048x30_o0_10_S2048x20 : S2048x30.Slices ![0, 10] S2048x20
  broadcasts_S2048x1_S2048x20 : S2048x1.Broadcasts S2048x20
  reduces_S2048x20_S2048 : S2048x20.Reduces [1] S2048
  shapeCasts_S2048_S2048x1 : S2048.ShapeCasts S2048x1
  slices_S2048x30_o0_0_S2048x4 : S2048x30.Slices ![0, 0] S2048x4
  slices_S2048x30_o0_5_S2048x4 : S2048x30.Slices ![0, 5] S2048x4
  slices_S2048x4_o0_0_S2048x1 : S2048x4.Slices ![0, 0] S2048x1
  slices_S2048x4_o0_1_S2048x1 : S2048x4.Slices ![0, 1] S2048x1
  slices_S2048x4_o0_2_S2048x1 : S2048x4.Slices ![0, 2] S2048x1
  slices_S2048x4_o0_3_S2048x1 : S2048x4.Slices ![0, 3] S2048x1
  slices_S2048x30_o0_9_S2048x1 : S2048x30.Slices ![0, 9] S2048x1
  slices_S2048x30_o0_0_S2048x1 : S2048x30.Slices ![0, 0] S2048x1
  slices_S2048x30_o0_1_S2048x1 : S2048x30.Slices ![0, 1] S2048x1
  slices_S2048x30_o0_5_S2048x1 : S2048x30.Slices ![0, 5] S2048x1
  slices_S2048x30_o0_6_S2048x1 : S2048x30.Slices ![0, 6] S2048x1
  slices_S2048x30_o0_2_S2048x1 : S2048x30.Slices ![0, 2] S2048x1
  slices_S2048x30_o0_3_S2048x1 : S2048x30.Slices ![0, 3] S2048x1
  slices_S2048x30_o0_7_S2048x1 : S2048x30.Slices ![0, 7] S2048x1
  slices_S2048x30_o0_8_S2048x1 : S2048x30.Slices ![0, 8] S2048x1
  reduces_S2048x1_S1 : S2048x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x30.size a ≤ S802816x30.size a
  hwx0_0 : ∀ i : grid0.Coords, EltTy.bits .f32 = 32 ∨ (Rect.block (s := S802816x30) S2048x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x30.size a ≤ S802816x30.size a
  hwx0_1 : ∀ i : grid0.Coords, EltTy.bits .f32 = 32 ∨ (Rect.block (s := S802816x30) S2048x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S2048x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x7x7x30 : Shape := ⟨4, ![16384, 7, 7, 30]⟩
abbrev S16384x7x7x1 : Shape := ⟨4, ![16384, 7, 7, 1]⟩
abbrev S16384x7x7 : Shape := ⟨3, ![16384, 7, 7]⟩
abbrev S_ : Shape := ⟨0, ![]⟩
abbrev S16384x7x7x20 : Shape := ⟨4, ![16384, 7, 7, 20]⟩
abbrev S16384x7x7x4 : Shape := ⟨4, ![16384, 7, 7, 4]⟩

abbrev nBuf : Space → Nat
  | .hbm => 277
  | .vmem => 0
  | .smem => 0
  | _ => 0

abbrev hbmTy0_0 (i : Nat) : BufTy := match i % 128 with
  | 0 => ⟨S16384x7x7x30, .f32⟩
  | 1 => ⟨S16384x7x7x30, .f32⟩
  | 2 => ⟨S16384x7x7x1, .f32⟩
  | 3 => ⟨S16384x7x7, .f32⟩
  | 4 => ⟨S_, .f32⟩
  | 5 => ⟨S16384x7x7, .f32⟩
  | 6 => ⟨S16384x7x7, .i1⟩
  | 7 => ⟨S16384x7x7, .f32⟩
  | 8 => ⟨S16384x7x7x1, .f32⟩
  | 9 => ⟨S16384x7x7, .f32⟩
  | 10 => ⟨S_, .f32⟩
  | 11 => ⟨S16384x7x7, .f32⟩
  | 12 => ⟨S16384x7x7, .i1⟩
  | 13 => ⟨S16384x7x7, .f32⟩
  | 14 => ⟨S16384x7x7x1, .f32⟩
  | 15 => ⟨S16384x7x7x20, .f32⟩
  | 16 => ⟨S16384x7x7x20, .f32⟩
  | 17 => ⟨S16384x7x7x20, .f32⟩
  | 18 => ⟨S16384x7x7x20, .f32⟩
  | 19 => ⟨S16384x7x7x20, .f32⟩
  | 20 => ⟨S16384x7x7x20, .f32⟩
  | 21 => ⟨S_, .f32⟩
  | 22 => ⟨S_, .f32⟩
  | 23 => ⟨S16384x7x7x1, .f32⟩
  | 24 => ⟨S16384x7x7, .f32⟩
  | 25 => ⟨S16384x7x7x1, .f32⟩
  | 26 => ⟨S16384x7x7, .f32⟩
  | 27 => ⟨S16384x7x7, .f32⟩
  | 28 => ⟨S16384x7x7, .f32⟩
  | 29 => ⟨S16384x7x7, .f32⟩
  | 30 => ⟨S_, .f32⟩
  | 31 => ⟨S_, .f32⟩
  | 32 => ⟨S16384x7x7x4, .f32⟩
  | 33 => ⟨S16384x7x7x4, .f32⟩
  | 34 => ⟨S16384x7x7x1, .f32⟩
  | 35 => ⟨S16384x7x7, .f32⟩
  | 36 => ⟨S16384x7x7x1, .f32⟩
  | 37 => ⟨S16384x7x7, .f32⟩
  | 38 => ⟨S16384x7x7x1, .f32⟩
  | 39 => ⟨S16384x7x7, .f32⟩
  | 40 => ⟨S16384x7x7x1, .f32⟩
  | 41 => ⟨S16384x7x7, .f32⟩
  | 42 => ⟨S16384x7x7x1, .f32⟩
  | 43 => ⟨S16384x7x7, .f32⟩
  | 44 => ⟨S16384x7x7x1, .f32⟩
  | 45 => ⟨S16384x7x7, .f32⟩
  | 46 => ⟨S16384x7x7x1, .f32⟩
  | 47 => ⟨S16384x7x7, .f32⟩
  | 48 => ⟨S16384x7x7x1, .f32⟩
  | 49 => ⟨S16384x7x7, .f32⟩
  | 50 => ⟨S_, .f32⟩
  | 51 => ⟨S16384x7x7, .f32⟩
  | 52 => ⟨S16384x7x7, .f32⟩
  | 53 => ⟨S16384x7x7, .f32⟩
  | 54 => ⟨S_, .f32⟩
  | 55 => ⟨S16384x7x7, .f32⟩
  | 56 => ⟨S16384x7x7, .f32⟩
  | 57 => ⟨S16384x7x7, .f32⟩
  | 58 => ⟨S16384x7x7, .f32⟩
  | 59 => ⟨S_, .f32⟩
  | 60 => ⟨S16384x7x7, .f32⟩
  | 61 => ⟨S16384x7x7, .f32⟩
  | 62 => ⟨S16384x7x7, .f32⟩
  | 63 => ⟨S_, .f32⟩
  | 64 => ⟨S16384x7x7, .f32⟩
  | 65 => ⟨S16384x7x7, .f32⟩
  | 66 => ⟨S16384x7x7, .f32⟩
  | 67 => ⟨S16384x7x7, .f32⟩
  | 68 => ⟨S_, .f32⟩
  | 69 => ⟨S16384x7x7, .f32⟩
  | 70 => ⟨S16384x7x7, .f32⟩
  | 71 => ⟨S16384x7x7, .f32⟩
  | 72 => ⟨S_, .f32⟩
  | 73 => ⟨S16384x7x7, .f32⟩
  | 74 => ⟨S16384x7x7, .f32⟩
  | 75 => ⟨S16384x7x7, .f32⟩
  | 76 => ⟨S16384x7x7, .f32⟩
  | 77 => ⟨S_, .f32⟩
  | 78 => ⟨S16384x7x7, .f32⟩
  | 79 => ⟨S16384x7x7, .f32⟩
  | 80 => ⟨S16384x7x7, .f32⟩
  | 81 => ⟨S_, .f32⟩
  | 82 => ⟨S16384x7x7, .f32⟩
  | 83 => ⟨S16384x7x7, .f32⟩
  | 84 => ⟨S16384x7x7, .f32⟩
  | 85 => ⟨S16384x7x7, .f32⟩
  | 86 => ⟨S16384x7x7, .i1⟩
  | 87 => ⟨S16384x7x7, .i1⟩
  | 88 => ⟨S16384x7x7, .i1⟩
  | 89 => ⟨S16384x7x7, .f32⟩
  | 90 => ⟨S16384x7x7, .f32⟩
  | 91 => ⟨S16384x7x7, .f32⟩
  | 92 => ⟨S16384x7x7, .f32⟩
  | 93 => ⟨S16384x7x7, .f32⟩
  | 94 => ⟨S16384x7x7, .f32⟩
  | 95 => ⟨S16384x7x7, .f32⟩
  | 96 => ⟨S_, .f32⟩
  | 97 => ⟨S16384x7x7, .f32⟩
  | 98 => ⟨S16384x7x7, .i1⟩
  | 99 => ⟨S_, .f32⟩
  | 100 => ⟨S_, .f32⟩
  | 101 => ⟨S16384x7x7, .f32⟩
  | 102 => ⟨S16384x7x7, .f32⟩
  | 103 => ⟨S16384x7x7, .f32⟩
  | 104 => ⟨S_, .f32⟩
  | 105 => ⟨S_, .f32⟩
  | 106 => ⟨S16384x7x7, .f32⟩
  | 107 => ⟨S16384x7x7, .f32⟩
  | 108 => ⟨S16384x7x7x4, .f32⟩
  | 109 => ⟨S16384x7x7x1, .f32⟩
  | 110 => ⟨S16384x7x7, .f32⟩
  | 111 => ⟨S16384x7x7x1, .f32⟩
  | 112 => ⟨S16384x7x7, .f32⟩
  | 113 => ⟨S16384x7x7x1, .f32⟩
  | 114 => ⟨S16384x7x7, .f32⟩
  | 115 => ⟨S16384x7x7x1, .f32⟩
  | 116 => ⟨S16384x7x7, .f32⟩
  | 117 => ⟨S16384x7x7x1, .f32⟩
  | 118 => ⟨S16384x7x7, .f32⟩
  | 119 => ⟨S16384x7x7x1, .f32⟩
  | 120 => ⟨S16384x7x7, .f32⟩
  | 121 => ⟨S16384x7x7x1, .f32⟩
  | 122 => ⟨S16384x7x7, .f32⟩
  | 123 => ⟨S16384x7x7x1, .f32⟩
  | 124 => ⟨S16384x7x7, .f32⟩
  | 125 => ⟨S_, .f32⟩
  | 126 => ⟨S16384x7x7, .f32⟩
  | 127 => ⟨S16384x7x7, .f32⟩
  | _ => ⟨S16384x7x7x30, .f32⟩

abbrev hbmTy0_1 (i : Nat) : BufTy := match i % 128 with
  | 0 => ⟨S16384x7x7, .f32⟩
  | 1 => ⟨S_, .f32⟩
  | 2 => ⟨S16384x7x7, .f32⟩
  | 3 => ⟨S16384x7x7, .f32⟩
  | 4 => ⟨S16384x7x7, .f32⟩
  | 5 => ⟨S16384x7x7, .f32⟩
  | 6 => ⟨S_, .f32⟩
  | 7 => ⟨S16384x7x7, .f32⟩
  | 8 => ⟨S16384x7x7, .f32⟩
  | 9 => ⟨S16384x7x7, .f32⟩
  | 10 => ⟨S_, .f32⟩
  | 11 => ⟨S16384x7x7, .f32⟩
  | 12 => ⟨S16384x7x7, .f32⟩
  | 13 => ⟨S16384x7x7, .f32⟩
  | 14 => ⟨S16384x7x7, .f32⟩
  | 15 => ⟨S_, .f32⟩
  | 16 => ⟨S16384x7x7, .f32⟩
  | 17 => ⟨S16384x7x7, .f32⟩
  | 18 => ⟨S16384x7x7, .f32⟩
  | 19 => ⟨S_, .f32⟩
  | 20 => ⟨S16384x7x7, .f32⟩
  | 21 => ⟨S16384x7x7, .f32⟩
  | 22 => ⟨S16384x7x7, .f32⟩
  | 23 => ⟨S16384x7x7, .f32⟩
  | 24 => ⟨S_, .f32⟩
  | 25 => ⟨S16384x7x7, .f32⟩
  | 26 => ⟨S16384x7x7, .f32⟩
  | 27 => ⟨S16384x7x7, .f32⟩
  | 28 => ⟨S_, .f32⟩
  | 29 => ⟨S16384x7x7, .f32⟩
  | 30 => ⟨S16384x7x7, .f32⟩
  | 31 => ⟨S16384x7x7, .f32⟩
  | 32 => ⟨S16384x7x7, .f32⟩
  | 33 => ⟨S16384x7x7, .i1⟩
  | 34 => ⟨S16384x7x7, .i1⟩
  | 35 => ⟨S16384x7x7, .i1⟩
  | 36 => ⟨S16384x7x7, .f32⟩
  | 37 => ⟨S16384x7x7, .f32⟩
  | 38 => ⟨S16384x7x7, .f32⟩
  | 39 => ⟨S16384x7x7, .f32⟩
  | 40 => ⟨S16384x7x7, .f32⟩
  | 41 => ⟨S16384x7x7, .f32⟩
  | 42 => ⟨S16384x7x7, .f32⟩
  | 43 => ⟨S_, .f32⟩
  | 44 => ⟨S16384x7x7, .f32⟩
  | 45 => ⟨S16384x7x7, .i1⟩
  | 46 => ⟨S_, .f32⟩
  | 47 => ⟨S_, .f32⟩
  | 48 => ⟨S16384x7x7, .f32⟩
  | 49 => ⟨S16384x7x7, .f32⟩
  | 50 => ⟨S16384x7x7, .f32⟩
  | 51 => ⟨S_, .f32⟩
  | 52 => ⟨S_, .f32⟩
  | 53 => ⟨S16384x7x7, .f32⟩
  | 54 => ⟨S16384x7x7, .f32⟩
  | 55 => ⟨S16384x7x7, .i1⟩
  | 56 => ⟨S16384x7x7, .f32⟩
  | 57 => ⟨S16384x7x7, .f32⟩
  | 58 => ⟨S_, .f32⟩
  | 59 => ⟨S16384x7x7, .f32⟩
  | 60 => ⟨S16384x7x7, .f32⟩
  | 61 => ⟨S16384x7x7, .f32⟩
  | 62 => ⟨S16384x7x7x1, .f32⟩
  | 63 => ⟨S16384x7x7, .f32⟩
  | 64 => ⟨S16384x7x7, .f32⟩
  | 65 => ⟨S16384x7x7, .f32⟩
  | 66 => ⟨S16384x7x7, .f32⟩
  | 67 => ⟨S16384x7x7x1, .f32⟩
  | 68 => ⟨S16384x7x7, .f32⟩
  | 69 => ⟨S16384x7x7, .f32⟩
  | 70 => ⟨S16384x7x7, .f32⟩
  | 71 => ⟨S16384x7x7, .f32⟩
  | 72 => ⟨S16384x7x7, .f32⟩
  | 73 => ⟨S_, .f32⟩
  | 74 => ⟨S_, .f32⟩
  | 75 => ⟨S16384x7x7x1, .f32⟩
  | 76 => ⟨S16384x7x7, .f32⟩
  | 77 => ⟨S16384x7x7x1, .f32⟩
  | 78 => ⟨S16384x7x7, .f32⟩
  | 79 => ⟨S16384x7x7, .f32⟩
  | 80 => ⟨S16384x7x7, .f32⟩
  | 81 => ⟨S16384x7x7x1, .f32⟩
  | 82 => ⟨S16384x7x7, .f32⟩
  | 83 => ⟨S16384x7x7x1, .f32⟩
  | 84 => ⟨S16384x7x7, .f32⟩
  | 85 => ⟨S16384x7x7, .f32⟩
  | 86 => ⟨S16384x7x7, .f32⟩
  | 87 => ⟨S16384x7x7, .f32⟩
  | 88 => ⟨S16384x7x7, .f32⟩
  | 89 => ⟨S16384x7x7x1, .f32⟩
  | 90 => ⟨S16384x7x7, .f32⟩
  | 91 => ⟨S16384x7x7x1, .f32⟩
  | 92 => ⟨S16384x7x7, .f32⟩
  | 93 => ⟨S16384x7x7, .f32⟩
  | 94 => ⟨S16384x7x7, .f32⟩
  | 95 => ⟨S16384x7x7x1, .f32⟩
  | 96 => ⟨S16384x7x7, .f32⟩
  | 97 => ⟨S16384x7x7x1, .f32⟩
  | 98 => ⟨S16384x7x7, .f32⟩
  | 99 => ⟨S16384x7x7, .f32⟩
  | 100 => ⟨S16384x7x7, .f32⟩
  | 101 => ⟨S16384x7x7, .f32⟩
  | 102 => ⟨S16384x7x7, .f32⟩
  | 103 => ⟨S16384x7x7, .f32⟩
  | 104 => ⟨S_, .f32⟩
  | 105 => ⟨S_, .f32⟩
  | 106 => ⟨S16384x7x7x1, .f32⟩
  | 107 => ⟨S16384x7x7, .f32⟩
  | 108 => ⟨S16384x7x7x1, .f32⟩
  | 109 => ⟨S16384x7x7, .f32⟩
  | 110 => ⟨S16384x7x7, .f32⟩
  | 111 => ⟨S16384x7x7, .f32⟩
  | 112 => ⟨S16384x7x7x1, .f32⟩
  | 113 => ⟨S16384x7x7, .f32⟩
  | 114 => ⟨S16384x7x7x1, .f32⟩
  | 115 => ⟨S16384x7x7, .f32⟩
  | 116 => ⟨S16384x7x7, .f32⟩
  | 117 => ⟨S16384x7x7, .f32⟩
  | 118 => ⟨S16384x7x7, .f32⟩
  | 119 => ⟨S16384x7x7, .f32⟩
  | 120 => ⟨S16384x7x7x1, .f32⟩
  | 121 => ⟨S16384x7x7, .f32⟩
  | 122 => ⟨S16384x7x7x1, .f32⟩
  | 123 => ⟨S16384x7x7, .f32⟩
  | 124 => ⟨S16384x7x7, .f32⟩
  | 125 => ⟨S16384x7x7, .f32⟩
  | 126 => ⟨S16384x7x7x1, .f32⟩
  | 127 => ⟨S16384x7x7, .f32⟩
  | _ => ⟨S16384x7x7x30, .f32⟩

abbrev hbmTy0_2 (i : Nat) : BufTy := match i % 128 with
  | 0 => ⟨S16384x7x7x1, .f32⟩
  | 1 => ⟨S16384x7x7, .f32⟩
  | 2 => ⟨S16384x7x7, .f32⟩
  | 3 => ⟨S16384x7x7, .f32⟩
  | 4 => ⟨S16384x7x7, .f32⟩
  | 5 => ⟨S16384x7x7, .f32⟩
  | 6 => ⟨S16384x7x7, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | _ => ⟨S16384x7x7x30, .f32⟩

abbrev hbmTy (i : Nat) : BufTy := match i / 128 with
  | 0 => hbmTy0_0 i
  | 1 => hbmTy0_1 i
  | 2 => hbmTy0_2 i
  | _ => ⟨S16384x7x7x30, .f32⟩

abbrev bufTy : (tb : Table) → Fin (tcTables nBuf tb) → BufTy
  | .hbm, ⟨i, _⟩ => hbmTy i
  | _, _ => ⟨S16384x7x7x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_3 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_4 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_5 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_6 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_7 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_8 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_9 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_10 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_11 : Ref sig .tc := ⟨.hbm, 96, rfl⟩
abbrev main_v82 : Ref sig .tc := ⟨.hbm, 97, rfl⟩
abbrev main_v83 : Ref sig .tc := ⟨.hbm, 98, rfl⟩
abbrev main_cst_12 : Ref sig .tc := ⟨.hbm, 99, rfl⟩
abbrev main_call0_v0 : Ref sig .tc := ⟨.hbm, 100, rfl⟩
abbrev main_call0_v1 : Ref sig .tc := ⟨.hbm, 101, rfl⟩
abbrev main_v84 : Ref sig .tc := ⟨.hbm, 102, rfl⟩
abbrev main_v85 : Ref sig .tc := ⟨.hbm, 103, rfl⟩
abbrev main_cst_13 : Ref sig .tc := ⟨.hbm, 104, rfl⟩
abbrev main_call1_v0 : Ref sig .tc := ⟨.hbm, 105, rfl⟩
abbrev main_call1_v1 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_cst_14 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_15 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_16 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_17 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_18 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_19 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_20 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_21 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_cst_22 : Ref sig .tc := ⟨.hbm, 171, rfl⟩
abbrev main_v142 : Ref sig .tc := ⟨.hbm, 172, rfl⟩
abbrev main_v143 : Ref sig .tc := ⟨.hbm, 173, rfl⟩
abbrev main_cst_23 : Ref sig .tc := ⟨.hbm, 174, rfl⟩
abbrev main_call2_v0 : Ref sig .tc := ⟨.hbm, 175, rfl⟩
abbrev main_call2_v1 : Ref sig .tc := ⟨.hbm, 176, rfl⟩
abbrev main_v144 : Ref sig .tc := ⟨.hbm, 177, rfl⟩
abbrev main_v145 : Ref sig .tc := ⟨.hbm, 178, rfl⟩
abbrev main_cst_24 : Ref sig .tc := ⟨.hbm, 179, rfl⟩
abbrev main_call3_v0 : Ref sig .tc := ⟨.hbm, 180, rfl⟩
abbrev main_call3_v1 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_cst_25 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_cst_26 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_cst_27 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_cst_28 : Ref sig .tc := ⟨.hbm, 263, rfl⟩
abbrev main_v224 : Ref sig .tc := ⟨.hbm, 264, rfl⟩
abbrev main_cst_29 : Ref sig .tc := ⟨.hbm, 265, rfl⟩
abbrev main_v225 : Ref sig .tc := ⟨.hbm, 266, rfl⟩
abbrev main_cst_30 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_cst_31 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_cst_32 : Ref sig .tc := ⟨.hbm, 275, rfl⟩
abbrev main_v232 : Ref sig .tc := ⟨.hbm, 276, rfl⟩

abbrev nD : Nat := 1
abbrev τ : Topo := Topo.v7x

variable {F : FTy → Type} [FloatOps F]

class Facts₀ : Prop where
  slices_S16384x7x7x30_S16384x7x7x1_0_0_0_4 : S16384x7x7x30.Slices ![0, 0, 0, 4] S16384x7x7x1
  shapeCasts_S16384x7x7x1_S16384x7x7 : S16384x7x7x1.ShapeCasts S16384x7x7
  bcast_S_S16384x7x7 : S_.BroadcastsInDim S16384x7x7 (![] : Fin 0 → Fin S16384x7x7.rank)
  bcast_S16384x7x7_S16384x7x7x1_0_1_2 : S16384x7x7.BroadcastsInDim S16384x7x7x1 (![0, 1, 2] : Fin 3 → Fin S16384x7x7x1.rank)
  slices_S16384x7x7x30_S16384x7x7x20_0_0_0_10 : S16384x7x7x30.Slices ![0, 0, 0, 10] S16384x7x7x20
  bcast_S16384x7x7x1_S16384x7x7x20_0_1_2_3 : S16384x7x7x1.BroadcastsInDim S16384x7x7x20 (![0, 1, 2, 3] : Fin 4 → Fin S16384x7x7x20.rank)
  reducesTo_S16384x7x7x20_S_d0_1_2_3 : S16384x7x7x20.ReducesTo [0, 1, 2, 3] S_
  h_S_ : 0 < S_.numel
  reducesTo_S16384x7x7_S_d0_1_2 : S16384x7x7.ReducesTo [0, 1, 2] S_
  slices_S16384x7x7x30_S16384x7x7x4_0_0_0_0 : S16384x7x7x30.Slices ![0, 0, 0, 0] S16384x7x7x4
  slices_S16384x7x7x4_S16384x7x7x1_0_0_0_0 : S16384x7x7x4.Slices ![0, 0, 0, 0] S16384x7x7x1
  slices_S16384x7x7x4_S16384x7x7x1_0_0_0_1 : S16384x7x7x4.Slices ![0, 0, 0, 1] S16384x7x7x1
  slices_S16384x7x7x4_S16384x7x7x1_0_0_0_2 : S16384x7x7x4.Slices ![0, 0, 0, 2] S16384x7x7x1
  slices_S16384x7x7x4_S16384x7x7x1_0_0_0_3 : S16384x7x7x4.Slices ![0, 0, 0, 3] S16384x7x7x1
  slices_S16384x7x7x30_S16384x7x7x4_0_0_0_5 : S16384x7x7x30.Slices ![0, 0, 0, 5] S16384x7x7x4
  slices_S16384x7x7x30_S16384x7x7x1_0_0_0_9 : S16384x7x7x30.Slices ![0, 0, 0, 9] S16384x7x7x1
  slices_S16384x7x7x30_S16384x7x7x1_0_0_0_0 : S16384x7x7x30.Slices ![0, 0, 0, 0] S16384x7x7x1
  slices_S16384x7x7x30_S16384x7x7x1_0_0_0_1 : S16384x7x7x30.Slices ![0, 0, 0, 1] S16384x7x7x1
  slices_S16384x7x7x30_S16384x7x7x1_0_0_0_5 : S16384x7x7x30.Slices ![0, 0, 0, 5] S16384x7x7x1
  slices_S16384x7x7x30_S16384x7x7x1_0_0_0_6 : S16384x7x7x30.Slices ![0, 0, 0, 6] S16384x7x7x1
  slices_S16384x7x7x30_S16384x7x7x1_0_0_0_2 : S16384x7x7x30.Slices ![0, 0, 0, 2] S16384x7x7x1
  slices_S16384x7x7x30_S16384x7x7x1_0_0_0_3 : S16384x7x7x30.Slices ![0, 0, 0, 3] S16384x7x7x1
  slices_S16384x7x7x30_S16384x7x7x1_0_0_0_7 : S16384x7x7x30.Slices ![0, 0, 0, 7] S16384x7x7x1
  slices_S16384x7x7x30_S16384x7x7x1_0_0_0_8 : S16384x7x7x30.Slices ![0, 0, 0, 8] S16384x7x7x1

variable [Facts₀]

class Facts : Prop extends Facts₀ where

variable [Facts]
-- ==== Proof.BodyTerm.lean ====
import proofs.«107280_j5325759447314_1_alg».proof.Proof.Gen.KernelIdeal.Skeleton

/-!
# The body's stored value as one term

The kernel's body computes its intermediates in four consecutive parts, each handing the next the vectors it needs.
This module writes the chain out once, for any float instance: the value the body stores into the accumulator's
entry (0, 0) as a function of the prediction block, the target block and the entry it loaded.
-/

noncomputable section

namespace Cert.Yolo.KernelRow

open Idealize.ShloMosaic Cert.KernelIdeal Cert.KernelIdeal.Gen

variable [Cert.KernelIdeal.Facts]

section body
variable {F : FTy → Type} [FloatOps F]

/-- The intermediates as the body chains them, from the two blocks (any float instance). -/
def bV30 (x1 : Vec F S2048x30 .f32) : FVec F S2048x4 .f32 := k0_pay9 x1
def bV32 (x0 : Vec F S2048x30 .f32) : FVec F S2048x4 .f32 := k0_pay11 x0
def bV85 (x0 x1 : Vec F S2048x30 .f32) : FVec F S2048x1 .f32 :=
  k0_pay22 (k0_pay12 x1) (k0_pay13 x1) (k0_pay14 x1) (k0_pay15 x1) (k0_pay16 x0) (k0_pay17 x0) (k0_pay18 x0)
    (k0_pay19 x0) (k0_pay20 x1) (k0_pay21 x0)
def bV138 (x0 x1 : Vec F S2048x30 .f32) : FVec F S2048x1 .f32 :=
  k0_pay32 (k0_pay23 (bV30 x1)) (k0_pay24 (bV30 x1)) (k0_pay25 (bV30 x1)) (k0_pay26 (bV30 x1))
    (k0_pay27 (bV32 x0)) (k0_pay28 (bV32 x0)) (k0_pay29 (bV32 x0)) (k0_pay30 (bV32 x0)) (k0_pay31 (bV30 x1))
def bV142 (x0 x1 : Vec F S2048x30 .f32) : FVec F S2048x1 .f32 :=
  k0_pay34 (k0_pay6 x1) (bV85 x0 x1) (k0_pay23 (bV30 x1)) (k0_pay24 (bV30 x1)) (k0_pay25 (bV30 x1)) (k0_pay26 (bV30 x1))
    (k0_pay27 (bV32 x0)) (k0_pay28 (bV32 x0)) (k0_pay29 (bV32 x0)) (k0_pay30 (bV32 x0)) (k0_pay31 (bV30 x1))
def bV144 (x0 x1 : Vec F S2048x30 .f32) : FVec F S2048x1 .f32 :=
  k0_pay35 (bV85 x0 x1) (k0_pay23 (bV30 x1)) (k0_pay24 (bV30 x1)) (k0_pay25 (bV30 x1)) (k0_pay26 (bV30 x1))
    (k0_pay27 (bV32 x0)) (k0_pay28 (bV32 x0)) (k0_pay29 (bV32 x0)) (k0_pay30 (bV32 x0)) (k0_pay31 (bV30 x1))
def bV202 (x0 x1 : Vec F S2048x30 .f32) : FVec F S2048x1 .f32 :=
  k0_pay36 (k0_pay4 x0) (k0_pay5 x1) (k0_pay6 x1) (bV85 x0 x1) (bV138 x0 x1) (bV142 x0 x1) (bV144 x0 x1)

/-- What the body stores into the accumulator's entry (0, 0): from the prediction block `x0`, the target block `x1`
    and the entry `a` it loaded. -/
def bodyPay (x0 x1 : Vec F S2048x30 .f32) (a : Vec F S1x1 .f32) : FVec F S1x1 .f32 :=
  k0_pay1 (k0_pay7 x0 x1) (k0_pay8 x0 x1) (bV202 x0 x1) a

end body

end Cert.Yolo.KernelRow

end
-- ==== Proof.Pieces.lean ====
import proofs.«107280_j5325759447314_1_alg».proof.Proof.Gen.KernelIdeal.Frame
import proofs.«107280_j5325759447314_1_alg».proof.Proof.BodyTerm
import Idealize.ShloMosaic.Lib.Pipeline.Value
import Idealize.ShloMosaic.Lib.WritesUnit
import Idealize.ShloMosaic.Lib.ValueIdx
import Idealize.ShloMosaic.Lib.Tactic

/-!
# What one run of the body leaves in the accumulator and in the output block

The accumulator is an [8, 128] scratch buffer of which only the entry (0, 0) carries a value.  The body's stores are:
at a core's first step, zeros over the whole accumulator; at every step, the entry (0, 0) replaced by its loaded value
plus the block's sum; at a core's last step, the whole accumulator (after that update) copied to the output block.
This module reads those stores back as values: the entry (0, 0) after a step, the other entries (unchanged, or zero
after the first step's fill), and the output block as the accumulator it copies.
-/

noncomputable section

open Idealize.ShloMosaic Idealize.ShloMosaic.TcCoe Idealize.SL.Sem Idealize.ShloMosaic.ValueIdx
open Idealize.ShloMosaic.Pipeline (Dat)

namespace Cert.Yolo.Pieces
open Cert.KernelIdeal Cert.KernelIdeal.Gen Cert.Yolo.KernelRow
variable {F : FTy → Type} [FloatOps F]

theorem hz2 : (![0, 0] : Fin 2 → Nat) = fun _ => 0 := funext fun a => by fin_cases a <;> rfl

/-- The one-entry rectangle at the accumulator's corner. -/
abbrev corner : Rect S8x128 := Rect.unit (s := S8x128) ![0, 0] S1x1.size inb_S8x128_S1x1_0_0

theorem sout_B_corner (c : Dev nD) (i : grid0.Coords) (arg2 : Memref sig .tc .vmem S2048x30 .f32) (harg2 : arg2.IsWhole) (arg3 : Memref sig .tc .vmem S2048x30 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : ¬cond0_1 i)
    (x0 : Vec F S2048x30 .f32) (x1 : Vec F S2048x30 .f32) (xs0 : Vec F S8x128 .f32) (y : S8x128.Idx)
    (h0 : (y 0).val = 0) (h1 : (y 1).val = 0) :
    sout0_B_0 c i arg2 harg2 arg3 harg3 arg4 harg4 arg5 harg5 hc0 hc1 x0 x1 xs0 y
      = bodyPay x0 x1 (View.ld xs0 corner) (ix2 0 0) := by
  unfold sout0_B_0 kernelRun0_B
  dsimp only
  sl_unfold_words
  refine (View.read_writes_cons_unit_of_mem _ _ inb_S8x128_S1x1_0_0 _ [] y (ix2 0 0) rfl (fun a => ?_)).trans ?_
  · match a with
    | ⟨0, _⟩ => show (y 0).val = 0 + 0; omega
    | ⟨1, _⟩ => show (y 1).val = 0 + 0; omega
  · simp only [View.readAt_eq_ld, harg2.read_unread, harg3.read_unread, harg5.read_unread, View.ld_unit_zero (S := S2048x30) hz2]
    rfl

theorem sout_B_rest (c : Dev nD) (i : grid0.Coords) (arg2 : Memref sig .tc .vmem S2048x30 .f32) (harg2 : arg2.IsWhole) (arg3 : Memref sig .tc .vmem S2048x30 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : ¬cond0_1 i)
    (x0 : Vec F S2048x30 .f32) (x1 : Vec F S2048x30 .f32) (xs0 : Vec F S8x128 .f32) (y : S8x128.Idx)
    (h : (y 0).val ≠ 0 ∨ (y 1).val ≠ 0) :
    sout0_B_0 c i arg2 harg2 arg3 harg3 arg4 harg4 arg5 harg5 hc0 hc1 x0 x1 xs0 y = xs0 y := by
  unfold sout0_B_0 kernelRun0_B
  dsimp only
  rcases h with h | h
  · refine (View.read_writes_cons_unit_of_not_mem _ _ inb_S8x128_S1x1_0_0 _ [] y rfl (0 : Fin 2) (Or.inr ?_)).trans ?_
    · show 0 + 1 ≤ (y 0).val; omega
    · rw [View.writes_nil, harg5.read_unread]
  · refine (View.read_writes_cons_unit_of_not_mem _ _ inb_S8x128_S1x1_0_0 _ [] y rfl (1 : Fin 2) (Or.inr ?_)).trans ?_
    · show 0 + 1 ≤ (y 1).val; omega
    · rw [View.writes_nil, harg5.read_unread]

theorem sout_C_corner (c : Dev nD) (i : grid0.Coords) (arg2 : Memref sig .tc .vmem S2048x30 .f32) (harg2 : arg2.IsWhole) (arg3 : Memref sig .tc .vmem S2048x30 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec F S2048x30 .f32) (x1 : Vec F S2048x30 .f32) (xs0 : Vec F S8x128 .f32) (y : S8x128.Idx)
    (h0 : (y 0).val = 0) (h1 : (y 1).val = 0) :
    sout0_C_0 c i arg2 harg2 arg3 harg3 arg4 harg4 arg5 harg5 hc0 hc1 x0 x1 xs0 y = bodyPay x0 x1 (View.ld xs0 corner) (ix2 0 0) := by
  unfold sout0_C_0 kernelRun0_C
  dsimp only
  sl_unfold_words
  refine (View.read_writes_cons_unit_of_mem _ _ inb_S8x128_S1x1_0_0 _ [] y (ix2 0 0) rfl (fun a => ?_)).trans ?_
  · match a with
    | ⟨0, _⟩ => show (y 0).val = 0 + 0; omega
    | ⟨1, _⟩ => show (y 1).val = 0 + 0; omega
  · simp only [View.readAt_eq_ld, harg2.read_unread, harg3.read_unread, harg5.read_unread, View.ld_unit_zero (S := S2048x30) hz2]
    rfl

theorem sout_C_rest (c : Dev nD) (i : grid0.Coords) (arg2 : Memref sig .tc .vmem S2048x30 .f32) (harg2 : arg2.IsWhole) (arg3 : Memref sig .tc .vmem S2048x30 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec F S2048x30 .f32) (x1 : Vec F S2048x30 .f32) (xs0 : Vec F S8x128 .f32) (y : S8x128.Idx)
    (h : (y 0).val ≠ 0 ∨ (y 1).val ≠ 0) :
    sout0_C_0 c i arg2 harg2 arg3 harg3 arg4 harg4 arg5 harg5 hc0 hc1 x0 x1 xs0 y = xs0 y := by
  unfold sout0_C_0 kernelRun0_C
  dsimp only
  rcases h with h | h
  · refine (View.read_writes_cons_unit_of_not_mem _ _ inb_S8x128_S1x1_0_0 _ [] y rfl (0 : Fin 2) (Or.inr ?_)).trans ?_
    · show 0 + 1 ≤ (y 0).val; omega
    · rw [View.writes_nil, harg5.read_unread]
  · refine (View.read_writes_cons_unit_of_not_mem _ _ inb_S8x128_S1x1_0_0 _ [] y rfl (1 : Fin 2) (Or.inr ?_)).trans ?_
    · show 0 + 1 ≤ (y 1).val; omega
    · rw [View.writes_nil, harg5.read_unread]

/-- At the last step of a core the body copies the accumulator, as it stands after this step's update, to the output block. -/
theorem out_C (c : Dev nD) (i : grid0.Coords) (arg2 : Memref sig .tc .vmem S2048x30 .f32) (harg2 : arg2.IsWhole) (arg3 : Memref sig .tc .vmem S2048x30 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec F S2048x30 .f32) (x1 : Vec F S2048x30 .f32) (xs0 : Vec F S8x128 .f32) (y : S1x8x128.Idx) :
    out0_C_2 c i arg2 harg2 arg3 harg3 arg4 harg4 arg5 harg5 hc0 hc1 x0 x1 xs0 y = sout0_C_0 c i arg2 harg2 arg3 harg3 arg4 harg4 arg5 harg5 hc0 hc1 x0 x1 xs0 (fun a => y a.succ) := by
  unfold out0_C_2 sout0_C_0 kernelRun0_C
  dsimp only
  sl_unfold_words
  refine (View.read_writes_cons_unit_of_mem _ _ inb_S1x8x128_S1x8x128_0_0_0 _ [] y y rfl (fun a => ?_)).trans ?_
  · match a with
    | ⟨0, _⟩ => show (y 0).val = 0 + (y 0).val; omega
    | ⟨1, _⟩ => show (y 1).val = 0 + (y 1).val; omega
    | ⟨2, _⟩ => show (y 2).val = 0 + (y 2).val; omega
  · unfold k0_pay2
    refine (shapeCast_addUnit_apply (n := 2) ![8, 128] _ _ y).trans ?_
    show View.ld (View.read (Elt F) arg5.view _) (Rect.unit (s := S8x128) ![0, 0] S8x128.size inb_S8x128_S8x128_0_0) (fun a => y a.succ) = _
    exact congrFun (View.ld_unit_zero (S := S8x128) hz2 inb_S8x128_S8x128_0_0 _) _

theorem sout_A_corner (c : Dev nD) (i : grid0.Coords) (arg2 : Memref sig .tc .vmem S2048x30 .f32) (harg2 : arg2.IsWhole) (arg3 : Memref sig .tc .vmem S2048x30 .f32) (harg3 : arg3.IsWhole) (arg4 : Memref sig .tc .vmem S1x8x128 .f32) (harg4 : arg4.IsWhole) (arg5 : Memref sig .tc .vmem S8x128 .f32) (harg5 : arg5.IsWhole) (hc0 : cond0_0 i) (hc1 : ¬cond0_1 i)
    (x0 : Vec F S2048x30 .f32) (x1 : Vec F S2048x30 .f32) (y : S8x128.Idx)
    (h0 : (y 0).val = 0) (h1 : (y 1).val = 0) :
    sout0_A_0 c i arg2 harg2 arg3 harg3 arg4 harg4 arg5 harg5 hc0 hc1 x0 x1 y = bodyPay x0 x1 (View.ld (k0_pay3 (F := F)) corner) (ix2 0 0) := by
  unfold sout0_A_0 kernelRun0_A
  dsimp only
  sl_unfold_words
  refine (View.read_writes_cons_unit_of_mem _ _ inb_S8x128_S1x1_0_0 _ _ y (ix2 0 0) rfl (fun a => ?_)).trans ?_
  · match a with
    | ⟨0, _⟩ => show (y 0).val = 0 + 0; omega
    | ⟨1, _⟩ => show (y 1).val = 0 + 0; omega
  · have hcov : ∀ y' : S8x128.Idx, ∃ p ∈ [(⟨Rect.unit (s := S8x128) ![0, 0] S8x128.size inb_S8x128_S8x128_0_0, k0_pay3 (F := F)⟩ : View.Piece (Elt F) S8x128 .f32)], y' ∈ p.1.set :=
      fun y' => ⟨_, List.mem_singleton_self _, View.mem_set_unit_zero hz2 inb_S8x128_S8x128_0_0 y'⟩
    rw [View.readCov_eq_canon_ld _ _ _ hcov, View.canon_unit_zero hz2]
    simp only [View.readAt_eq_ld, harg2.read_unread, harg3.read_unread, View.ld_unit_zero (S := S2048x30) hz2]
    rfl

theorem sout_A_rest (c : Dev nD) (i : grid0.Coords) (arg2 : Memref sig .tc .vmem S2048x30 .f32) (harg2 : arg2.IsWhole) (arg3 : Memref sig .tc .vmem S2048x30 .f32) (harg3 : arg3.IsWhole) (arg4 : Memref sig .tc .vmem S1x8x128 .f32) (harg4 : arg4.IsWhole) (arg5 : Memref sig .tc .vmem S8x128 .f32) (harg5 : arg5.IsWhole) (hc0 : cond0_0 i) (hc1 : ¬cond0_1 i)
    (x0 : Vec F S2048x30 .f32) (x1 : Vec F S2048x30 .f32) (y : S8x128.Idx)
    (h : (y 0).val ≠ 0 ∨ (y 1).val ≠ 0) :
    sout0_A_0 c i arg2 harg2 arg3 harg3 arg4 harg4 arg5 harg5 hc0 hc1 x0 x1 y = k0_pay3 (F := F) y := by
  unfold sout0_A_0 kernelRun0_A
  dsimp only
  have hw : ∀ (w : _) , VS0_0.read (Elt F) (VS0_0.writes (Elt F) VS0_0.junk [(⟨Rect.unit (s := S8x128) ![0, 0] S8x128.size inb_S8x128_S8x128_0_0, w⟩ : View.Piece (Elt F) S8x128 .f32)]) y = w y := fun w =>
    View.read_writes_cons_unit_of_mem _ _ inb_S8x128_S8x128_0_0 w [] y y rfl (fun a => match a with
      | ⟨0, _⟩ => by show (y 0).val = 0 + (y 0).val; omega
      | ⟨1, _⟩ => by show (y 1).val = 0 + (y 1).val; omega)
  rcases h with h | h
  · refine (View.read_writes_cons_unit_of_not_mem _ _ inb_S8x128_S1x1_0_0 _ _ y rfl (0 : Fin 2) (Or.inr ?_)).trans (hw _)
    show 0 + 1 ≤ (y 0).val; omega
  · refine (View.read_writes_cons_unit_of_not_mem _ _ inb_S8x128_S1x1_0_0 _ _ y rfl (1 : Fin 2) (Or.inr ?_)).trans (hw _)
    show 0 + 1 ≤ (y 1).val; omega

end Cert.Yolo.Pieces
end
-- ==== Proof.Spec.lean ====
import Idealize.ShloMosaic.PureOps.Ideal
import Idealize.ShloMosaic.PureOps.Ideal.Laws
import Idealize.ShloMosaic.Lib.ValueIdx

/-!
# The detection loss, row by row

Both programs compute one number from two arrays of shape [16384, 7, 7, 30]: a prediction `y` and a
target `g`.  Each of the 16384·7·7 = 802816 cells is a row of 30 channels: two predicted boxes
(channels 0–3 and 5–8, each centre x, centre y, width, height), their confidences (4 and 9) and 20
class scores (10–29).  A cell's loss is

  5·xy + 5·wh + conf_obj + ½·conf_noobj + class

where the box that overlaps the target box more (intersection over union) is the one held
responsible.  The loss is the sum of the cells' losses divided by 16384.

This module states every quantity on the extended reals, as a function of one row, and the two
arrangements of the total: the kernel's (cells in blocks of 2048, 196 blocks per core, the two cores'
sums added) and the reference's (each of the five terms summed over all cells first, then weighted).
-/

noncomputable section

namespace Cert.Yolo

open Idealize.ShloMosaic Idealize.ShloMosaic.ValueIdx

/-! ## Constants -/

def zeroC : EReal := Ideal.ofBits .f32 0x00000000#32
def oneC : EReal := Ideal.ofBits .f32 0x3F800000#32
def halfC : EReal := Ideal.ofBits .f32 0x3F000000#32
def twoC : EReal := Ideal.ofBits .f32 0x40000000#32
def fiveC : EReal := Ideal.ofBits .f32 0x40A00000#32
def cellsC : EReal := Ideal.ofBits .f32 0x46800000#32

/-- A comparison's bit as a number: 1 when set, 0 when clear. -/
def flag (b : BitVec 1) : EReal := (((b.setWidth 32).toInt : ℝ) : EReal)

def sq (a : EReal) : EReal := a * a

/-! ## One row -/

/-- A cell's 30 channels. -/
abbrev Row := Fin 30 → EReal

/-- Intersection over union of two boxes given by centre, width and height: the overlap rectangle's
    sides are the smaller right/bottom edge minus the larger left/top edge; when either is negative
    the boxes do not meet and the value is 0; a zero union is replaced by 1 before dividing. -/
def iou (tx ty tw th px py pw ph : EReal) : EReal :=
  let xl := max (tx - tw * halfC) (px - pw * halfC)
  let yt := max (ty - th * halfC) (py - ph * halfC)
  let xr := min (tx + tw * halfC) (px + pw * halfC)
  let yb := min (ty + th * halfC) (py + ph * halfC)
  let inter := (xr - xl) * (yb - yt)
  let union := tw * th + pw * ph - inter
  Scalar.select (IntOp.andi (Ideal.cmp .oge xr xl) (Ideal.cmp .oge yb yt))
    (Ideal.div inter (Scalar.select (Ideal.cmp .oeq union zeroC) oneC union)) zeroC

/-- 1 where the target's confidence is positive. -/
def obj (g : Row) : EReal := flag (Ideal.cmp .ogt (g 4) zeroC)
/-- 1 where the target's confidence is exactly zero. -/
def noobj (g : Row) : EReal := flag (Ideal.cmp .oeq (g 4) zeroC)

def iou1 (g p : Row) : EReal := iou (g 0) (g 1) (g 2) (g 3) (p 0) (p 1) (p 2) (p 3)
def iou2 (g p : Row) : EReal := iou (g 0) (g 1) (g 2) (g 3) (p 5) (p 6) (p 7) (p 8)

/-- 1 where the first box overlaps the target strictly more than the second (ties go to the second). -/
def resp (g p : Row) : EReal := flag (Ideal.cmp .ogt (iou1 g p) (iou2 g p))
def m1 (g p : Row) : EReal := obj g * resp g p
def m2 (g p : Row) : EReal := obj g * (oneC - resp g p)

def coT (g p : Row) : EReal := m1 g p * sq (iou1 g p - p 4) + m2 g p * sq (iou2 g p - p 9)
def xyT (g p : Row) : EReal :=
  m1 g p * (sq (g 0 - p 0) + sq (g 1 - p 1)) + m2 g p * (sq (g 0 - p 5) + sq (g 1 - p 6))
def whT (g p : Row) : EReal :=
  m1 g p * (sq (g 2 - p 2) + sq (g 3 - p 3)) + m2 g p * (sq (g 2 - p 7) + sq (g 3 - p 8))
def cnT (g p : Row) : EReal := noobj g * sq (g 4 - p 4)

/-- Class channel `10 + k`. -/
abbrev cls (k : Fin 20) : Fin 30 := ⟨10 + k.val, by have := k.isLt; omega⟩

def clsT (g p : Row) (k : Fin 20) : EReal := obj g * sq (g (cls k) - p (cls k))
def clsSum (g p : Row) : EReal := ∑ k : Fin 20, clsT g p k

/-- One cell's loss, grouped as the kernel adds it. -/
def rowT (g p : Row) : EReal :=
  (((fiveC * xyT g p + fiveC * whT g p) + coT g p) + halfC * cnT g p) + clsSum g p

/-! ## The arrays' rows -/

/-- The array type both programs take. -/
abbrev Arr := (⟨4, ![16384, 7, 7, 30]⟩ : Shape).Idx → EReal

/-- Cell `(b, i, j)` of an array, as a row. -/
def cellRow (x : Arr) (j : (⟨3, ![16384, 7, 7]⟩ : Shape).Idx) : Row := fun k => x (ix4 (j 0) (j 1) (j 2) k)

/-- Row `n` of the array flattened to [802816, 30] in row-major order: cell `(n / 49, n / 7 % 7, n % 7)`.
    Total on the naturals (the leading coordinate is reduced mod 16384, which changes nothing below 802816). -/
def flatRow (x : Arr) (n : ℕ) : Row := fun k =>
  x (ix4 ⟨n / 49 % 16384, Nat.mod_lt _ (by norm_num)⟩ ⟨n / 7 % 7, Nat.mod_lt _ (by norm_num)⟩
    ⟨n % 7, Nat.mod_lt _ (by norm_num)⟩ k)

/-! ## The kernel's arrangement -/

/-- Block `b`'s 2048 cells summed. -/
def tileSum (y g : Arr) (b : ℕ) : EReal := ∑ r : Fin 2048, rowT (flatRow g (b * 2048 + r.val)) (flatRow y (b * 2048 + r.val))

/-- Core `c`'s accumulator after its step `s`: started at zero, one block added per step. -/
def accSum (y g : Arr) (c s : ℕ) : EReal := zeroC + ∑ i ∈ Finset.range (s + 1), tileSum y g (c * 196 + i)

/-- The kernel's result: the two cores' accumulators after their last step, added and divided by 16384. -/
def kernelTotal (y g : Arr) : EReal := Ideal.div (accSum y g 0 195 + accSum y g 1 195) cellsC

/-! ## The reference's arrangement -/

/-- The reference's result: each term summed over all cells from zero, weighted, added, divided by 16384; the
    class term is summed over cells and class channels at once. -/
def referenceTotal (y g : Arr) : EReal :=
  Ideal.div
    ((((fiveC * (zeroC + ∑ j : (⟨3, ![16384, 7, 7]⟩ : Shape).Idx, xyT (cellRow g j) (cellRow y j))
        + fiveC * (zeroC + ∑ j : (⟨3, ![16384, 7, 7]⟩ : Shape).Idx, whT (cellRow g j) (cellRow y j)))
        + (zeroC + ∑ j : (⟨3, ![16384, 7, 7]⟩ : Shape).Idx, coT (cellRow g j) (cellRow y j)))
        + halfC * (zeroC + ∑ j : (⟨3, ![16384, 7, 7]⟩ : Shape).Idx, cnT (cellRow g j) (cellRow y j)))
        + (zeroC + ∑ j : (⟨4, ![16384, 7, 7, 20]⟩ : Shape).Idx,
            clsT (cellRow g (ix3 (j 0) (j 1) (j 2))) (cellRow y (ix3 (j 0) (j 1) (j 2))) (j 3)))
    cellsC

end Cert.Yolo

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.KernelRow.lean ====
import proofs.«107280_j5325759447314_1_alg».proof.Proof.Gen.KernelIdeal.Skeleton
import proofs.«107280_j5325759447314_1_alg».proof.Proof.Spec
import proofs.«107280_j5325759447314_1_alg».proof.Proof.BodyTerm
import proofs.«107280_j5325759447314_1_alg».proof.Proof.LibLayout
import Idealize.ShloMosaic.Lib.Pipeline.Value
import Idealize.ShloMosaic.Lib.ValueIdx
import Idealize.ShloMosaic.PureOps.Ideal.Laws

/-!
# The kernel's body, row by row

The body loads a block of 2048 rows of the prediction (`x0`) and of the target (`x1`), computes every
row's loss with elementwise operations on one-column vectors, sums the column, and adds the sum to the
accumulator's entry (0, 0).  Every operation but two acts on each row separately, so the value at row
`r` of each intermediate is a function of row `r` of the two blocks; the two exceptions are the sum over
the 20 class channels (within a row) and the final sum over the rows.  This module reads each named
intermediate at a row and identifies it with the specification's function of that row.
-/

noncomputable section

namespace Cert.Yolo.KernelRow

open Idealize.ShloMosaic Idealize.ShloMosaic.ValueIdx Cert.KernelIdeal Cert.KernelIdeal.Gen Cert.Yolo Cert.Attn.Layout

/-! ## Columns of a two-axis array -/

section cols
variable {α : Type}

theorem slice_cols_lt {R A B k : ℕ} (h : (⟨2, ![R, A]⟩ : Shape).Slices ![0, k] ⟨2, ![R, B]⟩) (j : Fin B) :
    k + j.val < A := by
  obtain ⟨_, h2⟩ := h
  have h1 := h2 (1 : Fin 2)
  have hj := j.isLt
  change k + B ≤ A at h1
  omega

/-- Columns `k … k + B - 1` of an `[R, A]` array, read at `(r, j)`: the array at `(r, k + j)`. -/
theorem slice_cols {R A B k : ℕ} (x : (⟨2, ![R, A]⟩ : Shape).Idx → α)
    (h : (⟨2, ![R, A]⟩ : Shape).Slices ![0, k] ⟨2, ![R, B]⟩) (r : Fin R) (j : Fin B) :
    extractStridedSlice ⟨2, ![R, B]⟩ ![0, k] x h (ix2 r j) = x (ix2 r ⟨k + j.val, slice_cols_lt h j⟩) :=
  extractStridedSlice_apply _ x h _ _ fun a => match a with
    | ⟨0, _⟩ => by show r.val = 0 + r.val; omega
    | ⟨1, _⟩ => rfl

end cols

variable [Cert.KernelIdeal.Facts]

/-- Row `r` of a block. -/
abbrev blockRow (x : Vec Ideal S2048x30 .f32) (r : Fin 2048) : Row := fun k => x (ix2 r k)

/-! ## The two intersection-over-union computations, with the pieces the body computed earlier passed in -/

/-- The first box pair: the body already holds `tx - tw/2` (`xlT`) and `pw/2` (`pwh`). -/
def iouK (tx ty tw th px py pw ph xlT pwh : EReal) : EReal :=
  let xl := max xlT (px - pwh)
  let yt := max (ty - th * halfC) (py - ph * halfC)
  let xr := min (tx + tw * halfC) (px + pw * halfC)
  let yb := min (ty + th * halfC) (py + ph * halfC)
  let inter := (xr - xl) * (yb - yt)
  let union := tw * th + pw * ph - inter
  Scalar.select (IntOp.andi (Ideal.cmp .oge xr xl) (Ideal.cmp .oge yb yt))
    (Ideal.div inter (Scalar.select (Ideal.cmp .oeq union zeroC) oneC union)) zeroC

theorem iouK_eq (tx ty tw th px py pw ph : EReal) :
    iouK tx ty tw th px py pw ph (tx - tw * halfC) (pw * halfC) = iou tx ty tw th px py pw ph := rfl

/-- The second box pair: the body already holds `tw/2` (`twh`). -/
def iouK' (tx ty tw th px py pw ph twh : EReal) : EReal :=
  let xl := max (tx - twh) (px - pw * halfC)
  let yt := max (ty - th * halfC) (py - ph * halfC)
  let xr := min (tx + tw * halfC) (px + pw * halfC)
  let yb := min (ty + th * halfC) (py + ph * halfC)
  let inter := (xr - xl) * (yb - yt)
  let union := tw * th + pw * ph - inter
  Scalar.select (IntOp.andi (Ideal.cmp .oge xr xl) (Ideal.cmp .oge yb yt))
    (Ideal.div inter (Scalar.select (Ideal.cmp .oeq union zeroC) oneC union)) zeroC

theorem iouK'_eq (tx ty tw th px py pw ph : EReal) :
    iouK' tx ty tw th px py pw ph (tw * halfC) = iou tx ty tw th px py pw ph := rfl

theorem pay22_apply (v33 v34 v35 v36 v37 v38 v39 v40 v43 v45 : FVec Ideal S2048x1 .f32) (j : S2048x1.Idx) :
    k0_pay22 v33 v34 v35 v36 v37 v38 v39 v40 v43 v45 j
      = iouK (v33 j) (v34 j) (v35 j) (v36 j) (v37 j) (v38 j) (v39 j) (v40 j) (v43 j) (v45 j) := by
  unfold k0_pay22 iouK; rfl

theorem pay32_apply (v86 v87 v88 v89 v90 v91 v92 v93 v95 : FVec Ideal S2048x1 .f32) (j : S2048x1.Idx) :
    k0_pay32 v86 v87 v88 v89 v90 v91 v92 v93 v95 j
      = iouK' (v86 j) (v87 j) (v88 j) (v89 j) (v90 j) (v91 j) (v92 j) (v93 j) (v95 j) := by
  unfold k0_pay32 iouK'; rfl

theorem pay33_apply (v85 v86 v87 v88 v89 v90 v91 v92 v93 v95 : FVec Ideal S2048x1 .f32) (j : S2048x1.Idx) :
    k0_pay33 v85 v86 v87 v88 v89 v90 v91 v92 v93 v95 j
      = flag (Ideal.cmp .ogt (v85 j) (k0_pay32 v86 v87 v88 v89 v90 v91 v92 v93 v95 j)) := by
  unfold k0_pay33; rfl

theorem pay34_apply (v11 v85 v86 v87 v88 v89 v90 v91 v92 v93 v95 : FVec Ideal S2048x1 .f32) (j : S2048x1.Idx) :
    k0_pay34 v11 v85 v86 v87 v88 v89 v90 v91 v92 v93 v95 j
      = v11 j * k0_pay33 v85 v86 v87 v88 v89 v90 v91 v92 v93 v95 j := by
  unfold k0_pay34; rfl

theorem pay35_apply (v85 v86 v87 v88 v89 v90 v91 v92 v93 v95 : FVec Ideal S2048x1 .f32) (j : S2048x1.Idx) :
    k0_pay35 v85 v86 v87 v88 v89 v90 v91 v92 v93 v95 j
      = oneC - k0_pay33 v85 v86 v87 v88 v89 v90 v91 v92 v93 v95 j := by
  unfold k0_pay35; rfl

/-! ## The intermediates that read the blocks' columns -/

theorem u_eq (u : Fin 1) : u = 0 := Subsingleton.elim _ _

/-- `%11`: 1 where the target's confidence is positive. -/
theorem pay6_row (x1 : Vec Ideal S2048x30 .f32) (r : Fin 2048) (u : Fin 1) :
    k0_pay6 x1 (ix2 r u) = obj (blockRow x1 r) := by
  obtain rfl := u_eq u
  simp only [k0_pay6, k0_pay5, shapeCast_self, sitofp_apply, extui_apply, cmpf_apply, broadcast_apply, slice_cols]
  rfl

/-- `%29`: the no-object confidence term. -/
theorem pay8_row (x0 x1 : Vec Ideal S2048x30 .f32) (r : Fin 2048) (u : Fin 1) :
    k0_pay8 x0 x1 (ix2 r u) = cnT (blockRow x1 r) (blockRow x0 r) := by
  obtain rfl := u_eq u
  simp only [k0_pay8, k0_pay5, k0_pay4, shapeCast_self, sitofp_apply, extui_apply, cmpf_apply, broadcast_apply,
    mulf_apply, subf_apply, slice_cols]
  rfl

/-- `%24`: the class term, the sum over the 20 class channels of the row. -/
theorem pay7_row (x0 x1 : Vec Ideal S2048x30 .f32) (r : Fin 2048) (u : Fin 1) :
    k0_pay7 x0 x1 (ix2 r u) = clsSum (blockRow x1 r) (blockRow x0 r) := by
  unfold k0_pay7
  rw [shapeCast_a_a1_apply]
  refine (Ideal.multiReduction_add_single _ _ reduces_S2048x20_S2048 _ _ (ix1 r)).trans ?_
  show ∑ k : Fin 20, _ = ∑ k : Fin 20, _
  refine Finset.sum_congr rfl fun k _ => ?_
  have hl : reduces_S2048x20_S2048.lift (ix1 r) k = ix2 r k :=
    funext fun a => match a with
      | ⟨0, _⟩ => Fin.ext rfl
      | ⟨1, _⟩ => Fin.ext rfl
  rw [hl]
  simp only [mulf_apply, subf_apply, broadcastTo_a1_ab_apply, pay6_row, k0_pay5, k0_pay4, shapeCast_self, slice_cols]
  rfl

/-- The target box's and the first predicted box's coordinates, and the two half-widths the body computes early. -/
theorem pay12_row (x1 : Vec Ideal S2048x30 .f32) (r : Fin 2048) (u : Fin 1) : k0_pay12 x1 (ix2 r u) = x1 (ix2 r 0) := by
  obtain rfl := u_eq u
  simp only [k0_pay12, k0_pay9, k0_pay5, shapeCast_self, slice_cols]; rfl
theorem pay13_row (x1 : Vec Ideal S2048x30 .f32) (r : Fin 2048) (u : Fin 1) : k0_pay13 x1 (ix2 r u) = x1 (ix2 r 1) := by
  obtain rfl := u_eq u
  simp only [k0_pay13, k0_pay9, k0_pay5, shapeCast_self, slice_cols]; rfl
theorem pay14_row (x1 : Vec Ideal S2048x30 .f32) (r : Fin 2048) (u : Fin 1) : k0_pay14 x1 (ix2 r u) = x1 (ix2 r 2) := by
  obtain rfl := u_eq u
  simp only [k0_pay14, k0_pay9, k0_pay5, shapeCast_self, slice_cols]; rfl
theorem pay15_row (x1 : Vec Ideal S2048x30 .f32) (r : Fin 2048) (u : Fin 1) : k0_pay15 x1 (ix2 r u) = x1 (ix2 r 3) := by
  obtain rfl := u_eq u
  simp only [k0_pay15, k0_pay9, k0_pay5, shapeCast_self, slice_cols]; rfl
theorem pay16_row (x0 : Vec Ideal S2048x30 .f32) (r : Fin 2048) (u : Fin 1) : k0_pay16 x0 (ix2 r u) = x0 (ix2 r 0) := by
  obtain rfl := u_eq u
  simp only [k0_pay16, k0_pay10, k0_pay4, shapeCast_self, slice_cols]; rfl
theorem pay17_row (x0 : Vec Ideal S2048x30 .f32) (r : Fin 2048) (u : Fin 1) : k0_pay17 x0 (ix2 r u) = x0 (ix2 r 1) := by
  obtain rfl := u_eq u
  simp only [k0_pay17, k0_pay10, k0_pay4, shapeCast_self, slice_cols]; rfl
theorem pay18_row (x0 : Vec Ideal S2048x30 .f32) (r : Fin 2048) (u : Fin 1) : k0_pay18 x0 (ix2 r u) = x0 (ix2 r 2) := by
  obtain rfl := u_eq u
  simp only [k0_pay18, k0_pay10, k0_pay4, shapeCast_self, slice_cols]; rfl
theorem pay19_row (x0 : Vec Ideal S2048x30 .f32) (r : Fin 2048) (u : Fin 1) : k0_pay19 x0 (ix2 r u) = x0 (ix2 r 3) := by
  obtain rfl := u_eq u
  simp only [k0_pay19, k0_pay10, k0_pay4, shapeCast_self, slice_cols]; rfl
theorem pay20_row (x1 : Vec Ideal S2048x30 .f32) (r : Fin 2048) (u : Fin 1) :
    k0_pay20 x1 (ix2 r u) = x1 (ix2 r 0) - x1 (ix2 r 2) * halfC := by
  simp only [k0_pay20, subf_apply, mulf_apply, broadcast_apply, pay12_row, pay14_row]; rfl
theorem pay21_row (x0 : Vec Ideal S2048x30 .f32) (r : Fin 2048) (u : Fin 1) :
    k0_pay21 x0 (ix2 r u) = x0 (ix2 r 2) * halfC := by
  simp only [k0_pay21, mulf_apply, broadcast_apply, pay18_row]; rfl

/-- The same coordinates read again from the four-column slices, and the second predicted box's. -/
theorem pay23_row (x1 : Vec Ideal S2048x30 .f32) (r : Fin 2048) (u : Fin 1) : k0_pay23 (k0_pay9 x1) (ix2 r u) = x1 (ix2 r 0) := by
  obtain rfl := u_eq u
  simp only [k0_pay23, k0_pay9, k0_pay5, shapeCast_self, slice_cols]; rfl
theorem pay24_row (x1 : Vec Ideal S2048x30 .f32) (r : Fin 2048) (u : Fin 1) : k0_pay24 (k0_pay9 x1) (ix2 r u) = x1 (ix2 r 1) := by
  obtain rfl := u_eq u
  simp only [k0_pay24, k0_pay9, k0_pay5, shapeCast_self, slice_cols]; rfl
theorem pay25_row (x1 : Vec Ideal S2048x30 .f32) (r : Fin 2048) (u : Fin 1) : k0_pay25 (k0_pay9 x1) (ix2 r u) = x1 (ix2 r 2) := by
  obtain rfl := u_eq u
  simp only [k0_pay25, k0_pay9, k0_pay5, shapeCast_self, slice_cols]; rfl
theorem pay26_row (x1 : Vec Ideal S2048x30 .f32) (r : Fin 2048) (u : Fin 1) : k0_pay26 (k0_pay9 x1) (ix2 r u) = x1 (ix2 r 3) := by
  obtain rfl := u_eq u
  simp only [k0_pay26, k0_pay9, k0_pay5, shapeCast_self, slice_cols]; rfl
theorem pay27_row (x0 : Vec Ideal S2048x30 .f32) (r : Fin 2048) (u : Fin 1) : k0_pay27 (k0_pay11 x0) (ix2 r u) = x0 (ix2 r 5) := by
  obtain rfl := u_eq u
  simp only [k0_pay27, k0_pay11, k0_pay4, shapeCast_self, slice_cols]; rfl
theorem pay28_row (x0 : Vec Ideal S2048x30 .f32) (r : Fin 2048) (u : Fin 1) : k0_pay28 (k0_pay11 x0) (ix2 r u) = x0 (ix2 r 6) := by
  obtain rfl := u_eq u
  simp only [k0_pay28, k0_pay11, k0_pay4, shapeCast_self, slice_cols]; rfl
theorem pay29_row (x0 : Vec Ideal S2048x30 .f32) (r : Fin 2048) (u : Fin 1) : k0_pay29 (k0_pay11 x0) (ix2 r u) = x0 (ix2 r 7) := by
  obtain rfl := u_eq u
  simp only [k0_pay29, k0_pay11, k0_pay4, shapeCast_self, slice_cols]; rfl
theorem pay30_row (x0 : Vec Ideal S2048x30 .f32) (r : Fin 2048) (u : Fin 1) : k0_pay30 (k0_pay11 x0) (ix2 r u) = x0 (ix2 r 8) := by
  obtain rfl := u_eq u
  simp only [k0_pay30, k0_pay11, k0_pay4, shapeCast_self, slice_cols]; rfl
theorem pay31_row (x1 : Vec Ideal S2048x30 .f32) (r : Fin 2048) (u : Fin 1) :
    k0_pay31 (k0_pay9 x1) (ix2 r u) = x1 (ix2 r 2) * halfC := by
  simp only [k0_pay31, mulf_apply, broadcast_apply, pay25_row]; rfl

/-! ## The weighted coordinate and confidence terms -/

/-- `%202` at a row, from the row's channels and the masks and overlaps computed before it: `o` the object mask,
    `i1`, `i2` the two overlaps, `mm1` the first box's mask, `r2` one minus the first box's responsibility. -/
def mainK (g p : Row) (o i1 i2 mm1 r2 : EReal) : EReal :=
  let mm2 := o * r2
  let co := mm1 * sq (i1 - p 4) + mm2 * sq (i2 - p 9)
  let xy := mm1 * (sq (g 0 - p 0) + sq (g 1 - p 1)) + mm2 * (sq (g 0 - p 5) + sq (g 1 - p 6))
  let wh := mm1 * (sq (g 2 - p 2) + sq (g 3 - p 3)) + mm2 * (sq (g 2 - p 7) + sq (g 3 - p 8))
  (fiveC * xy + fiveC * wh) + co

theorem mainK_eq (g p : Row) :
    mainK g p (obj g) (iou1 g p) (iou2 g p) (m1 g p) (oneC - resp g p)
      = (fiveC * xyT g p + fiveC * whT g p) + coT g p := rfl

theorem pay36_row (v4 v6 : FVec Ideal S2048x30 .f32) (v11 v85 v138 v142 v144 : FVec Ideal S2048x1 .f32)
    (r : Fin 2048) (u : Fin 1) :
    k0_pay36 v4 v6 v11 v85 v138 v142 v144 (ix2 r u)
      = mainK (fun k => v6 (ix2 r k)) (fun k => v4 (ix2 r k)) (v11 (ix2 r u)) (v85 (ix2 r u)) (v138 (ix2 r u))
          (v142 (ix2 r u)) (v144 (ix2 r u)) := by
  obtain rfl := u_eq u
  simp only [k0_pay36, mulf_apply, addf_apply, subf_apply, broadcast_apply, slice_cols]
  rfl

/-! ## The stored value -/

/-- `%213`: the accumulator's entry plus the sum over the 2048 rows of the row's five terms. -/
theorem pay1_apply (v24 v29 v202 : FVec Ideal S2048x1 .f32) (a : Vec Ideal S1x1 .f32) :
    k0_pay1 v24 v29 v202 a (ix2 (0 : Fin 1) (0 : Fin 1))
      = a (ix2 (0 : Fin 1) (0 : Fin 1)) + ∑ r : Fin 2048, ((v202 (ix2 r 0) + halfC * v29 (ix2 r 0)) + v24 (ix2 r 0)) := by
  simp only [k0_pay1, shapeCast_self, addf_apply]
  congr 1
  refine (shapeCast_a_a1_apply _ _ (0 : Fin 1) (0 : Fin 1)).trans ?_
  refine (Ideal.multiReduction_add_single _ _ reduces_S2048x1_S1 _ _ (ix1 (0 : Fin 1))).trans ?_
  show ∑ r : Fin 2048, _ = _
  refine Finset.sum_congr rfl fun r _ => ?_
  have hl : reduces_S2048x1_S1.lift (ix1 (0 : Fin 1)) r = ix2 r 0 :=
    funext fun a => match a with
      | ⟨0, _⟩ => Fin.ext rfl
      | ⟨1, _⟩ => Fin.ext rfl
  rw [hl]
  rfl

/-- The two overlaps, the responsibility and the masks at a row are the specification's. -/
theorem bV85_row (x0 x1 : Vec Ideal S2048x30 .f32) (r : Fin 2048) (u : Fin 1) :
    bV85 x0 x1 (ix2 r u) = iou1 (blockRow x1 r) (blockRow x0 r) := by
  unfold bV85
  rw [pay22_apply, pay12_row, pay13_row, pay14_row, pay15_row, pay16_row, pay17_row, pay18_row, pay19_row, pay20_row,
    pay21_row, iouK_eq]
  rfl

theorem bV138_row (x0 x1 : Vec Ideal S2048x30 .f32) (r : Fin 2048) (u : Fin 1) :
    bV138 x0 x1 (ix2 r u) = iou2 (blockRow x1 r) (blockRow x0 r) := by
  unfold bV138 bV30 bV32
  rw [pay32_apply, pay23_row, pay24_row, pay25_row, pay26_row, pay27_row, pay28_row, pay29_row, pay30_row, pay31_row,
    iouK'_eq]
  rfl

theorem resp_row (x0 x1 : Vec Ideal S2048x30 .f32) (r : Fin 2048) (u : Fin 1) :
    k0_pay33 (bV85 x0 x1) (k0_pay23 (bV30 x1)) (k0_pay24 (bV30 x1)) (k0_pay25 (bV30 x1)) (k0_pay26 (bV30 x1))
      (k0_pay27 (bV32 x0)) (k0_pay28 (bV32 x0)) (k0_pay29 (bV32 x0)) (k0_pay30 (bV32 x0)) (k0_pay31 (bV30 x1)) (ix2 r u)
      = resp (blockRow x1 r) (blockRow x0 r) := by
  rw [pay33_apply, bV85_row]
  have h := bV138_row x0 x1 r u
  unfold bV138 at h
  rw [h]
  rfl

theorem bV142_row (x0 x1 : Vec Ideal S2048x30 .f32) (r : Fin 2048) (u : Fin 1) :
    bV142 x0 x1 (ix2 r u) = m1 (blockRow x1 r) (blockRow x0 r) := by
  unfold bV142
  rw [pay34_apply, pay6_row, resp_row]
  rfl

theorem bV144_row (x0 x1 : Vec Ideal S2048x30 .f32) (r : Fin 2048) (u : Fin 1) :
    bV144 x0 x1 (ix2 r u) = oneC - resp (blockRow x1 r) (blockRow x0 r) := by
  unfold bV144
  rw [pay35_apply, resp_row]

/-- A row's loss as the body adds it. -/
theorem row_total (x0 x1 : Vec Ideal S2048x30 .f32) (r : Fin 2048) :
    (bV202 x0 x1 (ix2 r 0) + halfC * k0_pay8 x0 x1 (ix2 r 0)) + k0_pay7 x0 x1 (ix2 r 0)
      = rowT (blockRow x1 r) (blockRow x0 r) := by
  unfold bV202
  rw [pay36_row, pay8_row, pay7_row, pay6_row, bV85_row, bV138_row, bV142_row, bV144_row]
  simp only [k0_pay4, k0_pay5, shapeCast_self]
  rw [mainK_eq]
  rfl

/-- The stored value: the loaded entry plus the block's 2048 row losses. -/
theorem bodyPay_apply (x0 x1 : Vec Ideal S2048x30 .f32) (a : Vec Ideal S1x1 .f32) :
    bodyPay x0 x1 a (ix2 (0 : Fin 1) (0 : Fin 1))
      = a (ix2 (0 : Fin 1) (0 : Fin 1)) + ∑ r : Fin 2048, rowT (blockRow x1 r) (blockRow x0 r) := by
  unfold bodyPay
  rw [pay1_apply]
  congr 1
  exact Finset.sum_congr rfl fun r _ => row_total x0 x1 r

end Cert.Yolo.KernelRow

end
-- ==== Proof.KernelHost.lean ====
import proofs.«107280_j5325759447314_1_alg».proof.Proof.Gen.KernelIdeal.Frame
import proofs.«107280_j5325759447314_1_alg».proof.Proof.Spec
import Idealize.ShloMosaic.Lib.Pipeline.Value
import Idealize.ShloMosaic.Lib.StableHlo.Run
import Idealize.ShloMosaic.Lib.ValueLayout

/-!
# The kernel program's host side

Around its one region the kernel program does layout work only.  Before the region each input array
[16384, 7, 7, 30] is reshaped to [802816, 30]; the region reads it in blocks of 2048 rows, block `t` at
grid point `t`.  After the region the output array [2, 8, 128] is read at `(0, 0, 0)` and `(1, 0, 0)`
(one entry per core), the two entries are added and the sum is divided by 16384.

This module reads both ends at an index:

* `iblk0_row`, `iblk1_row`: entry `(r, k)` of an input's block at point `t` is channel `k` of row
  `t * 2048 + r` of the flattened input (`Cert.Yolo.flatRow`): the block's row `r` is row `t * 2048 + r` of
  the reshaped array, and the reshape keeps row-major positions, so row `n` is cell
  `(n / 49, n / 7 % 7, n % 7)`;
* `tail_v8`: the program's result is `(O (0,0,0) + O (1,0,0)) / 16384` for the output array `O` as the
  region leaves it.
-/

noncomputable section

namespace Cert.Yolo.KernelHost

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (c : Dev nD)

/-! ## The input blocks -/

/-- The reshape to [802816, 30] read at row `n`, channel `k`: the entry of the four-axis array with the same
    row-major position, `((n / 49 * 7 + n / 7 % 7) * 7 + n % 7) * 30 + k = n * 30 + k`. -/
theorem reshape_row (x : S16384x7x7x30.Idx → EReal) (n : Fin 802816) (k : Fin 30) :
    shapeCast S802816x30 x shapeCasts_S16384x7x7x30_S802816x30 (ix2 n k) = Cert.Yolo.flatRow x n.val k := by
  unfold Cert.Yolo.flatRow
  refine shapeCast_apply x shapeCasts_S16384x7x7x30_S802816x30 (ix2 n k) _ ?_
  rewrite [Shape.rowMajor_val_four, Shape.rowMajor_val_two]
  have hn := n.isLt
  have hk := k.isLt
  show (((n.val / 49 % 16384) * 7 + n.val / 7 % 7) * 7 + n.val % 7) * 30 + k.val = n.val * 30 + k.val
  omega

/-- When the region is entered, the first window's array is the reshape of the first argument … -/
theorem V_main_v0 : (V m c main_v0 : S802816x30.Idx → EReal)
    = shapeCast S802816x30 (m ((c : Thread nD τ).loc main_arg0)) shapeCasts_S16384x7x7x30_S802816x30 := by
  show StableHlo.after hostOps0 (fun b => m (c, b)) (Proc.devRef .tc main_v0) = _
  after_results
  rfl

/-- … and the second window's array the reshape of the second argument. -/
theorem V_main_v1 : (V m c main_v1 : S802816x30.Idx → EReal)
    = shapeCast S802816x30 (m ((c : Thread nD τ).loc main_arg1)) shapeCasts_S16384x7x7x30_S802816x30 := by
  show StableHlo.after hostOps0 (fun b => m (c, b)) (Proc.devRef .tc main_v1) = _
  after_results
  rfl

/-- The first window's index map at grid point `t` is `(t, 0)`: the point is `c * 196 + s` for its coordinates
    `(c, s)`, which is what the map computes — decided over the 392 points. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The second window's index map is the same. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry `(r, k)` of the first window's block at point `t` is entry `(t * 2048 + r, k)` of its array: a block's
    coordinate on an axis is the index map's value times the block's extent plus the coordinate inside the block. -/
theorem iblk0_at (t : Fin cfg0.N) (r : Fin 2048) (k : Fin 30) (hn : t.val * 2048 + r.val < 802816) :
    (iblk m c 0 t : Vec Ideal S2048x30 .f32) (ix2 r k)
      = (V m c main_v0 : S802816x30.Idx → EReal) (ix2 ⟨t.val * 2048 + r.val, hn⟩ k) := by
  have hi := idx0 t
  unfold iblk
  rw [View.read_apply]
  show V m c main_v0 _ = V m c main_v0 _
  congr 1
  funext a
  apply Fin.ext
  match a with
  | ⟨0, _⟩ => show win0_0.index t 0 * 2048 + 1 * r.val = t.val * 2048 + r.val; rw [hi.1]; omega
  | ⟨1, _⟩ => show win0_0.index t 1 * 30 + 1 * k.val = k.val; rw [hi.2]; omega

/-- The same for the second window. -/
theorem iblk1_at (t : Fin cfg0.N) (r : Fin 2048) (k : Fin 30) (hn : t.val * 2048 + r.val < 802816) :
    (iblk m c 1 t : Vec Ideal S2048x30 .f32) (ix2 r k)
      = (V m c main_v1 : S802816x30.Idx → EReal) (ix2 ⟨t.val * 2048 + r.val, hn⟩ k) := by
  have hi := idx1 t
  unfold iblk
  rw [View.read_apply]
  show V m c main_v1 _ = V m c main_v1 _
  congr 1
  funext a
  apply Fin.ext
  match a with
  | ⟨0, _⟩ => show win0_1.index t 0 * 2048 + 1 * r.val = t.val * 2048 + r.val; rw [hi.1]; omega
  | ⟨1, _⟩ => show win0_1.index t 1 * 30 + 1 * k.val = k.val; rw [hi.2]; omega

/-- A block's row number is below 802816: there are 392 points of 2048 rows each. -/
theorem row_lt (t : Fin cfg0.N) (r : Fin 2048) : t.val * 2048 + r.val < 802816 := by
  have h1 := t.isLt
  have h2 : cfg0.N = 392 := N_0
  have h3 := r.isLt
  omega

/-- THE FIRST INPUT'S BLOCK: entry `(r, k)` at point `t` is channel `k` of row `t * 2048 + r` of the first argument
    flattened. -/
theorem iblk0_row (t : Fin cfg0.N) (r : Fin 2048) (k : Fin 30) :
    (iblk m c 0 t : Vec Ideal S2048x30 .f32) (ix2 r k)
      = Cert.Yolo.flatRow (m ((c : Thread nD τ).loc main_arg0)) (t.val * 2048 + r.val) k := by
  rw [iblk0_at m c t r k (row_lt t r), V_main_v0, reshape_row]

/-- THE SECOND INPUT'S BLOCK: the same of the second argument. -/
theorem iblk1_row (t : Fin cfg0.N) (r : Fin 2048) (k : Fin 30) :
    (iblk m c 1 t : Vec Ideal S2048x30 .f32) (ix2 r k)
      = Cert.Yolo.flatRow (m ((c : Thread nD τ).loc main_arg1)) (t.val * 2048 + r.val) k := by
  rw [iblk1_at m c t r k (row_lt t r), V_main_v1, reshape_row]

/-! ## The lines after the region -/

/-- The kernel's output array as the region leaves it: the third window's array after the last grid point. -/
abbrev outArr : S2x8x128.Idx → EReal := (dats m 0 c).arrAt 2 cfg0.N

/-- The lines after the region as a function of the output array `O`: each one-entry slice reshaped to a scalar is
    the entry itself (a rank-0 array has the one row-major position 0, which is `(0, 0, 0)`'s in [1, 1, 1]; the
    slice shifts that by its offsets), the sum and the quotient are entrywise, and the divisor's pattern is 16384. -/
theorem tail_fn (O : S2x8x128.Idx → EReal) :
    (Host.divf (F := Ideal)
      (addf (shapeCast S_ (extractStridedSlice S1x1x1 ![0, 0, 0] O slices_S2x8x128_S1x1x1_0_0_0) shapeCasts_S1x1x1_S_ : Vec Ideal S_ .f32)
            (shapeCast S_ (extractStridedSlice S1x1x1 ![1, 0, 0] O slices_S2x8x128_S1x1x1_1_0_0) shapeCasts_S1x1x1_S_))
      (constant (F := Ideal) S_ .f32 0x46800000#32) : S_.Idx → EReal)
    = fun _ => Ideal.div (O (ix3 0 0 0) + O (ix3 1 0 0)) Cert.Yolo.cellsC := by
  funext i
  have h0 : (S_.rowMajor i).val = 0 := Shape.rowMajorPi_zero _ _
  have hc : (S1x1x1.rowMajor (ix3 0 0 0)).val = (S_.rowMajor i).val := by
    rw [h0, Shape.rowMajor_val_three]; rfl
  have e0 : shapeCast S_ (extractStridedSlice S1x1x1 ![0, 0, 0] O slices_S2x8x128_S1x1x1_0_0_0) shapeCasts_S1x1x1_S_ i
      = O (ix3 0 0 0) := by
    refine (shapeCast_apply _ shapeCasts_S1x1x1_S_ i (ix3 0 0 0) hc).trans ?_
    exact extractStridedSlice_apply ![0, 0, 0] O slices_S2x8x128_S1x1x1_0_0_0 (ix3 0 0 0) (ix3 0 0 0) (fun a => match a with
      | ⟨0, _⟩ => rfl
      | ⟨1, _⟩ => rfl
      | ⟨2, _⟩ => rfl)
  have e1 : shapeCast S_ (extractStridedSlice S1x1x1 ![1, 0, 0] O slices_S2x8x128_S1x1x1_1_0_0) shapeCasts_S1x1x1_S_ i
      = O (ix3 1 0 0) := by
    refine (shapeCast_apply _ shapeCasts_S1x1x1_S_ i (ix3 0 0 0) hc).trans ?_
    exact extractStridedSlice_apply ![1, 0, 0] O slices_S2x8x128_S1x1x1_1_0_0 (ix3 0 0 0) (ix3 1 0 0) (fun a => match a with
      | ⟨0, _⟩ => rfl
      | ⟨1, _⟩ => rfl
      | ⟨2, _⟩ => rfl)
  show Ideal.div (shapeCast S_ (extractStridedSlice S1x1x1 ![0, 0, 0] O slices_S2x8x128_S1x1x1_0_0_0) shapeCasts_S1x1x1_S_ i
      + shapeCast S_ (extractStridedSlice S1x1x1 ![1, 0, 0] O slices_S2x8x128_S1x1x1_1_0_0) shapeCasts_S1x1x1_S_ i)
      (Ideal.ofBits .f32 0x46800000#32) = _
  rw [e0, e1]
  rfl

/-- THE PROGRAM'S RESULT: the two cores' entries of the output array added and divided by 16384. The lines after the
    region run from the region's arrays; the one they read is the output array. -/
theorem tail_v8 : Pipeline.afterTail₀ cfgs (dats m) 0 (V0 m) [hostOps1] c main_v8
    = fun _ => Ideal.div (outArr m c (ix3 0 0 0) + outArr m c (ix3 1 0 0)) Cert.Yolo.cellsC := by
  unfold Pipeline.afterTail₀
  show StableHlo.after hostOps1 _ (Proc.devRef .tc main_v8) = _
  after_results
  have hO : Pipeline.withArrays (cfgs 0).spec c (V0 m c) (fun w => (dats m 0 c).arrAt w (cfgs 0).N) (Proc.devRef .tc main_v2)
      = outArr m c := Pipeline.withArrays_arr spec0 launch0.win.arr_inj c _ _ 2
  rw [hO]
  exact tail_fn (outArr m c)

end Cert.Yolo.KernelHost

end
-- ==== Proof.Accum.lean ====
import proofs.«107280_j5325759447314_1_alg».proof.Proof.Pieces
import proofs.«107280_j5325759447314_1_alg».proof.Proof.KernelRow
import proofs.«107280_j5325759447314_1_alg».proof.Proof.KernelHost
import proofs.«107280_j5325759447314_1_alg».proof.Proof.Spec

/-!
# The accumulator, point by point

After the body has run at grid point `t = c·196 + s` (core `c`, step `s`), the accumulator holds, at its entry
(0, 0), zero plus the sums of the blocks `c·196, …, c·196 + s`, and zero everywhere else: by induction on the point.
A core's first step fills the accumulator with zeros and adds its block to the zero it reads back; every later step
adds its block to what the step before left; no step touches another entry.
-/

noncomputable section

namespace Cert.Yolo.Accum

open Idealize.ShloMosaic Idealize.ShloMosaic.TcCoe Idealize.SL.Sem Idealize.ShloMosaic.ValueIdx
open Cert.KernelIdeal Cert.KernelIdeal.Gen Cert.Yolo Cert.Yolo.KernelRow Cert.Yolo.Pieces Cert.Yolo.KernelHost

/-! ## The running sum's two steps -/

theorem accSum_first (y g : Arr) (q : ℕ) : zeroC + tileSum y g (q * 196) = accSum y g q 0 := by
  unfold accSum
  rw [Finset.sum_range_one]
  rfl

theorem accSum_succ (y g : Arr) (q s : ℕ) :
    accSum y g q s + tileSum y g (q * 196 + (s + 1)) = accSum y g q (s + 1) := by
  unfold accSum
  rw [Finset.sum_range_succ (n := s + 1), add_assoc]

variable (m : (ℓ : Loc nD τ sig) → Buf (Elt Ideal) ℓ) (c : Dev nD)

/-- The prediction and the target as launched. -/
abbrev Y : Arr := m ((c : Thread nD τ).loc main_arg0)
abbrev G : Arr := m ((c : Thread nD τ).loc main_arg1)

/-- Point `t`'s two blocks' rows are rows `t·2048 + r` of the flattened arrays, so the block's sum is the
    specification's. -/
theorem tile_eq (t : Fin cfg0.N) :
    ∑ r : Fin 2048, rowT (blockRow (iblk m c 1 t) r) (blockRow (iblk m c 0 t) r) = tileSum (Y m c) (G m c) t.val := by
  unfold tileSum
  refine Finset.sum_congr rfl fun r _ => ?_
  have h1 : blockRow (iblk m c 1 t) r = flatRow (G m c) (t.val * 2048 + r.val) := funext fun k => iblk1_row m c t r k
  have h0 : blockRow (iblk m c 0 t) r = flatRow (Y m c) (t.val * 2048 + r.val) := funext fun k => iblk0_row m c t r k
  rw [h1, h0]

/-- The accumulator after point `n`. -/
def accVal (n : ℕ) : Vec Ideal S8x128 .f32 := fun y =>
  if (y 0).val = 0 ∧ (y 1).val = 0 then accSum (Y m c) (G m c) (n / 196) (n % 196) else zeroC

theorem corner_idx : corner.idx (ix2 (0 : Fin 1) (0 : Fin 1)) = (ix2 0 0 : S8x128.Idx) :=
  funext fun a => match a with
    | ⟨0, _⟩ => rfl
    | ⟨1, _⟩ => rfl

theorem zeros_apply (y : S8x128.Idx) : k0_pay3 (F := Ideal) y = zeroC := by
  simp only [k0_pay3, shapeCast_self]
  rfl

/-- A core's first step. -/
theorem stepA (t : Fin cfg0.N) (h0 : t.val % 196 = 0) (hc0 : cond0_0 (grid0.coords t)) (hc1 : ¬cond0_1 (grid0.coords t)) :
    sout0_A_0 c (grid0.coords t) (ms0_0 t) (hs0_0 t) (ms0_1 t) (hs0_1 t) (ms0_2 t) (hs0_2 t) scM0_0 (Memref.isWhole_whole _) hc0 hc1 (iblk m c 0 t) (iblk m c 1 t) = accVal m c t.val := by
  funext y
  unfold accVal
  by_cases hy : (y 0).val = 0 ∧ (y 1).val = 0
  · rw [if_pos hy]
    refine (sout_A_corner c (grid0.coords t) (ms0_0 t) (hs0_0 t) (ms0_1 t) (hs0_1 t) (ms0_2 t) (hs0_2 t) scM0_0 (Memref.isWhole_whole _) hc0 hc1 (iblk m c 0 t) (iblk m c 1 t) y hy.1 hy.2).trans ?_
    refine (bodyPay_apply (iblk m c 0 t) (iblk m c 1 t) (View.ld (k0_pay3 (F := Ideal)) corner)).trans ?_
    rw [tile_eq m c t]
    show k0_pay3 (F := Ideal) (corner.idx (ix2 0 0)) + _ = _
    rw [zeros_apply, h0, ← accSum_first]
    congr 2
    omega
  · rw [if_neg hy]
    refine (sout_A_rest c (grid0.coords t) (ms0_0 t) (hs0_0 t) (ms0_1 t) (hs0_1 t) (ms0_2 t) (hs0_2 t) scM0_0 (Memref.isWhole_whole _) hc0 hc1 (iblk m c 0 t) (iblk m c 1 t) y (by omega)).trans ?_
    exact zeros_apply y

/-- A later step, from what the step before left: the shared arithmetic of the two later cases. -/
theorem step_later (t : Fin cfg0.N) (hne : t.val % 196 ≠ 0) (y : S8x128.Idx) (v : EReal)
    (hv : ((y 0).val = 0 ∧ (y 1).val = 0) →
      v = accVal m c (t.val - 1) (corner.idx (ix2 0 0)) + ∑ r : Fin 2048, rowT (blockRow (iblk m c 1 t) r) (blockRow (iblk m c 0 t) r))
    (hv' : ¬((y 0).val = 0 ∧ (y 1).val = 0) → v = accVal m c (t.val - 1) y) :
    v = accVal m c t.val y := by
  obtain ⟨q, s, hts, hs⟩ : ∃ q s, t.val = q * 196 + (s + 1) ∧ s + 1 < 196 :=
    ⟨t.val / 196, t.val % 196 - 1, by omega, by omega⟩
  have e1 : (t.val - 1) / 196 = q := by omega
  have e2 : (t.val - 1) % 196 = s := by omega
  have e3 : t.val / 196 = q := by omega
  have e4 : t.val % 196 = s + 1 := by omega
  by_cases hy : (y 0).val = 0 ∧ (y 1).val = 0
  · rw [hv hy, tile_eq m c t, corner_idx]
    unfold accVal
    rw [if_pos ⟨rfl, rfl⟩, if_pos hy, e1, e2, e3, e4, hts, accSum_succ]
  · rw [hv' hy]
    unfold accVal
    rw [if_neg hy, if_neg hy]

/-- A middle step. -/
theorem stepB (t : Fin cfg0.N) (hne : t.val % 196 ≠ 0) (hc0 : ¬cond0_0 (grid0.coords t)) (hc1 : ¬cond0_1 (grid0.coords t))
    (prev : Vec Ideal S8x128 .f32) (hprev : prev = accVal m c (t.val - 1)) :
    sout0_B_0 c (grid0.coords t) (ms0_0 t) (hs0_0 t) (ms0_1 t) (hs0_1 t) (ms0_2 t) (hs0_2 t) scM0_0 (Memref.isWhole_whole _) hc0 hc1 (iblk m c 0 t) (iblk m c 1 t) prev = accVal m c t.val := by
  subst hprev
  funext y
  refine step_later m c t hne y _ (fun hy => ?_) (fun hy => ?_)
  · refine (sout_B_corner c (grid0.coords t) (ms0_0 t) (hs0_0 t) (ms0_1 t) (hs0_1 t) (ms0_2 t) (hs0_2 t) scM0_0 (Memref.isWhole_whole _) hc0 hc1 (iblk m c 0 t) (iblk m c 1 t) (accVal m c (t.val - 1)) y hy.1 hy.2).trans ?_
    exact bodyPay_apply (iblk m c 0 t) (iblk m c 1 t) (View.ld (accVal m c (t.val - 1)) corner)
  · exact sout_B_rest c (grid0.coords t) (ms0_0 t) (hs0_0 t) (ms0_1 t) (hs0_1 t) (ms0_2 t) (hs0_2 t) scM0_0 (Memref.isWhole_whole _) hc0 hc1 (iblk m c 0 t) (iblk m c 1 t) (accVal m c (t.val - 1)) y (by omega)

/-- A core's last step. -/
theorem stepC (t : Fin cfg0.N) (hne : t.val % 196 ≠ 0) (hc0 : ¬cond0_0 (grid0.coords t)) (hc1 : cond0_1 (grid0.coords t))
    (prev : Vec Ideal S8x128 .f32) (hprev : prev = accVal m c (t.val - 1)) :
    sout0_C_0 c (grid0.coords t) (ms0_0 t) (hs0_0 t) (ms0_1 t) (hs0_1 t) (ms0_2 t) (hs0_2 t) scM0_0 (Memref.isWhole_whole _) hc0 hc1 (iblk m c 0 t) (iblk m c 1 t) prev = accVal m c t.val := by
  subst hprev
  funext y
  refine step_later m c t hne y _ (fun hy => ?_) (fun hy => ?_)
  · refine (sout_C_corner c (grid0.coords t) (ms0_0 t) (hs0_0 t) (ms0_1 t) (hs0_1 t) (ms0_2 t) (hs0_2 t) scM0_0 (Memref.isWhole_whole _) hc0 hc1 (iblk m c 0 t) (iblk m c 1 t) (accVal m c (t.val - 1)) y hy.1 hy.2).trans ?_
    exact bodyPay_apply (iblk m c 0 t) (iblk m c 1 t) (View.ld (accVal m c (t.val - 1)) corner)
  · exact sout_C_rest c (grid0.coords t) (ms0_0 t) (hs0_0 t) (ms0_1 t) (hs0_1 t) (ms0_2 t) (hs0_2 t) scM0_0 (Memref.isWhole_whole _) hc0 hc1 (iblk m c 0 t) (iblk m c 1 t) (accVal m c (t.val - 1)) y (by omega)

/-- THE ACCUMULATOR after every point: by induction on the point. -/
theorem scratch_eq (n : ℕ) : ∀ h : n < cfg0.N, (outsAt0 m c n h).2 = accVal m c n := by
  induction n using Nat.strong_induction_on with
  | _ n ih =>
    intro h
    let t' : Fin cfg0.N := ⟨n, h⟩
    have hlt : t'.val - 1 < cfg0.N := Nat.lt_of_le_of_lt (Nat.sub_le _ _) t'.isLt
    by_cases h0 : n % 196 = 0
    · have h1 : ¬n % 196 = 195 := by omega
      have hc0 : cond0_0 (grid0.coords t') := (hcond0_0 t').mpr h0
      have hc1 : ¬cond0_1 (grid0.coords t') := fun hh => h1 ((hcond0_1 t').mp hh)
      have e2 : (outsAt0 m c t'.val t'.isLt).2
          = sout0_A_0 c (grid0.coords t') (ms0_0 t') (hs0_0 t') (ms0_1 t') (hs0_1 t') (ms0_2 t') (hs0_2 t') scM0_0 (Memref.isWhole_whole _) hc0 hc1 (iblk m c 0 t') (iblk m c 1 t') := congrArg Prod.snd (outsAt0_A m c t' h0 h1)
      exact e2.trans (stepA m c t' h0 hc0 hc1)
    · have hc0 : ¬cond0_0 (grid0.coords t') := fun hh => h0 ((hcond0_0 t').mp hh)
      have hprev : (outsAt0 m c (t'.val - 1) hlt).2 = accVal m c (t'.val - 1) := ih (n - 1) (by omega) hlt
      by_cases h1 : n % 196 = 195
      · have hc1 : cond0_1 (grid0.coords t') := (hcond0_1 t').mpr h1
        have e2 : (outsAt0 m c t'.val t'.isLt).2
            = sout0_C_0 c (grid0.coords t') (ms0_0 t') (hs0_0 t') (ms0_1 t') (hs0_1 t') (ms0_2 t') (hs0_2 t') scM0_0 (Memref.isWhole_whole _) hc0 hc1 (iblk m c 0 t') (iblk m c 1 t') (outsAt0 m c (t'.val - 1) hlt).2 :=
          congrArg Prod.snd (outsAt0_C m c t' h0 h1)
        exact e2.trans (stepC m c t' h0 hc0 hc1 (outsAt0 m c (t'.val - 1) hlt).2 hprev)
      · have hc1 : ¬cond0_1 (grid0.coords t') := fun hh => h1 ((hcond0_1 t').mp hh)
        have e2 : (outsAt0 m c t'.val t'.isLt).2
            = sout0_B_0 c (grid0.coords t') (ms0_0 t') (hs0_0 t') (ms0_1 t') (hs0_1 t') (ms0_2 t') (hs0_2 t') scM0_0 (Memref.isWhole_whole _) hc0 hc1 (iblk m c 0 t') (iblk m c 1 t') (outsAt0 m c (t'.val - 1) hlt).2 :=
          congrArg Prod.snd (outsAt0_B m c t' h0 h1)
        exact e2.trans (stepB m c t' h0 hc0 hc1 (outsAt0 m c (t'.val - 1) hlt).2 hprev)

/-- THE OUTPUT BLOCK at a core's last step: the accumulator after that step, without the block's leading unit axis. -/
theorem out_eq (t : Fin cfg0.N) (h1 : t.val % 196 = 195) (y : S1x8x128.Idx) :
    (outsAt0 m c t.val t.isLt).1 y = accVal m c t.val (fun a => y a.succ) := by
  have h0 : ¬t.val % 196 = 0 := by omega
  have hc0 : ¬cond0_0 (grid0.coords t) := fun h => h0 ((hcond0_0 t).mp h)
  have hc1 : cond0_1 (grid0.coords t) := (hcond0_1 t).mpr h1
  have hlt : t.val - 1 < cfg0.N := Nat.lt_of_le_of_lt (Nat.sub_le _ _) t.isLt
  have e := outsAt0_C m c t h0 h1
  have e1 := congrArg Prod.fst e
  have e2 := congrArg Prod.snd e
  dsimp only at e1 e2
  have e3 := e2.symm.trans (scratch_eq m c t.val t.isLt)
  exact (congrFun e1 y).trans ((out_C _ _ _ _ _ _ _ _ _ _ _ _ _ _ _ y).trans (congrFun e3 _))

end Cert.Yolo.Accum

end
-- ==== Proof.KernelOut.lean ====
import proofs.«107280_j5325759447314_1_alg».proof.Proof.Gen.KernelIdeal.Frame
import proofs.«107280_j5325759447314_1_alg».proof.Proof.Spec
import Idealize.ShloMosaic.Lib.Pipeline.Value

/-!
# The kernel's output array from the output window's two write-backs

The output array [2, 8, 128] is staged in blocks [1, 8, 128]; the block at grid point `t` is plane `t / 196`.
The block is written back exactly at the points `t` with `t % 196 = 195`, the last point of each core:
`t = 195` writes plane 0 and `t = 391` writes plane 1.  So if, at those points, what the staging buffer holds
is a function `Gacc t` of the [8, 128] coordinates, the array ends holding `Gacc (q * 196 + 195)` on plane `q`:
every index `(q, a, b)` is covered by the block of point `q * 196 + 195`, and what that point writes back
there is `Gacc (q * 196 + 195) (a, b)`.  Stated for any float instance.
-/

noncomputable section

namespace Cert.Yolo.KernelOut

open Cert.KernelIdeal Cert.KernelIdeal.Gen Idealize.ShloMosaic Idealize.ShloMosaic.ValueIdx Idealize.ShloMosaic.TcCoe Idealize.SL.Sem
open Idealize.ShloMosaic.Pipeline (Dat)

variable {F : FTy → Type} [FloatOps F]
variable (m : (ℓ : Loc nD τ sig) → Buf (Elt F) ℓ) (c : Dev nD)

/-- The output window's index map at grid point `t` is `(t / 196, 0, 0)` — decided over the 392 points. -/
theorem idx2 : ∀ t : Fin cfg0.N, win0_2.index t (0 : Fin 3) = t.val / 196 ∧ win0_2.index t (1 : Fin 3) = 0
    ∧ win0_2.index t (2 : Fin 3) = 0 :=
  (by decide +kernel : ∀ t : Fin grid0.N, win0_2.index t (0 : Fin 3) = t.val / 196 ∧ win0_2.index t (1 : Fin 3) = 0
    ∧ win0_2.index t (2 : Fin 3) = 0)

/-- The output array assembled from a family `Gacc` of [8, 128] blocks: plane `q` is the block of point
    `q * 196 + 195`, the last point of core `q`. -/
abbrev G (Gacc : ℕ → S8x128.Idx → Elt F .f32) : S2x8x128.Idx → Elt F .f32 :=
  fun i => Gacc ((i 0).val * 196 + 195) (ix2 (i 1) (i 2))

/-- WHAT A FLUSHING POINT WRITES BACK is its block of `G`: the point is `q * 196 + 195` for its plane `q = t / 196`,
    the block's one leading coordinate is 0, and the other two are the block's own. -/
theorem flushed2_eq (Gacc : ℕ → S8x128.Idx → Elt F .f32)
    (h : ∀ t : Fin cfg0.N, t.val % 196 = 195 → ∀ y : S1x8x128.Idx,
      (outsAt0 m c t.val t.isLt).1 y = Gacc t.val (fun a => y a.succ))
    (t : Fin cfg0.N) (hf : (cfg0.win 2).flush t = true) :
    (dats m 0 c).flushed 2 t = ((cfg0.win 2).blk t).view.read (Elt F) (G Gacc) := by
  have hmod : t.val % 196 = 195 := (flush0_2 t).mp hf
  obtain ⟨i0, i1, i2⟩ := idx2 t
  show (cfg0.win 2).cut (grid0.coords t) ((dats m 0 c).after 2 t) = _
  rw [after0_2]
  funext j
  show (outsAt0 m c t.val t.isLt).1 j
    = Gacc ((((cfg0.win 2).blk t).view.emb j 0).val * 196 + 195)
        (ix2 (((cfg0.win 2).blk t).view.emb j 1) (((cfg0.win 2).blk t).view.emb j 2))
  refine (h t hmod j).trans ?_
  have hj0 : (j 0).val < 1 := (j 0).isLt
  have e0 : (((cfg0.win 2).blk t).view.emb j 0).val = win0_2.index t 0 * 1 + 1 * (j 0).val := rfl
  have e1 : (((cfg0.win 2).blk t).view.emb j 1).val = win0_2.index t 1 * 8 + 1 * (j 1).val := rfl
  have e2 : (((cfg0.win 2).blk t).view.emb j 2).val = win0_2.index t 2 * 128 + 1 * (j 2).val := rfl
  have hn : t.val = (((cfg0.win 2).blk t).view.emb j 0).val * 196 + 195 := by rw [e0, i0]; omega
  have hy : (fun a => j a.succ : S8x128.Idx)
      = ix2 (((cfg0.win 2).blk t).view.emb j 1) (((cfg0.win 2).blk t).view.emb j 2) := by
    funext a
    apply Fin.ext
    match a with
    | ⟨0, _⟩ => show (j 1).val = (((cfg0.win 2).blk t).view.emb j 1).val; rw [e1, i1]; omega
    | ⟨1, _⟩ => show (j 2).val = (((cfg0.win 2).blk t).view.emb j 2).val; rw [e2, i2]; omega
  exact congrArg₂ Gacc hn hy

/-- An index of the output array is in point `t`'s block iff each coordinate is in the block's range on its axis. -/
theorem mem_blk2 (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v2).slice (win0_2.rect t)).set ↔ _
  rw [View.set_slice_whole, Rect.mem_set_unit]
  exact Iff.rfl

/-- THE COVER: index `(q, a, b)` of the output array lies in the block of the flushing point `q * 196 + 195`. -/
theorem cover2 (i : S2x8x128.Idx) :
    ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 128 := (i 2).isLt
  have hN : cfg0.N = 392 := N_0
  have hlt : (i 0).val * 196 + 195 < cfg0.N := by omega
  obtain ⟨i0, i1, i2⟩ := idx2 ⟨(i 0).val * 196 + 195, hlt⟩
  have i0' : win0_2.index ⟨(i 0).val * 196 + 195, hlt⟩ (0 : Fin 3) = ((i 0).val * 196 + 195) / 196 := i0
  refine ⟨⟨(i 0).val * 196 + 195, hlt⟩, (flush0_2 _).mpr (by show ((i 0).val * 196 + 195) % 196 = 195; omega), ?_⟩
  rw [mem_blk2]
  intro a
  match a with
  | ⟨0, _⟩ =>
    show win0_2.index _ (0 : Fin 3) * 1 ≤ (i 0).val ∧ (i 0).val < win0_2.index _ (0 : Fin 3) * 1 + 1
    rw [i0']; omega
  | ⟨1, _⟩ =>
    show win0_2.index _ (1 : Fin 3) * 8 ≤ (i 1).val ∧ (i 1).val < win0_2.index _ (1 : Fin 3) * 8 + 8
    rw [i1]; omega
  | ⟨2, _⟩ =>
    show win0_2.index _ (2 : Fin 3) * 128 ≤ (i 2).val ∧ (i 2).val < win0_2.index _ (2 : Fin 3) * 128 + 128
    rw [i2]; omega

/-- THE OUTPUT ARRAY after the region: plane `q` holds what the output window's staging buffer held after point
    `q * 196 + 195`, read through `Gacc`. -/
theorem outArr_eq (Gacc : ℕ → S8x128.Idx → Elt F .f32)
    (h : ∀ t : Fin cfg0.N, t.val % 196 = 195 → ∀ y : S1x8x128.Idx,
      (outsAt0 m c t.val t.isLt).1 y = Gacc t.val (fun a => y a.succ)) :
    ((dats m 0 c).arrAt 2 cfg0.N : S2x8x128.Idx → Elt F .f32)
      = fun i => Gacc ((i 0).val * 196 + 195) (ix2 (i 1) (i 2)) :=
  (dats m 0 c).arrAt_eq_of_cover 2 (G Gacc) (fun t hf => flushed2_eq m c Gacc h t hf) cover2

end Cert.Yolo.KernelOut

end
-- ==== Proof.KernelValue.lean ====
import proofs.«107280_j5325759447314_1_alg».proof.Proof.Accum
import proofs.«107280_j5325759447314_1_alg».proof.Proof.KernelOut
import proofs.«107280_j5325759447314_1_alg».proof.Proof.KernelHost
import proofs.«107280_j5325759447314_1_alg».proof.Proof.Spec

/-!
# The kernel's result

The output array holds, at entry (c, 0, 0), core `c`'s accumulator after its last step; the host adds the two entries
and divides by 16384: the kernel's arrangement of the total.
-/

noncomputable section

namespace Cert.Yolo.KernelValue

open Idealize.ShloMosaic Idealize.ShloMosaic.TcCoe Idealize.SL.Sem Idealize.ShloMosaic.ValueIdx
open Cert.KernelIdeal Cert.KernelIdeal.Gen Cert.Yolo Cert.Yolo.Accum Cert.Yolo.KernelHost

variable (m : (ℓ : Loc nD τ sig) → Buf (Elt Ideal) ℓ) (ρ : Dev nD → PrngReg)

/-- The output array after the run: block `c` is core `c`'s accumulator after its last step. -/
theorem outArr_val (c : Dev nD) :
    outArr m c = fun i => accVal m c ((i 0).val * 196 + 195) (ix2 (i 1) (i 2)) :=
  Cert.Yolo.KernelOut.outArr_eq m c (fun n => accVal m c n) (fun t h1 y => out_eq m c t h1 y)

theorem outArr_core0 (c : Dev nD) : outArr m c (ix3 0 0 0) = accSum (Y m c) (G m c) 0 195 := by
  rw [outArr_val]
  show accVal m c (0 * 196 + 195) (ix2 0 0) = _
  unfold accVal
  rw [if_pos ⟨rfl, rfl⟩]

theorem outArr_core1 (c : Dev nD) : outArr m c (ix3 1 0 0) = accSum (Y m c) (G m c) 1 195 := by
  rw [outArr_val]
  show accVal m c (1 * 196 + 195) (ix2 0 0) = _
  unfold accVal
  rw [if_pos ⟨rfl, rfl⟩]

/-- What the host lines after the region leave in the result buffer. -/
theorem result_eq (c : Dev nD) :
    Pipeline.afterTail₀ cfgs (dats m) 0 (V0 m) [hostOps1] c main_v8 = fun _ => kernelTotal (Y m c) (G m c) := by
  rw [tail_v8, outArr_core0, outArr_core1]
  rfl

/-- THE KERNEL'S RUN: every weakly fair execution terminates with the result buffer at the kernel's arrangement of the
    total of the launched arrays, and the arrays unchanged. -/
theorem run : θ_run defs (onTc (τ := τ) (main (F := Ideal))) ⟨m, fun _ => 0, ρ⟩ fun r => ∀ c : Dev nD,
      r.2.mem ((c.tc : Thread nD τ).loc main_v8) = (fun _ => kernelTotal (Y m c) (G m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Yolo.KernelValue

end
-- ==== Proof.LibHostLine.lean ====
/-
  Reading a straight line of host operations one operation at a time.

  When every operation of a line writes one buffer of its own, what the line leaves in the buffer the `k`-th
  operation writes is that operation's function of what the line leaves in its operands: the operations after the
  `k`-th write neither its result nor (writing once only, after their operands are written) its operands. The
  lemmas state this for any line whose written references are listed, one per operation, in order.
-/
import Idealize.ShloMosaic.Lib.StableHlo.Run
import Mathlib.Data.List.Forall2

namespace Cert.CubePad.Line

open Idealize.ShloMosaic Idealize.ShloMosaic.StableHlo

variable {τ : Topo} {sig : RefSig} {Val : EltTy → Type}

/-- A line run in two parts. -/
theorem after_append (l₁ l₂ : List (HloOp τ sig Val)) (V : Valuation τ sig Val) :
    after (l₁ ++ l₂) V = after l₂ (after l₁ V) := by
  induction l₁ generalizing V with
  | nil => rfl
  | cons op l ih => exact ih _

/-- The line `ops` writes the references `W`, one each, in order. -/
abbrev Writes (ops : List (HloOp τ sig Val)) (W : List (Ref sig .tc)) : Prop :=
  List.Forall₂ (fun op r => op.writes = {Proc.devRef (τ := τ) .tc r}) ops W

/-- A reference the line does not write keeps its contents. -/
theorem Writes.keeps {ops : List (HloOp τ sig Val)} {W : List (Ref sig .tc)} (h : Writes ops W) :
    ∀ (V : Valuation τ sig Val) {r : Ref sig .tc}, r ∉ W → after ops V (Proc.devRef .tc r) = V (Proc.devRef .tc r) := by
  induction h with
  | nil => intro V r _; rfl
  | cons e _ ih =>
    intro V r hr
    rw [after_cons, ih _ (fun hm => hr (List.mem_cons_of_mem _ hm)), HloOp.result_of_not_mem]
    rw [e, Finset.mem_singleton]
    exact devRef_ne_of_ne fun e' => hr (e' ▸ List.mem_cons_self)

/-- At a reference the operations from the `k`-th on do not write, the first `k` operations decide the contents. -/
theorem Writes.read_take {ops : List (HloOp τ sig Val)} {W : List (Ref sig .tc)} (h : Writes ops W) (k : Nat)
    (V : Valuation τ sig Val) {r : Ref sig .tc} (hr : r ∉ W.drop k) :
    after ops V (Proc.devRef .tc r) = after (ops.take k) V (Proc.devRef .tc r) := by
  conv_lhs => rw [← List.take_append_drop k ops]
  rw [after_append]
  exact Writes.keeps (List.forall₂_drop k h) _ hr

/-- At the reference the `k`-th operation writes (and no later one): that operation's result from what the first
    `k` operations leave. -/
theorem Writes.read_at {ops : List (HloOp τ sig Val)} {W : List (Ref sig .tc)} (h : Writes ops W) (V : Valuation τ sig Val)
    (k : Nat) (op : HloOp τ sig Val) (hk : ops[k]? = some op) {y : Ref sig .tc} (hy : y ∉ W.drop (k + 1)) :
    after ops V (Proc.devRef .tc y) = op.result (after (ops.take k) V) (Proc.devRef .tc y) := by
  rw [h.read_take (k + 1) V hy, List.take_succ, hk, after_append]
  rfl

/-- A one-operand operation, the `k`-th of the line: its result buffer ends at its function of what its operand's
    buffer ends at. -/
theorem Writes.unary_at {ops : List (HloOp τ sig Val)} {W : List (Ref sig .tc)} (h : Writes ops W) (V : Valuation τ sig Val)
    (k : Nat) (x y : Ref sig .tc) (f : x.ty.Contents Val → y.ty.Contents Val) (hx hy)
    (hk : ops[k]? = some (unary x y f hx hy)) (hyW : y ∉ W.drop (k + 1)) (hxW : x ∉ W.drop k) :
    after ops V (Proc.devRef .tc y) = f (after ops V (Proc.devRef .tc x)) := by
  rw [h.read_at V k _ hk hyW, unary_result, h.read_take k V hxW]

/-- A reshape, the `k`-th of the line. -/
theorem Writes.reshape_at {ops : List (HloOp τ sig Val)} {W : List (Ref sig .tc)} (h : Writes ops W) (V : Valuation τ sig Val)
    (k : Nat) (x y : Ref sig .tc) (he : x.ty.elt = y.ty.elt) (hn : x.ty.shape.ShapeCasts y.ty.shape) (hx hy)
    (hk : ops[k]? = some (reshape x y he hn hx hy)) (hyW : y ∉ W.drop (k + 1)) (hxW : x ∉ W.drop k) :
    after ops V (Proc.devRef .tc y) = fun i => he ▸ shapeCast y.ty.shape (after ops V (Proc.devRef .tc x)) hn i := by
  rw [h.read_at V k _ hk hyW, reshape_result, h.read_take k V hxW]

/-- An operation of several operands, the `k`-th of the line. -/
theorem Writes.nary_at {ops : List (HloOp τ sig Val)} {W : List (Ref sig .tc)} (h : Writes ops W) (V : Valuation τ sig Val)
    (k : Nat) {n : Nat} (xs : Fin n → Ref sig .tc) (y : Ref sig .tc)
    (f : ((j : Fin n) → (xs j).ty.Contents Val) → y.ty.Contents Val) (hxs hy)
    (hk : ops[k]? = some (nary xs y f hxs hy)) (hyW : y ∉ W.drop (k + 1)) (hxW : ∀ j, xs j ∉ W.drop k) :
    after ops V (Proc.devRef .tc y) = f (fun j => after ops V (Proc.devRef .tc (xs j))) := by
  rw [h.read_at V k _ hk hyW, nary_result]
  exact congrArg f (funext fun j => (h.read_take k V (hxW j)).symm)

/-- A reference the line never writes (an argument) keeps its contents. -/
theorem Writes.arg {ops : List (HloOp τ sig Val)} {W : List (Ref sig .tc)} (h : Writes ops W) (V : Valuation τ sig Val)
    {r : Ref sig .tc} (hr : r ∉ W) : after ops V (Proc.devRef .tc r) = V (Proc.devRef .tc r) :=
  h.keeps V hr

end Cert.CubePad.Line
-- ==== Proof.LibHostLineMore.lean ====
/-
  Reading a straight line of host operations one operation at a time: the operations of no operand, of two and of three.

  As for an operation of one operand: when every operation of the line writes one reference of its own, what the line
  leaves in the reference its k-th operation writes is that operation's function of what the line leaves in its operands,
  because no later operation writes the result, and none from the k-th on writes an operand. Also: two lines that each write
  their own listed references, run one after the other, write the two lists in order; and, for a line written out as a literal
  list, its three side facts (what it writes, that it stays on TensorCore references, that it allocates nothing) each by one pass.
-/
import proofs.«107280_j5325759447314_1_alg».proof.Proof.LibHostLine

namespace Cert.Line

open Idealize.ShloMosaic Idealize.ShloMosaic.StableHlo Cert.CubePad.Line

variable {τ : Topo} {sig : RefSig} {Val : EltTy → Type}

/-- Two lines, each writing its own listed references in order, written one after the other. -/
theorem writes_append {l₁ l₂ : List (HloOp τ sig Val)} {W₁ W₂ : List (Ref sig .tc)}
    (h₁ : Writes l₁ W₁) (h₂ : Writes l₂ W₂) : Writes (l₁ ++ l₂) (W₁ ++ W₂) := by
  induction h₁ with
  | nil => exact h₂
  | cons e _ ih => exact List.Forall₂.cons e ih

/-- An operation of no operand, the k-th of the line: its result reference ends at its value. -/
theorem nullary_at {ops : List (HloOp τ sig Val)} {W : List (Ref sig .tc)} (h : Writes ops W) (V : Valuation τ sig Val)
    (k : Nat) (y : Ref sig .tc) (v : y.ty.Contents Val) (hy)
    (hk : ops[k]? = some (nullary y v hy)) (hyW : y ∉ W.drop (k + 1)) :
    after ops V (Proc.devRef .tc y) = v := by
  rw [h.read_at V k _ hk hyW, nullary_result]

/-- An operation of two operands, the k-th of the line: its result reference ends at its function of what its operands'
    references end at. -/
theorem binary_at {ops : List (HloOp τ sig Val)} {W : List (Ref sig .tc)} (h : Writes ops W) (V : Valuation τ sig Val)
    (k : Nat) (a b y : Ref sig .tc) (f : a.ty.Contents Val → b.ty.Contents Val → y.ty.Contents Val) (ha hb hy)
    (hk : ops[k]? = some (binary a b y f ha hb hy)) (hyW : y ∉ W.drop (k + 1)) (haW : a ∉ W.drop k) (hbW : b ∉ W.drop k) :
    after ops V (Proc.devRef .tc y) = f (after ops V (Proc.devRef .tc a)) (after ops V (Proc.devRef .tc b)) := by
  rw [h.read_at V k _ hk hyW, binary_result, h.read_take k V haW, h.read_take k V hbW]

/-- An operation of three operands, the k-th of the line. -/
theorem ternary_at {ops : List (HloOp τ sig Val)} {W : List (Ref sig .tc)} (h : Writes ops W) (V : Valuation τ sig Val)
    (k : Nat) (c a b y : Ref sig .tc)
    (f : c.ty.Contents Val → a.ty.Contents Val → b.ty.Contents Val → y.ty.Contents Val) (hc ha hb hy)
    (hk : ops[k]? = some (ternary c a b y f hc ha hb hy)) (hyW : y ∉ W.drop (k + 1))
    (hcW : c ∉ W.drop k) (haW : a ∉ W.drop k) (hbW : b ∉ W.drop k) :
    after ops V (Proc.devRef .tc y)
      = f (after ops V (Proc.devRef .tc c)) (after ops V (Proc.devRef .tc a)) (after ops V (Proc.devRef .tc b)) := by
  rw [h.read_at V k _ hk hyW, ternary_result, h.read_take k V hcW, h.read_take k V haW, h.read_take k V hbW]

/-! ## A literal line's three facts, each by one pass over the list

For a line written out as a literal list of the builders' operations: that it writes the listed references, one each, in order
(each builder's written set is the singleton of its result reference, by definition); that it touches TensorCore references only
(each builder's own lemma); that it allocates nothing (each builder's fresh set is empty, by definition). -/

/-- Closes `Writes ops W` for literal lists of equal length: one `rfl` per operation. -/
macro "line_writes" : tactic =>
  `(tactic| repeat (first | exact List.Forall₂.nil | refine List.Forall₂.cons rfl ?_))

/-- Closes `ops.Forall fun op => op.bufs ⊆ tcRefs τ sig` for a literal list of the builders' operations. -/
macro "line_sub" : tactic =>
  `(tactic| simp only [List.Forall, nullary_bufs_sub, unary_bufs_sub, binary_bufs_sub, ternary_bufs_sub, nary_bufs_sub, and_self])

/-- Closes `ops.Forall fun op => op.fresh = ∅` for a literal list of the builders' operations. -/
macro "line_fresh" : tactic =>
  `(tactic| (simp only [List.Forall]; repeat' constructor))

end Cert.Line
-- ==== Proof.LibLineStep.lean ====
/-
  One step of reading a straight line of host operations: the buffer the `k`-th operation writes, as that
  operation's function of the buffers it reads, whatever the operation's number of operands.
-/
import proofs.«107280_j5325759447314_1_alg».proof.Proof.LibHostLineMore

namespace Cert.Line

open Idealize.ShloMosaic Idealize.ShloMosaic.StableHlo Cert.CubePad.Line

/-- `line_step hW V k`: rewrite what the line leaves in the `k`-th operation's result buffer into that operation's function
    of what the line leaves in its operands (`hW`: the references the line writes, in order; `V`: the starting contents). -/
macro "line_step " hW:term:max V:term:max k:num : tactic =>
  `(tactic| first
    | rw [Cert.Line.binary_at $hW $V $k _ _ _ _ _ _ _ rfl (by decide) (by decide) (by decide)]
    | rw [Cert.CubePad.Line.Writes.unary_at $hW $V $k _ _ _ _ _ rfl (by decide) (by decide)]
    | rw [Cert.Line.ternary_at $hW $V $k _ _ _ _ _ _ _ _ _ rfl (by decide) (by decide) (by decide) (by decide)]
    | rw [Cert.CubePad.Line.Writes.reshape_at $hW $V $k _ _ _ _ _ _ rfl (by decide) (by decide)]
    | rw [Cert.Line.nullary_at $hW $V $k _ _ _ rfl (by decide)])

end Cert.Line
-- ==== Proof.RefLine.lean ====
import proofs.«107280_j5325759447314_1_alg».proof.Proof.Gen.ReferenceIdeal
import proofs.«107280_j5325759447314_1_alg».proof.Proof.LibLineStep
import Idealize.ShloMosaic.Lib.StableHlo.Run

/-!
# The reference program as a line of host operations

The reference's @main is a straight line of 275 host operations, each writing one buffer of its own (the four
`jnp.where` calls' bodies stand inline at their call sites).  This module lists them in program order, in nine
consecutive stretches (two per printed window of @main, one for the last), lists the buffers they write in the same
order, and runs the line: every weakly fair execution terminates with each buffer at the fold of the operations over
the launch contents.  What the fold leaves in a buffer is then read one operation at a time: the buffer an operation
writes holds that operation's function of what its operands' buffers hold.  The facts about the whole line (what it
writes, that it stays on device buffers, that it allocates nothing, that @main is the line) hold of a concatenation
when they hold of its parts, so each is proved stretch by stretch and joined.
-/

noncomputable section

namespace Cert.Yolo.RefLine

open Cert.ReferenceIdeal Cert.ReferenceIdeal.Gen Idealize.ShloMosaic Idealize.ShloMosaic.TcCoe Idealize.SL.Sem Idealize.ShloMosaic.StableHlo
open Cert.CubePad.Line Cert.Line

variable {F : FTy → Type} [FloatOps F]

/-- A property of every operation of two lines holds of every operation of their concatenation. -/
theorem forall_append {α : Type*} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-! ## The nine stretches -/

/-- Operations 0 … 29 of the program. -/
def c0 : List (HloOp τ sig (Elt F)) :=
  [ unary main_arg1 main_v0 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v0 main_v1 rfl shapeCasts_S16384x7x7x1_S16384x7x7,
    nullary main_cst (constant S_ .f32 0x00000000#32),
    unary main_cst main_v2 (broadcastInDim S16384x7x7 ![] bcast_S_S16384x7x7 : (⟨S_, .f32⟩ : BufTy).Contents (Elt F) → (⟨S16384x7x7, .f32⟩ : BufTy).Contents (Elt F)),
    binary main_v1 main_v2 main_v3 (cmpf .ogt : (⟨S16384x7x7, .f32⟩ : BufTy).Contents (Elt F) → (⟨S16384x7x7, .f32⟩ : BufTy).Contents (Elt F) → (⟨S16384x7x7, .i1⟩ : BufTy).Contents (Elt F)),
    unary main_v3 main_v4 (uitofp .f32 : (⟨S16384x7x7, .i1⟩ : BufTy).Contents (Elt F) → (⟨S16384x7x7, .f32⟩ : BufTy).Contents (Elt F)),
    unary main_arg1 main_v5 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v5 main_v6 rfl shapeCasts_S16384x7x7x1_S16384x7x7,
    nullary main_cst_0 (constant S_ .f32 0x00000000#32),
    unary main_cst_0 main_v7 (broadcastInDim S16384x7x7 ![] bcast_S_S16384x7x7 : (⟨S_, .f32⟩ : BufTy).Contents (Elt F) → (⟨S16384x7x7, .f32⟩ : BufTy).Contents (Elt F)),
    binary main_v6 main_v7 main_v8 (cmpf .oeq : (⟨S16384x7x7, .f32⟩ : BufTy).Contents (Elt F) → (⟨S16384x7x7, .f32⟩ : BufTy).Contents (Elt F) → (⟨S16384x7x7, .i1⟩ : BufTy).Contents (Elt F)),
    unary main_v8 main_v9 (uitofp .f32 : (⟨S16384x7x7, .i1⟩ : BufTy).Contents (Elt F) → (⟨S16384x7x7, .f32⟩ : BufTy).Contents (Elt F)),
    unary main_v4 main_v10 (broadcastInDim S16384x7x7x1 ![0, 1, 2] bcast_S16384x7x7_S16384x7x7x1_0_1_2 : (⟨S16384x7x7, .f32⟩ : BufTy).Contents (Elt F) → (⟨S16384x7x7x1, .f32⟩ : BufTy).Contents (Elt F)),
    unary main_arg1 main_v11 ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)),
    unary main_arg0 main_v12 ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)),
    binary main_v11 main_v12 main_v13 (subf : (⟨S16384x7x7x20, .f32⟩ : BufTy).Contents (Elt F) → (⟨S16384x7x7x20, .f32⟩ : BufTy).Contents (Elt F) → (⟨S16384x7x7x20, .f32⟩ : BufTy).Contents (Elt F)),
    binary main_v13 main_v13 main_v14 (mulf : (⟨S16384x7x7x20, .f32⟩ : BufTy).Contents (Elt F) → (⟨S16384x7x7x20, .f32⟩ : BufTy).Contents (Elt F) → (⟨S16384x7x7x20, .f32⟩ : BufTy).Contents (Elt F)),
    unary main_v10 main_v15 (broadcastInDim S16384x7x7x20 ![0, 1, 2, 3] bcast_S16384x7x7x1_S16384x7x7x20_0_1_2_3 : (⟨S16384x7x7x1, .f32⟩ : BufTy).Contents (Elt F) → (⟨S16384x7x7x20, .f32⟩ : BufTy).Contents (Elt F)),
    binary main_v15 main_v14 main_v16 (mulf : (⟨S16384x7x7x20, .f32⟩ : BufTy).Contents (Elt F) → (⟨S16384x7x7x20, .f32⟩ : BufTy).Contents (Elt F) → (⟨S16384x7x7x20, .f32⟩ : BufTy).Contents (Elt F)),
    nullary main_cst_1 (constant S_ .f32 0x00000000#32),
    binary main_v16 main_cst_1 main_v17 ((fun x v => Host.reduceAdd x v reducesTo_S16384x7x7x20_S_d0_1_2_3 h_S_) : (⟨S16384x7x7x20, .f32⟩ : BufTy).Contents (Elt F) → (⟨S_, .f32⟩ : BufTy).Contents (Elt F) → (⟨S_, .f32⟩ : BufTy).Contents (Elt F)),
    unary main_arg1 main_v18 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v18 main_v19 rfl shapeCasts_S16384x7x7x1_S16384x7x7,
    unary main_arg0 main_v20 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v20 main_v21 rfl shapeCasts_S16384x7x7x1_S16384x7x7,
    binary main_v19 main_v21 main_v22 (subf : (⟨S16384x7x7, .f32⟩ : BufTy).Contents (Elt F) → (⟨S16384x7x7, .f32⟩ : BufTy).Contents (Elt F) → (⟨S16384x7x7, .f32⟩ : BufTy).Contents (Elt F)),
    binary main_v22 main_v22 main_v23 (mulf : (⟨S16384x7x7, .f32⟩ : BufTy).Contents (Elt F) → (⟨S16384x7x7, .f32⟩ : BufTy).Contents (Elt F) → (⟨S16384x7x7, .f32⟩ : BufTy).Contents (Elt F)),
    binary main_v9 main_v23 main_v24 (mulf : (⟨S16384x7x7, .f32⟩ : BufTy).Contents (Elt F) → (⟨S16384x7x7, .f32⟩ : BufTy).Contents (Elt F) → (⟨S16384x7x7, .f32⟩ : BufTy).Contents (Elt F)),
    nullary main_cst_2 (constant S_ .f32 0x00000000#32),
    binary main_v24 main_cst_2 main_v25 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)) ]

/-- The buffers they write. -/
def w0 : List (Ref sig .tc) :=
  [main_v0, main_v1, main_cst, main_v2, main_v3, main_v4, main_v5, main_v6, main_cst_0, main_v7, main_v8, main_v9, main_v10, main_v11, main_v12, main_v13, main_v14, main_v15, main_v16, main_cst_1, main_v17, main_v18, main_v19, main_v20, main_v21, main_v22, main_v23, main_v24, main_cst_2, main_v25]

theorem hw0 : Writes (c0 (F := F)) w0 := by
  unfold c0 w0
  line_writes

theorem sub0 : (c0 (F := F)).Forall fun op => op.bufs ⊆ tcRefs τ sig := by
  unfold c0
  simp only [List.Forall, nullary_bufs_sub, unary_bufs_sub, binary_bufs_sub, ternary_bufs_sub, reshape_bufs_sub, and_self]

theorem fresh0 : (c0 (F := F)).Forall fun op => op.fresh = ∅ := by
  unfold c0
  line_fresh

/-- Operations 30 … 59 of the program. -/
def c1 : List (HloOp τ sig (Elt F)) :=
  [ unary main_arg1 main_v26 ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)),
    unary main_arg0 main_v27 ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)),
    unary main_v26 main_v28 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v28 main_v29 rfl shapeCasts_S16384x7x7x1_S16384x7x7,
    unary main_v26 main_v30 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v30 main_v31 rfl shapeCasts_S16384x7x7x1_S16384x7x7,
    unary main_v26 main_v32 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v32 main_v33 rfl shapeCasts_S16384x7x7x1_S16384x7x7,
    unary main_v26 main_v34 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v34 main_v35 rfl shapeCasts_S16384x7x7x1_S16384x7x7,
    unary main_v27 main_v36 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v36 main_v37 rfl shapeCasts_S16384x7x7x1_S16384x7x7,
    unary main_v27 main_v38 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v38 main_v39 rfl shapeCasts_S16384x7x7x1_S16384x7x7,
    unary main_v27 main_v40 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v40 main_v41 rfl shapeCasts_S16384x7x7x1_S16384x7x7,
    unary main_v27 main_v42 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v42 main_v43 rfl shapeCasts_S16384x7x7x1_S16384x7x7,
    nullary main_cst_3 (constant S_ .f32 0x40000000#32),
    unary main_cst_3 main_v44 (broadcastInDim S16384x7x7 ![] bcast_S_S16384x7x7 : (⟨S_, .f32⟩ : BufTy).Contents (Elt F) → (⟨S16384x7x7, .f32⟩ : BufTy).Contents (Elt F)),
    binary main_v33 main_v44 main_v45 (Host.divf : (⟨S16384x7x7, .f32⟩ : BufTy).Contents (Elt F) → (⟨S16384x7x7, .f32⟩ : BufTy).Contents (Elt F) → (⟨S16384x7x7, .f32⟩ : BufTy).Contents (Elt F)),
    binary main_v29 main_v45 main_v46 (subf : (⟨S16384x7x7, .f32⟩ : BufTy).Contents (Elt F) → (⟨S16384x7x7, .f32⟩ : BufTy).Contents (Elt F) → (⟨S16384x7x7, .f32⟩ : BufTy).Contents (Elt F)),
    nullary main_cst_4 (constant S_ .f32 0x40000000#32),
    unary main_cst_4 main_v47 (broadcastInDim S16384x7x7 ![] bcast_S_S16384x7x7 : (⟨S_, .f32⟩ : BufTy).Contents (Elt F) → (⟨S16384x7x7, .f32⟩ : BufTy).Contents (Elt F)),
    binary main_v41 main_v47 main_v48 (Host.divf : (⟨S16384x7x7, .f32⟩ : BufTy).Contents (Elt F) → (⟨S16384x7x7, .f32⟩ : BufTy).Contents (Elt F) → (⟨S16384x7x7, .f32⟩ : BufTy).Contents (Elt F)),
    binary main_v37 main_v48 main_v49 (subf : (⟨S16384x7x7, .f32⟩ : BufTy).Contents (Elt F) → (⟨S16384x7x7, .f32⟩ : BufTy).Contents (Elt F) → (⟨S16384x7x7, .f32⟩ : BufTy).Contents (Elt F)),
    binary main_v46 main_v49 main_v50 (maximumf : (⟨S16384x7x7, .f32⟩ : BufTy).Contents (Elt F) → (⟨S16384x7x7, .f32⟩ : BufTy).Contents (Elt F) → (⟨S16384x7x7, .f32⟩ : BufTy).Contents (Elt F)),
    nullary main_cst_5 (constant S_ .f32 0x40000000#32),
    unary main_cst_5 main_v51 (broadcastInDim S16384x7x7 ![] bcast_S_S16384x7x7 : (⟨S_, .f32⟩ : BufTy).Contents (Elt F) → (⟨S16384x7x7, .f32⟩ : BufTy).Contents (Elt F)),
    binary main_v35 main_v51 main_v52 (Host.divf : (⟨S16384x7x7, .f32⟩ : BufTy).Contents (Elt F) → (⟨S16384x7x7, .f32⟩ : BufTy).Contents (Elt F) → (⟨S16384x7x7, .f32⟩ : BufTy).Contents (Elt F)) ]

/-- The buffers they write. -/
def w1 : List (Ref sig .tc) :=
  [main_v26, main_v27, main_v28, main_v29, main_v30, main_v31, main_v32, main_v33, main_v34, main_v35, main_v36, main_v37, main_v38, main_v39, main_v40, main_v41, main_v42, main_v43, main_cst_3, main_v44, main_v45, main_v46, main_cst_4, main_v47, main_v48, main_v49, main_v50, main_cst_5, main_v51, main_v52]

theorem hw1 : Writes (c1 (F := F)) w1 := by
  unfold c1 w1
  line_writes

theorem sub1 : (c1 (F := F)).Forall fun op => op.bufs ⊆ tcRefs τ sig := by
  unfold c1
  simp only [List.Forall, nullary_bufs_sub, unary_bufs_sub, binary_bufs_sub, ternary_bufs_sub, reshape_bufs_sub, and_self]

theorem fresh1 : (c1 (F := F)).Forall fun op => op.fresh = ∅ := by
  unfold c1
  line_fresh

/-- Operations 60 … 91 of the program. -/
def c2 : List (HloOp τ sig (Elt F)) :=
  [ binary main_v31 main_v52 main_v53 (subf : (⟨S16384x7x7, .f32⟩ : BufTy).Contents (Elt F) → (⟨S16384x7x7, .f32⟩ : BufTy).Contents (Elt F) → (⟨S16384x7x7, .f32⟩ : BufTy).Contents (Elt F)),
    nullary main_cst_6 (constant S_ .f32 0x40000000#32),
    unary main_cst_6 main_v54 (broadcastInDim S16384x7x7 ![] bcast_S_S16384x7x7 : (⟨S_, .f32⟩ : BufTy).Contents (Elt F) → (⟨S16384x7x7, .f32⟩ : BufTy).Contents (Elt F)),
    binary main_v43 main_v54 main_v55 (Host.divf : (⟨S16384x7x7, .f32⟩ : BufTy).Contents (Elt F) → (⟨S16384x7x7, .f32⟩ : BufTy).Contents (Elt F) → (⟨S16384x7x7, .f32⟩ : BufTy).Contents (Elt F)),
    binary main_v39 main_v55 main_v56 (subf : (⟨S16384x7x7, .f32⟩ : BufTy).Contents (Elt F) → (⟨S16384x7x7, .f32⟩ : BufTy).Contents (Elt F) → (⟨S16384x7x7, .f32⟩ : BufTy).Contents (Elt F)),
    binary main_v53 main_v56 main_v57 (maximumf : (⟨S16384x7x7, .f32⟩ : BufTy).Contents (Elt F) → (⟨S16384x7x7, .f32⟩ : BufTy).Contents (Elt F) → (⟨S16384x7x7, .f32⟩ : BufTy).Contents (Elt F)),
    nullary main_cst_7 (constant S_ .f32 0x40000000#32),
    unary main_cst_7 main_v58 (broadcastInDim S16384x7x7 ![] bcast_S_S16384x7x7 : (⟨S_, .f32⟩ : BufTy).Contents (Elt F) → (⟨S16384x7x7, .f32⟩ : BufTy).Contents (Elt F)),
    binary main_v33 main_v58 main_v59 (Host.divf : (⟨S16384x7x7, .f32⟩ : BufTy).Contents (Elt F) → (⟨S16384x7x7, .f32⟩ : BufTy).Contents (Elt F) → (⟨S16384x7x7, .f32⟩ : BufTy).Contents (Elt F)),
    binary main_v29 main_v59 main_v60 (addf : (⟨S16384x7x7, .f32⟩ : BufTy).Contents (Elt F) → (⟨S16384x7x7, .f32⟩ : BufTy).Contents (Elt F) → (⟨S16384x7x7, .f32⟩ : BufTy).Contents (Elt F)),
    nullary main_cst_8 (constant S_ .f32 0x40000000#32),
    unary main_cst_8 main_v61 (broadcastInDim S16384x7x7 ![] bcast_S_S16384x7x7 : (⟨S_, .f32⟩ : BufTy).Contents (Elt F) → (⟨S16384x7x7, .f32⟩ : BufTy).Contents (Elt F)),
    binary main_v41 main_v61 main_v62 (Host.divf : (⟨S16384x7x7, .f32⟩ : BufTy).Contents (Elt F) → (⟨S16384x7x7, .f32⟩ : BufTy).Contents (Elt F) → (⟨S16384x7x7, .f32⟩ : BufTy).Contents (Elt F)),
    binary main_v37 main_v62 main_v63 (addf : (⟨S16384x7x7, .f32⟩ : BufTy).Contents (Elt F) → (⟨S16384x7x7, .f32⟩ : BufTy).Contents (Elt F) → (⟨S16384x7x7, .f32⟩ : BufTy).Contents (Elt F)),
    binary main_v60 main_v63 main_v64 (minimumf : (⟨S16384x7x7, .f32⟩ : BufTy).Contents (Elt F) → (⟨S16384x7x7, .f32⟩ : BufTy).Contents (Elt F) → (⟨S16384x7x7, .f32⟩ : BufTy).Contents (Elt F)),
    nullary main_cst_9 (constant S_ .f32 0x40000000#32),
    unary main_cst_9 main_v65 (broadcastInDim S16384x7x7 ![] bcast_S_S16384x7x7 : (⟨S_, .f32⟩ : BufTy).Contents (Elt F) → (⟨S16384x7x7, .f32⟩ : BufTy).Contents (Elt F)),
    binary main_v35 main_v65 main_v66 (Host.divf : (⟨S16384x7x7, .f32⟩ : BufTy).Contents (Elt F) → (⟨S16384x7x7, .f32⟩ : BufTy).Contents (Elt F) → (⟨S16384x7x7, .f32⟩ : BufTy).Contents (Elt F)),
    binary main_v31 main_v66 main_v67 (addf : (⟨S16384x7x7, .f32⟩ : BufTy).Contents (Elt F) → (⟨S16384x7x7, .f32⟩ : BufTy).Contents (Elt F) → (⟨S16384x7x7, .f32⟩ : BufTy).Contents (Elt F)),
    nullary main_cst_10 (constant S_ .f32 0x40000000#32),
    unary main_cst_10 main_v68 (broadcastInDim S16384x7x7 ![] bcast_S_S16384x7x7 : (⟨S_, .f32⟩ : BufTy).Contents (Elt F) → (⟨S16384x7x7, .f32⟩ : BufTy).Contents (Elt F)),
    binary main_v43 main_v68 main_v69 (Host.divf : (⟨S16384x7x7, .f32⟩ : BufTy).Contents (Elt F) → (⟨S16384x7x7, .f32⟩ : BufTy).Contents (Elt F) → (⟨S16384x7x7, .f32⟩ : BufTy).Contents (Elt F)),
    binary main_v39 main_v69 main_v70 (addf : (⟨S16384x7x7, .f32⟩ : BufTy).Contents (Elt F) → (⟨S16384x7x7, .f32⟩ : BufTy).Contents (Elt F) → (⟨S16384x7x7, .f32⟩ : BufTy).Contents (Elt F)),
    binary main_v67 main_v70 main_v71 (minimumf : (⟨S16384x7x7, .f32⟩ : BufTy).Contents (Elt F) → (⟨S16384x7x7, .f32⟩ : BufTy).Contents (Elt F) → (⟨S16384x7x7, .f32⟩ : BufTy).Contents (Elt F)),
    binary main_v64 main_v50 main_v72 (cmpf .oge : (⟨S16384x7x7, .f32⟩ : BufTy).Contents (Elt F) → (⟨S16384x7x7, .f32⟩ : BufTy).Contents (Elt F) → (⟨S16384x7x7, .i1⟩ : BufTy).Contents (Elt F)),
    binary main_v71 main_v57 main_v73 (cmpf .oge : (⟨S16384x7x7, .f32⟩ : BufTy).Contents (Elt F) → (⟨S16384x7x7, .f32⟩ : BufTy).Contents (Elt F) → (⟨S16384x7x7, .i1⟩ : BufTy).Contents (Elt F)),
    binary main_v72 main_v73 main_v74 (andi : (⟨S16384x7x7, .i1⟩ : BufTy).Contents (Elt F) → (⟨S16384x7x7, .i1⟩ : BufTy).Contents (Elt F) → (⟨S16384x7x7, .i1⟩ : BufTy).Contents (Elt F)),
    binary main_v64 main_v50 main_v75 (subf : (⟨S16384x7x7, .f32⟩ : BufTy).Contents (Elt F) → (⟨S16384x7x7, .f32⟩ : BufTy).Contents (Elt F) → (⟨S16384x7x7, .f32⟩ : BufTy).Contents (Elt F)),
    binary main_v71 main_v57 main_v76 (subf : (⟨S16384x7x7, .f32⟩ : BufTy).Contents (Elt F) → (⟨S16384x7x7, .f32⟩ : BufTy).Contents (Elt F) → (⟨S16384x7x7, .f32⟩ : BufTy).Contents (Elt F)),
    binary main_v75 main_v76 main_v77 (mulf : (⟨S16384x7x7, .f32⟩ : BufTy).Contents (Elt F) → (⟨S16384x7x7, .f32⟩ : BufTy).Contents (Elt F) → (⟨S16384x7x7, .f32⟩ : BufTy).Contents (Elt F)),
    binary main_v33 main_v35 main_v78 (mulf : (⟨S16384x7x7, .f32⟩ : BufTy).Contents (Elt F) → (⟨S16384x7x7, .f32⟩ : BufTy).Contents (Elt F) → (⟨S16384x7x7, .f32⟩ : BufTy).Contents (Elt F)),
    binary main_v41 main_v43 main_v79 (mulf : (⟨S16384x7x7, .f32⟩ : BufTy).Contents (Elt F) → (⟨S16384x7x7, .f32⟩ : BufTy).Contents (Elt F) → (⟨S16384x7x7, .f32⟩ : BufTy).Contents (Elt F)) ]

/-- The buffers they write. -/
def w2 : List (Ref sig .tc) :=
  [main_v53, main_cst_6, main_v54, main_v55, main_v56, main_v57, main_cst_7, main_v58, main_v59, main_v60, main_cst_8, main_v61, main_v62, main_v63, main_v64, main_cst_9, main_v65, main_v66, main_v67, main_cst_10, main_v68, main_v69, main_v70, main_v71, main_v72, main_v73, main_v74, main_v75, main_v76, main_v77, main_v78, main_v79]

theorem hw2 : Writes (c2 (F := F)) w2 := by
  unfold c2 w2
  line_writes

theorem sub2 : (c2 (F := F)).Forall fun op => op.bufs ⊆ tcRefs τ sig := by
  unfold c2
  simp only [List.Forall, nullary_bufs_sub, unary_bufs_sub, binary_bufs_sub, ternary_bufs_sub, reshape_bufs_sub, and_self]

theorem fresh2 : (c2 (F := F)).Forall fun op => op.fresh = ∅ := by
  unfold c2
  line_fresh

/-- Operations 92 … 123 of the program. -/
def c3 : List (HloOp τ sig (Elt F)) :=
  [ binary main_v78 main_v79 main_v80 (addf : (⟨S16384x7x7, .f32⟩ : BufTy).Contents (Elt F) → (⟨S16384x7x7, .f32⟩ : BufTy).Contents (Elt F) → (⟨S16384x7x7, .f32⟩ : BufTy).Contents (Elt F)),
    binary main_v80 main_v77 main_v81 (subf : (⟨S16384x7x7, .f32⟩ : BufTy).Contents (Elt F) → (⟨S16384x7x7, .f32⟩ : BufTy).Contents (Elt F) → (⟨S16384x7x7, .f32⟩ : BufTy).Contents (Elt F)),
    nullary main_cst_11 (constant S_ .f32 0x00000000#32),
    unary main_cst_11 main_v82 (broadcastInDim S16384x7x7 ![] bcast_S_S16384x7x7 : (⟨S_, .f32⟩ : BufTy).Contents (Elt F) → (⟨S16384x7x7, .f32⟩ : BufTy).Contents (Elt F)),
    binary main_v81 main_v82 main_v83 (cmpf .oeq : (⟨S16384x7x7, .f32⟩ : BufTy).Contents (Elt F) → (⟨S16384x7x7, .f32⟩ : BufTy).Contents (Elt F) → (⟨S16384x7x7, .i1⟩ : BufTy).Contents (Elt F)),
    nullary main_cst_12 (constant S_ .f32 0x3F800000#32),
    TRef.unary (TRef.of (T := ⟨S_, .f32⟩) main_cst_12) (TRef.of (T := ⟨S_, .f32⟩) main_call0_v0) id,
    TRef.unary (TRef.of (T := ⟨S_, .f32⟩) main_call0_v0) (TRef.of (T := ⟨S16384x7x7, .f32⟩) main_call0_v1) (broadcastInDim S16384x7x7 ![] bcast_S_S16384x7x7),
    TRef.ternary (TRef.of (T := ⟨S16384x7x7, .i1⟩) main_v83) (TRef.of (T := ⟨S16384x7x7, .f32⟩) main_call0_v1) (TRef.of (T := ⟨S16384x7x7, .f32⟩) main_v81) (TRef.of (T := ⟨S16384x7x7, .f32⟩) main_v84) select,
    binary main_v77 main_v84 main_v85 (Host.divf : (⟨S16384x7x7, .f32⟩ : BufTy).Contents (Elt F) → (⟨S16384x7x7, .f32⟩ : BufTy).Contents (Elt F) → (⟨S16384x7x7, .f32⟩ : BufTy).Contents (Elt F)),
    nullary main_cst_13 (constant S_ .f32 0x00000000#32),
    TRef.unary (TRef.of (T := ⟨S_, .f32⟩) main_cst_13) (TRef.of (T := ⟨S_, .f32⟩) main_call1_v0) id,
    TRef.unary (TRef.of (T := ⟨S_, .f32⟩) main_call1_v0) (TRef.of (T := ⟨S16384x7x7, .f32⟩) main_call1_v1) (broadcastInDim S16384x7x7 ![] bcast_S_S16384x7x7),
    TRef.ternary (TRef.of (T := ⟨S16384x7x7, .i1⟩) main_v74) (TRef.of (T := ⟨S16384x7x7, .f32⟩) main_v85) (TRef.of (T := ⟨S16384x7x7, .f32⟩) main_call1_v1) (TRef.of (T := ⟨S16384x7x7, .f32⟩) main_v86) select,
    unary main_arg0 main_v87 ((extractStridedSlice S16384x7x7x4 ![0, 0, 0, 5] · slices_S16384x7x7x30_S16384x7x7x4_0_0_0_5) : (⟨S16384x7x7x30, .f32⟩ : BufTy).Contents (Elt F) → (⟨S16384x7x7x4, .f32⟩ : BufTy).Contents (Elt F)),
    unary main_v26 main_v88 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v88 main_v89 rfl shapeCasts_S16384x7x7x1_S16384x7x7,
    unary main_v26 main_v90 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v90 main_v91 rfl shapeCasts_S16384x7x7x1_S16384x7x7,
    unary main_v26 main_v92 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v92 main_v93 rfl shapeCasts_S16384x7x7x1_S16384x7x7,
    unary main_v26 main_v94 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v94 main_v95 rfl shapeCasts_S16384x7x7x1_S16384x7x7,
    unary main_v87 main_v96 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v96 main_v97 rfl shapeCasts_S16384x7x7x1_S16384x7x7,
    unary main_v87 main_v98 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v98 main_v99 rfl shapeCasts_S16384x7x7x1_S16384x7x7,
    unary main_v87 main_v100 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v100 main_v101 rfl shapeCasts_S16384x7x7x1_S16384x7x7,
    unary main_v87 main_v102 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v102 main_v103 rfl shapeCasts_S16384x7x7x1_S16384x7x7,
    nullary main_cst_14 (constant S_ .f32 0x40000000#32) ]

/-- The buffers they write. -/
def w3 : List (Ref sig .tc) :=
  [main_v80, main_v81, main_cst_11, main_v82, main_v83, main_cst_12, main_call0_v0, main_call0_v1, main_v84, main_v85, main_cst_13, main_call1_v0, main_call1_v1, main_v86, main_v87, main_v88, main_v89, main_v90, main_v91, main_v92, main_v93, main_v94, main_v95, main_v96, main_v97, main_v98, main_v99, main_v100, main_v101, main_v102, main_v103, main_cst_14]

theorem hw3 : Writes (c3 (F := F)) w3 := by
  unfold c3 w3
  line_writes

theorem sub3 : (c3 (F := F)).Forall fun op => op.bufs ⊆ tcRefs τ sig := by
  unfold c3
  simp only [List.Forall, nullary_bufs_sub, unary_bufs_sub, binary_bufs_sub, ternary_bufs_sub, reshape_bufs_sub, and_self]

theorem fresh3 : (c3 (F := F)).Forall fun op => op.fresh = ∅ := by
  unfold c3
  line_fresh

/-- Operations 124 … 155 of the program. -/
def c4 : List (HloOp τ sig (Elt F)) :=
  [ unary main_cst_14 main_v104 (broadcastInDim S16384x7x7 ![] bcast_S_S16384x7x7 : (⟨S_, .f32⟩ : BufTy).Contents (Elt F) → (⟨S16384x7x7, .f32⟩ : BufTy).Contents (Elt F)),
    binary main_v93 main_v104 main_v105 (Host.divf : (⟨S16384x7x7, .f32⟩ : BufTy).Contents (Elt F) → (⟨S16384x7x7, .f32⟩ : BufTy).Contents (Elt F) → (⟨S16384x7x7, .f32⟩ : BufTy).Contents (Elt F)),
    binary main_v89 main_v105 main_v106 (subf : (⟨S16384x7x7, .f32⟩ : BufTy).Contents (Elt F) → (⟨S16384x7x7, .f32⟩ : BufTy).Contents (Elt F) → (⟨S16384x7x7, .f32⟩ : BufTy).Contents (Elt F)),
    nullary main_cst_15 (constant S_ .f32 0x40000000#32),
    unary main_cst_15 main_v107 (broadcastInDim S16384x7x7 ![] bcast_S_S16384x7x7 : (⟨S_, .f32⟩ : BufTy).Contents (Elt F) → (⟨S16384x7x7, .f32⟩ : BufTy).Contents (Elt F)),
    binary main_v101 main_v107 main_v108 (Host.divf : (⟨S16384x7x7, .f32⟩ : BufTy).Contents (Elt F) → (⟨S16384x7x7, .f32⟩ : BufTy).Contents (Elt F) → (⟨S16384x7x7, .f32⟩ : BufTy).Contents (Elt F)),
    binary main_v97 main_v108 main_v109 (subf : (⟨S16384x7x7, .f32⟩ : BufTy).Contents (Elt F) → (⟨S16384x7x7, .f32⟩ : BufTy).Contents (Elt F) → (⟨S16384x7x7, .f32⟩ : BufTy).Contents (Elt F)),
    binary main_v106 main_v109 main_v110 (maximumf : (⟨S16384x7x7, .f32⟩ : BufTy).Contents (Elt F) → (⟨S16384x7x7, .f32⟩ : BufTy).Contents (Elt F) → (⟨S16384x7x7, .f32⟩ : BufTy).Contents (Elt F)),
    nullary main_cst_16 (constant S_ .f32 0x40000000#32),
    unary main_cst_16 main_v111 (broadcastInDim S16384x7x7 ![] bcast_S_S16384x7x7 : (⟨S_, .f32⟩ : BufTy).Contents (Elt F) → (⟨S16384x7x7, .f32⟩ : BufTy).Contents (Elt F)),
    binary main_v95 main_v111 main_v112 (Host.divf : (⟨S16384x7x7, .f32⟩ : BufTy).Contents (Elt F) → (⟨S16384x7x7, .f32⟩ : BufTy).Contents (Elt F) → (⟨S16384x7x7, .f32⟩ : BufTy).Contents (Elt F)),
    binary main_v91 main_v112 main_v113 (subf : (⟨S16384x7x7, .f32⟩ : BufTy).Contents (Elt F) → (⟨S16384x7x7, .f32⟩ : BufTy).Contents (Elt F) → (⟨S16384x7x7, .f32⟩ : BufTy).Contents (Elt F)),
    nullary main_cst_17 (constant S_ .f32 0x40000000#32),
    unary main_cst_17 main_v114 (broadcastInDim S16384x7x7 ![] bcast_S_S16384x7x7 : (⟨S_, .f32⟩ : BufTy).Contents (Elt F) → (⟨S16384x7x7, .f32⟩ : BufTy).Contents (Elt F)),
    binary main_v103 main_v114 main_v115 (Host.divf : (⟨S16384x7x7, .f32⟩ : BufTy).Contents (Elt F) → (⟨S16384x7x7, .f32⟩ : BufTy).Contents (Elt F) → (⟨S16384x7x7, .f32⟩ : BufTy).Contents (Elt F)),
    binary main_v99 main_v115 main_v116 (subf : (⟨S16384x7x7, .f32⟩ : BufTy).Contents (Elt F) → (⟨S16384x7x7, .f32⟩ : BufTy).Contents (Elt F) → (⟨S16384x7x7, .f32⟩ : BufTy).Contents (Elt F)),
    binary main_v113 main_v116 main_v117 (maximumf : (⟨S16384x7x7, .f32⟩ : BufTy).Contents (Elt F) → (⟨S16384x7x7, .f32⟩ : BufTy).Contents (Elt F) → (⟨S16384x7x7, .f32⟩ : BufTy).Contents (Elt F)),
    nullary main_cst_18 (constant S_ .f32 0x40000000#32),
    unary main_cst_18 main_v118 (broadcastInDim S16384x7x7 ![] bcast_S_S16384x7x7 : (⟨S_, .f32⟩ : BufTy).Contents (Elt F) → (⟨S16384x7x7, .f32⟩ : BufTy).Contents (Elt F)),
    binary main_v93 main_v118 main_v119 (Host.divf : (⟨S16384x7x7, .f32⟩ : BufTy).Contents (Elt F) → (⟨S16384x7x7, .f32⟩ : BufTy).Contents (Elt F) → (⟨S16384x7x7, .f32⟩ : BufTy).Contents (Elt F)),
    binary main_v89 main_v119 main_v120 (addf : (⟨S16384x7x7, .f32⟩ : BufTy).Contents (Elt F) → (⟨S16384x7x7, .f32⟩ : BufTy).Contents (Elt F) → (⟨S16384x7x7, .f32⟩ : BufTy).Contents (Elt F)),
    nullary main_cst_19 (constant S_ .f32 0x40000000#32),
    unary main_cst_19 main_v121 (broadcastInDim S16384x7x7 ![] bcast_S_S16384x7x7 : (⟨S_, .f32⟩ : BufTy).Contents (Elt F) → (⟨S16384x7x7, .f32⟩ : BufTy).Contents (Elt F)),
    binary main_v101 main_v121 main_v122 (Host.divf : (⟨S16384x7x7, .f32⟩ : BufTy).Contents (Elt F) → (⟨S16384x7x7, .f32⟩ : BufTy).Contents (Elt F) → (⟨S16384x7x7, .f32⟩ : BufTy).Contents (Elt F)),
    binary main_v97 main_v122 main_v123 (addf : (⟨S16384x7x7, .f32⟩ : BufTy).Contents (Elt F) → (⟨S16384x7x7, .f32⟩ : BufTy).Contents (Elt F) → (⟨S16384x7x7, .f32⟩ : BufTy).Contents (Elt F)),
    binary main_v120 main_v123 main_v124 (minimumf : (⟨S16384x7x7, .f32⟩ : BufTy).Contents (Elt F) → (⟨S16384x7x7, .f32⟩ : BufTy).Contents (Elt F) → (⟨S16384x7x7, .f32⟩ : BufTy).Contents (Elt F)),
    nullary main_cst_20 (constant S_ .f32 0x40000000#32),
    unary main_cst_20 main_v125 (broadcastInDim S16384x7x7 ![] bcast_S_S16384x7x7 : (⟨S_, .f32⟩ : BufTy).Contents (Elt F) → (⟨S16384x7x7, .f32⟩ : BufTy).Contents (Elt F)),
    binary main_v95 main_v125 main_v126 (Host.divf : (⟨S16384x7x7, .f32⟩ : BufTy).Contents (Elt F) → (⟨S16384x7x7, .f32⟩ : BufTy).Contents (Elt F) → (⟨S16384x7x7, .f32⟩ : BufTy).Contents (Elt F)),
    binary main_v91 main_v126 main_v127 (addf : (⟨S16384x7x7, .f32⟩ : BufTy).Contents (Elt F) → (⟨S16384x7x7, .f32⟩ : BufTy).Contents (Elt F) → (⟨S16384x7x7, .f32⟩ : BufTy).Contents (Elt F)),
    nullary main_cst_21 (constant S_ .f32 0x40000000#32),
    unary main_cst_21 main_v128 (broadcastInDim S16384x7x7 ![] bcast_S_S16384x7x7 : (⟨S_, .f32⟩ : BufTy).Contents (Elt F) → (⟨S16384x7x7, .f32⟩ : BufTy).Contents (Elt F)) ]

/-- The buffers they write. -/
def w4 : List (Ref sig .tc) :=
  [main_v104, main_v105, main_v106, main_cst_15, main_v107, main_v108, main_v109, main_v110, main_cst_16, main_v111, main_v112, main_v113, main_cst_17, main_v114, main_v115, main_v116, main_v117, main_cst_18, main_v118, main_v119, main_v120, main_cst_19, main_v121, main_v122, main_v123, main_v124, main_cst_20, main_v125, main_v126, main_v127, main_cst_21, main_v128]

theorem hw4 : Writes (c4 (F := F)) w4 := by
  unfold c4 w4
  line_writes

theorem sub4 : (c4 (F := F)).Forall fun op => op.bufs ⊆ tcRefs τ sig := by
  unfold c4
  simp only [List.Forall, nullary_bufs_sub, unary_bufs_sub, binary_bufs_sub, ternary_bufs_sub, reshape_bufs_sub, and_self]

theorem fresh4 : (c4 (F := F)).Forall fun op => op.fresh = ∅ := by
  unfold c4
  line_fresh

/-- Operations 156 … 187 of the program. -/
def c5 : List (HloOp τ sig (Elt F)) :=
  [ binary main_v103 main_v128 main_v129 (Host.divf : (⟨S16384x7x7, .f32⟩ : BufTy).Contents (Elt F) → (⟨S16384x7x7, .f32⟩ : BufTy).Contents (Elt F) → (⟨S16384x7x7, .f32⟩ : BufTy).Contents (Elt F)),
    binary main_v99 main_v129 main_v130 (addf : (⟨S16384x7x7, .f32⟩ : BufTy).Contents (Elt F) → (⟨S16384x7x7, .f32⟩ : BufTy).Contents (Elt F) → (⟨S16384x7x7, .f32⟩ : BufTy).Contents (Elt F)),
    binary main_v127 main_v130 main_v131 (minimumf : (⟨S16384x7x7, .f32⟩ : BufTy).Contents (Elt F) → (⟨S16384x7x7, .f32⟩ : BufTy).Contents (Elt F) → (⟨S16384x7x7, .f32⟩ : BufTy).Contents (Elt F)),
    binary main_v124 main_v110 main_v132 (cmpf .oge : (⟨S16384x7x7, .f32⟩ : BufTy).Contents (Elt F) → (⟨S16384x7x7, .f32⟩ : BufTy).Contents (Elt F) → (⟨S16384x7x7, .i1⟩ : BufTy).Contents (Elt F)),
    binary main_v131 main_v117 main_v133 (cmpf .oge : (⟨S16384x7x7, .f32⟩ : BufTy).Contents (Elt F) → (⟨S16384x7x7, .f32⟩ : BufTy).Contents (Elt F) → (⟨S16384x7x7, .i1⟩ : BufTy).Contents (Elt F)),
    binary main_v132 main_v133 main_v134 (andi : (⟨S16384x7x7, .i1⟩ : BufTy).Contents (Elt F) → (⟨S16384x7x7, .i1⟩ : BufTy).Contents (Elt F) → (⟨S16384x7x7, .i1⟩ : BufTy).Contents (Elt F)),
    binary main_v124 main_v110 main_v135 (subf : (⟨S16384x7x7, .f32⟩ : BufTy).Contents (Elt F) → (⟨S16384x7x7, .f32⟩ : BufTy).Contents (Elt F) → (⟨S16384x7x7, .f32⟩ : BufTy).Contents (Elt F)),
    binary main_v131 main_v117 main_v136 (subf : (⟨S16384x7x7, .f32⟩ : BufTy).Contents (Elt F) → (⟨S16384x7x7, .f32⟩ : BufTy).Contents (Elt F) → (⟨S16384x7x7, .f32⟩ : BufTy).Contents (Elt F)),
    binary main_v135 main_v136 main_v137 (mulf : (⟨S16384x7x7, .f32⟩ : BufTy).Contents (Elt F) → (⟨S16384x7x7, .f32⟩ : BufTy).Contents (Elt F) → (⟨S16384x7x7, .f32⟩ : BufTy).Contents (Elt F)),
    binary main_v93 main_v95 main_v138 (mulf : (⟨S16384x7x7, .f32⟩ : BufTy).Contents (Elt F) → (⟨S16384x7x7, .f32⟩ : BufTy).Contents (Elt F) → (⟨S16384x7x7, .f32⟩ : BufTy).Contents (Elt F)),
    binary main_v101 main_v103 main_v139 (mulf : (⟨S16384x7x7, .f32⟩ : BufTy).Contents (Elt F) → (⟨S16384x7x7, .f32⟩ : BufTy).Contents (Elt F) → (⟨S16384x7x7, .f32⟩ : BufTy).Contents (Elt F)),
    binary main_v138 main_v139 main_v140 (addf : (⟨S16384x7x7, .f32⟩ : BufTy).Contents (Elt F) → (⟨S16384x7x7, .f32⟩ : BufTy).Contents (Elt F) → (⟨S16384x7x7, .f32⟩ : BufTy).Contents (Elt F)),
    binary main_v140 main_v137 main_v141 (subf : (⟨S16384x7x7, .f32⟩ : BufTy).Contents (Elt F) → (⟨S16384x7x7, .f32⟩ : BufTy).Contents (Elt F) → (⟨S16384x7x7, .f32⟩ : BufTy).Contents (Elt F)),
    nullary main_cst_22 (constant S_ .f32 0x00000000#32),
    unary main_cst_22 main_v142 (broadcastInDim S16384x7x7 ![] bcast_S_S16384x7x7 : (⟨S_, .f32⟩ : BufTy).Contents (Elt F) → (⟨S16384x7x7, .f32⟩ : BufTy).Contents (Elt F)),
    binary main_v141 main_v142 main_v143 (cmpf .oeq : (⟨S16384x7x7, .f32⟩ : BufTy).Contents (Elt F) → (⟨S16384x7x7, .f32⟩ : BufTy).Contents (Elt F) → (⟨S16384x7x7, .i1⟩ : BufTy).Contents (Elt F)),
    nullary main_cst_23 (constant S_ .f32 0x3F800000#32),
    TRef.unary (TRef.of (T := ⟨S_, .f32⟩) main_cst_23) (TRef.of (T := ⟨S_, .f32⟩) main_call2_v0) id,
    TRef.unary (TRef.of (T := ⟨S_, .f32⟩) main_call2_v0) (TRef.of (T := ⟨S16384x7x7, .f32⟩) main_call2_v1) (broadcastInDim S16384x7x7 ![] bcast_S_S16384x7x7),
    TRef.ternary (TRef.of (T := ⟨S16384x7x7, .i1⟩) main_v143) (TRef.of (T := ⟨S16384x7x7, .f32⟩) main_call2_v1) (TRef.of (T := ⟨S16384x7x7, .f32⟩) main_v141) (TRef.of (T := ⟨S16384x7x7, .f32⟩) main_v144) select,
    binary main_v137 main_v144 main_v145 (Host.divf : (⟨S16384x7x7, .f32⟩ : BufTy).Contents (Elt F) → (⟨S16384x7x7, .f32⟩ : BufTy).Contents (Elt F) → (⟨S16384x7x7, .f32⟩ : BufTy).Contents (Elt F)),
    nullary main_cst_24 (constant S_ .f32 0x00000000#32),
    TRef.unary (TRef.of (T := ⟨S_, .f32⟩) main_cst_24) (TRef.of (T := ⟨S_, .f32⟩) main_call3_v0) id,
    TRef.unary (TRef.of (T := ⟨S_, .f32⟩) main_call3_v0) (TRef.of (T := ⟨S16384x7x7, .f32⟩) main_call3_v1) (broadcastInDim S16384x7x7 ![] bcast_S_S16384x7x7),
    TRef.ternary (TRef.of (T := ⟨S16384x7x7, .i1⟩) main_v134) (TRef.of (T := ⟨S16384x7x7, .f32⟩) main_v145) (TRef.of (T := ⟨S16384x7x7, .f32⟩) main_call3_v1) (TRef.of (T := ⟨S16384x7x7, .f32⟩) main_v146) select,
    binary main_v86 main_v146 main_v147 (cmpf .ogt : (⟨S16384x7x7, .f32⟩ : BufTy).Contents (Elt F) → (⟨S16384x7x7, .f32⟩ : BufTy).Contents (Elt F) → (⟨S16384x7x7, .i1⟩ : BufTy).Contents (Elt F)),
    unary main_v147 main_v148 (uitofp .f32 : (⟨S16384x7x7, .i1⟩ : BufTy).Contents (Elt F) → (⟨S16384x7x7, .f32⟩ : BufTy).Contents (Elt F)),
    binary main_v4 main_v148 main_v149 (mulf : (⟨S16384x7x7, .f32⟩ : BufTy).Contents (Elt F) → (⟨S16384x7x7, .f32⟩ : BufTy).Contents (Elt F) → (⟨S16384x7x7, .f32⟩ : BufTy).Contents (Elt F)),
    nullary main_cst_25 (constant S_ .f32 0x3F800000#32),
    unary main_cst_25 main_v150 (broadcastInDim S16384x7x7 ![] bcast_S_S16384x7x7 : (⟨S_, .f32⟩ : BufTy).Contents (Elt F) → (⟨S16384x7x7, .f32⟩ : BufTy).Contents (Elt F)),
    binary main_v150 main_v148 main_v151 (subf : (⟨S16384x7x7, .f32⟩ : BufTy).Contents (Elt F) → (⟨S16384x7x7, .f32⟩ : BufTy).Contents (Elt F) → (⟨S16384x7x7, .f32⟩ : BufTy).Contents (Elt F)),
    binary main_v4 main_v151 main_v152 (mulf : (⟨S16384x7x7, .f32⟩ : BufTy).Contents (Elt F) → (⟨S16384x7x7, .f32⟩ : BufTy).Contents (Elt F) → (⟨S16384x7x7, .f32⟩ : BufTy).Contents (Elt F)) ]

/-- The buffers they write. -/
def w5 : List (Ref sig .tc) :=
  [main_v129, main_v130, main_v131, main_v132, main_v133, main_v134, main_v135, main_v136, main_v137, main_v138, main_v139, main_v140, main_v141, main_cst_22, main_v142, main_v143, main_cst_23, main_call2_v0, main_call2_v1, main_v144, main_v145, main_cst_24, main_call3_v0, main_call3_v1, main_v146, main_v147, main_v148, main_v149, main_cst_25, main_v150, main_v151, main_v152]

theorem hw5 : Writes (c5 (F := F)) w5 := by
  unfold c5 w5
  line_writes

theorem sub5 : (c5 (F := F)).Forall fun op => op.bufs ⊆ tcRefs τ sig := by
  unfold c5
  simp only [List.Forall, nullary_bufs_sub, unary_bufs_sub, binary_bufs_sub, ternary_bufs_sub, reshape_bufs_sub, and_self]

theorem fresh5 : (c5 (F := F)).Forall fun op => op.fresh = ∅ := by
  unfold c5
  line_fresh

/-- Operations 188 … 217 of the program. -/
def c6 : List (HloOp τ sig (Elt F)) :=
  [ unary main_arg0 main_v153 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v153 main_v154 rfl shapeCasts_S16384x7x7x1_S16384x7x7,
    binary main_v86 main_v154 main_v155 (subf : (⟨S16384x7x7, .f32⟩ : BufTy).Contents (Elt F) → (⟨S16384x7x7, .f32⟩ : BufTy).Contents (Elt F) → (⟨S16384x7x7, .f32⟩ : BufTy).Contents (Elt F)),
    binary main_v155 main_v155 main_v156 (mulf : (⟨S16384x7x7, .f32⟩ : BufTy).Contents (Elt F) → (⟨S16384x7x7, .f32⟩ : BufTy).Contents (Elt F) → (⟨S16384x7x7, .f32⟩ : BufTy).Contents (Elt F)),
    binary main_v149 main_v156 main_v157 (mulf : (⟨S16384x7x7, .f32⟩ : BufTy).Contents (Elt F) → (⟨S16384x7x7, .f32⟩ : BufTy).Contents (Elt F) → (⟨S16384x7x7, .f32⟩ : BufTy).Contents (Elt F)),
    unary main_arg0 main_v158 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v158 main_v159 rfl shapeCasts_S16384x7x7x1_S16384x7x7,
    binary main_v146 main_v159 main_v160 (subf : (⟨S16384x7x7, .f32⟩ : BufTy).Contents (Elt F) → (⟨S16384x7x7, .f32⟩ : BufTy).Contents (Elt F) → (⟨S16384x7x7, .f32⟩ : BufTy).Contents (Elt F)),
    binary main_v160 main_v160 main_v161 (mulf : (⟨S16384x7x7, .f32⟩ : BufTy).Contents (Elt F) → (⟨S16384x7x7, .f32⟩ : BufTy).Contents (Elt F) → (⟨S16384x7x7, .f32⟩ : BufTy).Contents (Elt F)),
    binary main_v152 main_v161 main_v162 (mulf : (⟨S16384x7x7, .f32⟩ : BufTy).Contents (Elt F) → (⟨S16384x7x7, .f32⟩ : BufTy).Contents (Elt F) → (⟨S16384x7x7, .f32⟩ : BufTy).Contents (Elt F)),
    binary main_v157 main_v162 main_v163 (addf : (⟨S16384x7x7, .f32⟩ : BufTy).Contents (Elt F) → (⟨S16384x7x7, .f32⟩ : BufTy).Contents (Elt F) → (⟨S16384x7x7, .f32⟩ : BufTy).Contents (Elt F)),
    nullary main_cst_26 (constant S_ .f32 0x00000000#32),
    binary main_v163 main_cst_26 main_v164 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    unary main_arg1 main_v165 ((extractStridedSlice S16384x7x7x1 ![0, 0, 0, 0] · slices_S16384x7x7x30_S16384x7x7x1_0_0_0_0) : (⟨S16384x7x7x30, .f32⟩ : BufTy).Contents (Elt F) → (⟨S16384x7x7x1, .f32⟩ : BufTy).Contents (Elt F)),
    reshape main_v165 main_v166 rfl shapeCasts_S16384x7x7x1_S16384x7x7,
    unary main_arg0 main_v167 ((extractStridedSlice S16384x7x7x1 ![0, 0, 0, 0] · slices_S16384x7x7x30_S16384x7x7x1_0_0_0_0) : (⟨S16384x7x7x30, .f32⟩ : BufTy).Contents (Elt F) → (⟨S16384x7x7x1, .f32⟩ : BufTy).Contents (Elt F)),
    reshape main_v167 main_v168 rfl shapeCasts_S16384x7x7x1_S16384x7x7,
    binary main_v166 main_v168 main_v169 (subf : (⟨S16384x7x7, .f32⟩ : BufTy).Contents (Elt F) → (⟨S16384x7x7, .f32⟩ : BufTy).Contents (Elt F) → (⟨S16384x7x7, .f32⟩ : BufTy).Contents (Elt F)),
    binary main_v169 main_v169 main_v170 (mulf : (⟨S16384x7x7, .f32⟩ : BufTy).Contents (Elt F) → (⟨S16384x7x7, .f32⟩ : BufTy).Contents (Elt F) → (⟨S16384x7x7, .f32⟩ : BufTy).Contents (Elt F)),
    unary main_arg1 main_v171 ((extractStridedSlice S16384x7x7x1 ![0, 0, 0, 1] · slices_S16384x7x7x30_S16384x7x7x1_0_0_0_1) : (⟨S16384x7x7x30, .f32⟩ : BufTy).Contents (Elt F) → (⟨S16384x7x7x1, .f32⟩ : BufTy).Contents (Elt F)),
    reshape main_v171 main_v172 rfl shapeCasts_S16384x7x7x1_S16384x7x7,
    unary main_arg0 main_v173 ((extractStridedSlice S16384x7x7x1 ![0, 0, 0, 1] · slices_S16384x7x7x30_S16384x7x7x1_0_0_0_1) : (⟨S16384x7x7x30, .f32⟩ : BufTy).Contents (Elt F) → (⟨S16384x7x7x1, .f32⟩ : BufTy).Contents (Elt F)),
    reshape main_v173 main_v174 rfl shapeCasts_S16384x7x7x1_S16384x7x7,
    binary main_v172 main_v174 main_v175 (subf : (⟨S16384x7x7, .f32⟩ : BufTy).Contents (Elt F) → (⟨S16384x7x7, .f32⟩ : BufTy).Contents (Elt F) → (⟨S16384x7x7, .f32⟩ : BufTy).Contents (Elt F)),
    binary main_v175 main_v175 main_v176 (mulf : (⟨S16384x7x7, .f32⟩ : BufTy).Contents (Elt F) → (⟨S16384x7x7, .f32⟩ : BufTy).Contents (Elt F) → (⟨S16384x7x7, .f32⟩ : BufTy).Contents (Elt F)),
    binary main_v170 main_v176 main_v177 (addf : (⟨S16384x7x7, .f32⟩ : BufTy).Contents (Elt F) → (⟨S16384x7x7, .f32⟩ : BufTy).Contents (Elt F) → (⟨S16384x7x7, .f32⟩ : BufTy).Contents (Elt F)),
    binary main_v149 main_v177 main_v178 (mulf : (⟨S16384x7x7, .f32⟩ : BufTy).Contents (Elt F) → (⟨S16384x7x7, .f32⟩ : BufTy).Contents (Elt F) → (⟨S16384x7x7, .f32⟩ : BufTy).Contents (Elt F)),
    unary main_arg1 main_v179 ((extractStridedSlice S16384x7x7x1 ![0, 0, 0, 0] · slices_S16384x7x7x30_S16384x7x7x1_0_0_0_0) : (⟨S16384x7x7x30, .f32⟩ : BufTy).Contents (Elt F) → (⟨S16384x7x7x1, .f32⟩ : BufTy).Contents (Elt F)),
    reshape main_v179 main_v180 rfl shapeCasts_S16384x7x7x1_S16384x7x7,
    unary main_arg0 main_v181 ((extractStridedSlice S16384x7x7x1 ![0, 0, 0, 5] · slices_S16384x7x7x30_S16384x7x7x1_0_0_0_5) : (⟨S16384x7x7x30, .f32⟩ : BufTy).Contents (Elt F) → (⟨S16384x7x7x1, .f32⟩ : BufTy).Contents (Elt F)) ]

/-- The buffers they write. -/
def w6 : List (Ref sig .tc) :=
  [main_v153, main_v154, main_v155, main_v156, main_v157, main_v158, main_v159, main_v160, main_v161, main_v162, main_v163, main_cst_26, main_v164, main_v165, main_v166, main_v167, main_v168, main_v169, main_v170, main_v171, main_v172, main_v173, main_v174, main_v175, main_v176, main_v177, main_v178, main_v179, main_v180, main_v181]

theorem hw6 : Writes (c6 (F := F)) w6 := by
  unfold c6 w6
  line_writes

theorem sub6 : (c6 (F := F)).Forall fun op => op.bufs ⊆ tcRefs τ sig := by
  unfold c6
  simp only [List.Forall, nullary_bufs_sub, unary_bufs_sub, binary_bufs_sub, ternary_bufs_sub, reshape_bufs_sub, and_self]

theorem fresh6 : (c6 (F := F)).Forall fun op => op.fresh = ∅ := by
  unfold c6
  line_fresh

/-- Operations 218 … 247 of the program. -/
def c7 : List (HloOp τ sig (Elt F)) :=
  [ reshape main_v181 main_v182 rfl shapeCasts_S16384x7x7x1_S16384x7x7,
    binary main_v180 main_v182 main_v183 (subf : (⟨S16384x7x7, .f32⟩ : BufTy).Contents (Elt F) → (⟨S16384x7x7, .f32⟩ : BufTy).Contents (Elt F) → (⟨S16384x7x7, .f32⟩ : BufTy).Contents (Elt F)),
    binary main_v183 main_v183 main_v184 (mulf : (⟨S16384x7x7, .f32⟩ : BufTy).Contents (Elt F) → (⟨S16384x7x7, .f32⟩ : BufTy).Contents (Elt F) → (⟨S16384x7x7, .f32⟩ : BufTy).Contents (Elt F)),
    unary main_arg1 main_v185 ((extractStridedSlice S16384x7x7x1 ![0, 0, 0, 1] · slices_S16384x7x7x30_S16384x7x7x1_0_0_0_1) : (⟨S16384x7x7x30, .f32⟩ : BufTy).Contents (Elt F) → (⟨S16384x7x7x1, .f32⟩ : BufTy).Contents (Elt F)),
    reshape main_v185 main_v186 rfl shapeCasts_S16384x7x7x1_S16384x7x7,
    unary main_arg0 main_v187 ((extractStridedSlice S16384x7x7x1 ![0, 0, 0, 6] · slices_S16384x7x7x30_S16384x7x7x1_0_0_0_6) : (⟨S16384x7x7x30, .f32⟩ : BufTy).Contents (Elt F) → (⟨S16384x7x7x1, .f32⟩ : BufTy).Contents (Elt F)),
    reshape main_v187 main_v188 rfl shapeCasts_S16384x7x7x1_S16384x7x7,
    binary main_v186 main_v188 main_v189 (subf : (⟨S16384x7x7, .f32⟩ : BufTy).Contents (Elt F) → (⟨S16384x7x7, .f32⟩ : BufTy).Contents (Elt F) → (⟨S16384x7x7, .f32⟩ : BufTy).Contents (Elt F)),
    binary main_v189 main_v189 main_v190 (mulf : (⟨S16384x7x7, .f32⟩ : BufTy).Contents (Elt F) → (⟨S16384x7x7, .f32⟩ : BufTy).Contents (Elt F) → (⟨S16384x7x7, .f32⟩ : BufTy).Contents (Elt F)),
    binary main_v184 main_v190 main_v191 (addf : (⟨S16384x7x7, .f32⟩ : BufTy).Contents (Elt F) → (⟨S16384x7x7, .f32⟩ : BufTy).Contents (Elt F) → (⟨S16384x7x7, .f32⟩ : BufTy).Contents (Elt F)),
    binary main_v152 main_v191 main_v192 (mulf : (⟨S16384x7x7, .f32⟩ : BufTy).Contents (Elt F) → (⟨S16384x7x7, .f32⟩ : BufTy).Contents (Elt F) → (⟨S16384x7x7, .f32⟩ : BufTy).Contents (Elt F)),
    binary main_v178 main_v192 main_v193 (addf : (⟨S16384x7x7, .f32⟩ : BufTy).Contents (Elt F) → (⟨S16384x7x7, .f32⟩ : BufTy).Contents (Elt F) → (⟨S16384x7x7, .f32⟩ : BufTy).Contents (Elt F)),
    nullary main_cst_27 (constant S_ .f32 0x00000000#32),
    binary main_v193 main_cst_27 main_v194 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    unary main_arg1 main_v195 ((extractStridedSlice S16384x7x7x1 ![0, 0, 0, 2] · slices_S16384x7x7x30_S16384x7x7x1_0_0_0_2) : (⟨S16384x7x7x30, .f32⟩ : BufTy).Contents (Elt F) → (⟨S16384x7x7x1, .f32⟩ : BufTy).Contents (Elt F)),
    reshape main_v195 main_v196 rfl shapeCasts_S16384x7x7x1_S16384x7x7,
    unary main_arg0 main_v197 ((extractStridedSlice S16384x7x7x1 ![0, 0, 0, 2] · slices_S16384x7x7x30_S16384x7x7x1_0_0_0_2) : (⟨S16384x7x7x30, .f32⟩ : BufTy).Contents (Elt F) → (⟨S16384x7x7x1, .f32⟩ : BufTy).Contents (Elt F)),
    reshape main_v197 main_v198 rfl shapeCasts_S16384x7x7x1_S16384x7x7,
    binary main_v196 main_v198 main_v199 (subf : (⟨S16384x7x7, .f32⟩ : BufTy).Contents (Elt F) → (⟨S16384x7x7, .f32⟩ : BufTy).Contents (Elt F) → (⟨S16384x7x7, .f32⟩ : BufTy).Contents (Elt F)),
    binary main_v199 main_v199 main_v200 (mulf : (⟨S16384x7x7, .f32⟩ : BufTy).Contents (Elt F) → (⟨S16384x7x7, .f32⟩ : BufTy).Contents (Elt F) → (⟨S16384x7x7, .f32⟩ : BufTy).Contents (Elt F)),
    unary main_arg1 main_v201 ((extractStridedSlice S16384x7x7x1 ![0, 0, 0, 3] · slices_S16384x7x7x30_S16384x7x7x1_0_0_0_3) : (⟨S16384x7x7x30, .f32⟩ : BufTy).Contents (Elt F) → (⟨S16384x7x7x1, .f32⟩ : BufTy).Contents (Elt F)),
    reshape main_v201 main_v202 rfl shapeCasts_S16384x7x7x1_S16384x7x7,
    unary main_arg0 main_v203 ((extractStridedSlice S16384x7x7x1 ![0, 0, 0, 3] · slices_S16384x7x7x30_S16384x7x7x1_0_0_0_3) : (⟨S16384x7x7x30, .f32⟩ : BufTy).Contents (Elt F) → (⟨S16384x7x7x1, .f32⟩ : BufTy).Contents (Elt F)),
    reshape main_v203 main_v204 rfl shapeCasts_S16384x7x7x1_S16384x7x7,
    binary main_v202 main_v204 main_v205 (subf : (⟨S16384x7x7, .f32⟩ : BufTy).Contents (Elt F) → (⟨S16384x7x7, .f32⟩ : BufTy).Contents (Elt F) → (⟨S16384x7x7, .f32⟩ : BufTy).Contents (Elt F)),
    binary main_v205 main_v205 main_v206 (mulf : (⟨S16384x7x7, .f32⟩ : BufTy).Contents (Elt F) → (⟨S16384x7x7, .f32⟩ : BufTy).Contents (Elt F) → (⟨S16384x7x7, .f32⟩ : BufTy).Contents (Elt F)),
    binary main_v200 main_v206 main_v207 (addf : (⟨S16384x7x7, .f32⟩ : BufTy).Contents (Elt F) → (⟨S16384x7x7, .f32⟩ : BufTy).Contents (Elt F) → (⟨S16384x7x7, .f32⟩ : BufTy).Contents (Elt F)),
    binary main_v149 main_v207 main_v208 (mulf : (⟨S16384x7x7, .f32⟩ : BufTy).Contents (Elt F) → (⟨S16384x7x7, .f32⟩ : BufTy).Contents (Elt F) → (⟨S16384x7x7, .f32⟩ : BufTy).Contents (Elt F)),
    unary main_arg1 main_v209 ((extractStridedSlice S16384x7x7x1 ![0, 0, 0, 2] · slices_S16384x7x7x30_S16384x7x7x1_0_0_0_2) : (⟨S16384x7x7x30, .f32⟩ : BufTy).Contents (Elt F) → (⟨S16384x7x7x1, .f32⟩ : BufTy).Contents (Elt F)),
    reshape main_v209 main_v210 rfl shapeCasts_S16384x7x7x1_S16384x7x7 ]

/-- The buffers they write. -/
def w7 : List (Ref sig .tc) :=
  [main_v182, main_v183, main_v184, main_v185, main_v186, main_v187, main_v188, main_v189, main_v190, main_v191, main_v192, main_v193, main_cst_27, main_v194, main_v195, main_v196, main_v197, main_v198, main_v199, main_v200, main_v201, main_v202, main_v203, main_v204, main_v205, main_v206, main_v207, main_v208, main_v209, main_v210]

theorem hw7 : Writes (c7 (F := F)) w7 := by
  unfold c7 w7
  line_writes

theorem sub7 : (c7 (F := F)).Forall fun op => op.bufs ⊆ tcRefs τ sig := by
  unfold c7
  simp only [List.Forall, nullary_bufs_sub, unary_bufs_sub, binary_bufs_sub, ternary_bufs_sub, reshape_bufs_sub, and_self]

theorem fresh7 : (c7 (F := F)).Forall fun op => op.fresh = ∅ := by
  unfold c7
  line_fresh

/-- Operations 248 … 274 of the program. -/
def c8 : List (HloOp τ sig (Elt F)) :=
  [ unary main_arg0 main_v211 ((extractStridedSlice S16384x7x7x1 ![0, 0, 0, 7] · slices_S16384x7x7x30_S16384x7x7x1_0_0_0_7) : (⟨S16384x7x7x30, .f32⟩ : BufTy).Contents (Elt F) → (⟨S16384x7x7x1, .f32⟩ : BufTy).Contents (Elt F)),
    reshape main_v211 main_v212 rfl shapeCasts_S16384x7x7x1_S16384x7x7,
    binary main_v210 main_v212 main_v213 (subf : (⟨S16384x7x7, .f32⟩ : BufTy).Contents (Elt F) → (⟨S16384x7x7, .f32⟩ : BufTy).Contents (Elt F) → (⟨S16384x7x7, .f32⟩ : BufTy).Contents (Elt F)),
    binary main_v213 main_v213 main_v214 (mulf : (⟨S16384x7x7, .f32⟩ : BufTy).Contents (Elt F) → (⟨S16384x7x7, .f32⟩ : BufTy).Contents (Elt F) → (⟨S16384x7x7, .f32⟩ : BufTy).Contents (Elt F)),
    unary main_arg1 main_v215 ((extractStridedSlice S16384x7x7x1 ![0, 0, 0, 3] · slices_S16384x7x7x30_S16384x7x7x1_0_0_0_3) : (⟨S16384x7x7x30, .f32⟩ : BufTy).Contents (Elt F) → (⟨S16384x7x7x1, .f32⟩ : BufTy).Contents (Elt F)),
    reshape main_v215 main_v216 rfl shapeCasts_S16384x7x7x1_S16384x7x7,
    unary main_arg0 main_v217 ((extractStridedSlice S16384x7x7x1 ![0, 0, 0, 8] · slices_S16384x7x7x30_S16384x7x7x1_0_0_0_8) : (⟨S16384x7x7x30, .f32⟩ : BufTy).Contents (Elt F) → (⟨S16384x7x7x1, .f32⟩ : BufTy).Contents (Elt F)),
    reshape main_v217 main_v218 rfl shapeCasts_S16384x7x7x1_S16384x7x7,
    binary main_v216 main_v218 main_v219 (subf : (⟨S16384x7x7, .f32⟩ : BufTy).Contents (Elt F) → (⟨S16384x7x7, .f32⟩ : BufTy).Contents (Elt F) → (⟨S16384x7x7, .f32⟩ : BufTy).Contents (Elt F)),
    binary main_v219 main_v219 main_v220 (mulf : (⟨S16384x7x7, .f32⟩ : BufTy).Contents (Elt F) → (⟨S16384x7x7, .f32⟩ : BufTy).Contents (Elt F) → (⟨S16384x7x7, .f32⟩ : BufTy).Contents (Elt F)),
    binary main_v214 main_v220 main_v221 (addf : (⟨S16384x7x7, .f32⟩ : BufTy).Contents (Elt F) → (⟨S16384x7x7, .f32⟩ : BufTy).Contents (Elt F) → (⟨S16384x7x7, .f32⟩ : BufTy).Contents (Elt F)),
    binary main_v152 main_v221 main_v222 (mulf : (⟨S16384x7x7, .f32⟩ : BufTy).Contents (Elt F) → (⟨S16384x7x7, .f32⟩ : BufTy).Contents (Elt F) → (⟨S16384x7x7, .f32⟩ : BufTy).Contents (Elt F)),
    binary main_v208 main_v222 main_v223 (addf : (⟨S16384x7x7, .f32⟩ : BufTy).Contents (Elt F) → (⟨S16384x7x7, .f32⟩ : BufTy).Contents (Elt F) → (⟨S16384x7x7, .f32⟩ : BufTy).Contents (Elt F)),
    nullary main_cst_28 (constant S_ .f32 0x00000000#32),
    binary main_v223 main_cst_28 main_v224 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    nullary main_cst_29 (constant S_ .f32 0x40A00000#32),
    binary main_cst_29 main_v194 main_v225 (mulf : (⟨S_, .f32⟩ : BufTy).Contents (Elt F) → (⟨S_, .f32⟩ : BufTy).Contents (Elt F) → (⟨S_, .f32⟩ : BufTy).Contents (Elt F)),
    nullary main_cst_30 (constant S_ .f32 0x40A00000#32),
    binary main_cst_30 main_v224 main_v226 (mulf : (⟨S_, .f32⟩ : BufTy).Contents (Elt F) → (⟨S_, .f32⟩ : BufTy).Contents (Elt F) → (⟨S_, .f32⟩ : BufTy).Contents (Elt F)),
    binary main_v225 main_v226 main_v227 (addf : (⟨S_, .f32⟩ : BufTy).Contents (Elt F) → (⟨S_, .f32⟩ : BufTy).Contents (Elt F) → (⟨S_, .f32⟩ : BufTy).Contents (Elt F)),
    binary main_v227 main_v164 main_v228 (addf : (⟨S_, .f32⟩ : BufTy).Contents (Elt F) → (⟨S_, .f32⟩ : BufTy).Contents (Elt F) → (⟨S_, .f32⟩ : BufTy).Contents (Elt F)),
    nullary main_cst_31 (constant S_ .f32 0x3F000000#32),
    binary main_cst_31 main_v25 main_v229 (mulf : (⟨S_, .f32⟩ : BufTy).Contents (Elt F) → (⟨S_, .f32⟩ : BufTy).Contents (Elt F) → (⟨S_, .f32⟩ : BufTy).Contents (Elt F)),
    binary main_v228 main_v229 main_v230 (addf : (⟨S_, .f32⟩ : BufTy).Contents (Elt F) → (⟨S_, .f32⟩ : BufTy).Contents (Elt F) → (⟨S_, .f32⟩ : BufTy).Contents (Elt F)),
    binary main_v230 main_v17 main_v231 (addf : (⟨S_, .f32⟩ : BufTy).Contents (Elt F) → (⟨S_, .f32⟩ : BufTy).Contents (Elt F) → (⟨S_, .f32⟩ : BufTy).Contents (Elt F)),
    nullary main_cst_32 (constant S_ .f32 0x46800000#32),
    binary main_v231 main_cst_32 main_v232 (Host.divf : (⟨S_, .f32⟩ : BufTy).Contents (Elt F) → (⟨S_, .f32⟩ : BufTy).Contents (Elt F) → (⟨S_, .f32⟩ : BufTy).Contents (Elt F)) ]

/-- The buffers they write. -/
def w8 : List (Ref sig .tc) :=
  [main_v211, main_v212, main_v213, main_v214, main_v215, main_v216, main_v217, main_v218, main_v219, main_v220, main_v221, main_v222, main_v223, main_cst_28, main_v224, main_cst_29, main_v225, main_cst_30, main_v226, main_v227, main_v228, main_cst_31, main_v229, main_v230, main_v231, main_cst_32, main_v232]

theorem hw8 : Writes (c8 (F := F)) w8 := by
  unfold c8 w8
  line_writes

theorem sub8 : (c8 (F := F)).Forall fun op => op.bufs ⊆ tcRefs τ sig := by
  unfold c8
  simp only [List.Forall, nullary_bufs_sub, unary_bufs_sub, binary_bufs_sub, ternary_bufs_sub, reshape_bufs_sub, and_self]

theorem fresh8 : (c8 (F := F)).Forall fun op => op.fresh = ∅ := by
  unfold c8
  line_fresh

/-! ## The five printed windows -/

/-- The printed window 0 of @main. -/
def p0 : List (HloOp τ sig (Elt F)) := c0 ++ c1
def pw0 : List (Ref sig .tc) := w0 ++ w1

set_option maxRecDepth 8192 in
set_option maxHeartbeats 4000000 in
theorem part0_eq (d : Dev nD) : main_part0 (F := F) d = seq p0 := rfl

theorem hpw0 : Writes (p0 (F := F)) pw0 := writes_append hw0 hw1
theorem psub0 : (p0 (F := F)).Forall fun op => op.bufs ⊆ tcRefs τ sig := forall_append sub0 sub1
theorem pfresh0 : (p0 (F := F)).Forall fun op => op.fresh = ∅ := forall_append fresh0 fresh1

/-- The printed window 1 of @main. -/
def p1 : List (HloOp τ sig (Elt F)) := c2 ++ c3
def pw1 : List (Ref sig .tc) := w2 ++ w3

set_option maxRecDepth 8192 in
set_option maxHeartbeats 4000000 in
theorem part1_eq (d : Dev nD) : main_part1 (F := F) d = seq p1 := rfl

theorem hpw1 : Writes (p1 (F := F)) pw1 := writes_append hw2 hw3
theorem psub1 : (p1 (F := F)).Forall fun op => op.bufs ⊆ tcRefs τ sig := forall_append sub2 sub3
theorem pfresh1 : (p1 (F := F)).Forall fun op => op.fresh = ∅ := forall_append fresh2 fresh3

/-- The printed window 2 of @main. -/
def p2 : List (HloOp τ sig (Elt F)) := c4 ++ c5
def pw2 : List (Ref sig .tc) := w4 ++ w5

set_option maxRecDepth 8192 in
set_option maxHeartbeats 4000000 in
theorem part2_eq (d : Dev nD) : main_part2 (F := F) d = seq p2 := rfl

theorem hpw2 : Writes (p2 (F := F)) pw2 := writes_append hw4 hw5
theorem psub2 : (p2 (F := F)).Forall fun op => op.bufs ⊆ tcRefs τ sig := forall_append sub4 sub5
theorem pfresh2 : (p2 (F := F)).Forall fun op => op.fresh = ∅ := forall_append fresh4 fresh5

/-- The printed window 3 of @main. -/
def p3 : List (HloOp τ sig (Elt F)) := c6 ++ c7
def pw3 : List (Ref sig .tc) := w6 ++ w7

set_option maxRecDepth 8192 in
set_option maxHeartbeats 4000000 in
theorem part3_eq (d : Dev nD) : main_part3 (F := F) d = seq p3 := rfl

theorem hpw3 : Writes (p3 (F := F)) pw3 := writes_append hw6 hw7
theorem psub3 : (p3 (F := F)).Forall fun op => op.bufs ⊆ tcRefs τ sig := forall_append sub6 sub7
theorem pfresh3 : (p3 (F := F)).Forall fun op => op.fresh = ∅ := forall_append fresh6 fresh7

/-- The printed window 4 of @main. -/
def p4 : List (HloOp τ sig (Elt F)) := c8
def pw4 : List (Ref sig .tc) := w8

set_option maxRecDepth 8192 in
set_option maxHeartbeats 4000000 in
theorem part4_eq (d : Dev nD) : main_part4 (F := F) d = seq p4 := rfl

theorem hpw4 : Writes (p4 (F := F)) pw4 := hw8
theorem psub4 : (p4 (F := F)).Forall fun op => op.bufs ⊆ tcRefs τ sig := sub8
theorem pfresh4 : (p4 (F := F)).Forall fun op => op.fresh = ∅ := fresh8

/-! ## The whole line -/

/-- @main's 275 operations, in program order. -/
def ops : List (HloOp τ sig (Elt F)) := p0 ++ (p1 ++ (p2 ++ (p3 ++ p4)))

/-- The buffers the operations write, one each, in the same order. -/
def W : List (Ref sig .tc) := pw0 ++ (pw1 ++ (pw2 ++ (pw3 ++ pw4)))

theorem hW : Writes (ops (F := F)) W :=
  writes_append hpw0 (writes_append hpw1 (writes_append hpw2 (writes_append hpw3 hpw4)))

theorem main_eq (d : Dev nD) : main (F := F) d = seq ops := by
  unfold ops
  rw [seq_append, seq_append, seq_append, seq_append, ← part0_eq d, ← part1_eq d, ← part2_eq d, ← part3_eq d, ← part4_eq d]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append psub0 (forall_append psub1 (forall_append psub2 (forall_append psub3 psub4)))

theorem ops_fresh : (ops : List (HloOp τ sig (Elt F))).Forall fun op => op.fresh = ∅ :=
  forall_append pfresh0 (forall_append pfresh1 (forall_append pfresh2 (forall_append pfresh3 pfresh4)))

/-- Every weakly fair execution of the reference terminates, and leaves every buffer at the fold of the operations
    over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

end Cert.Yolo.RefLine

end
-- ==== Proof.RefStages.lean ====
import proofs.«107280_j5325759447314_1_alg».proof.Proof.RefLine
import proofs.«107280_j5325759447314_1_alg».proof.Proof.Spec
import Idealize.ShloMosaic.Lib.Pipeline.Value
import Idealize.ShloMosaic.PureOps.Ideal.Laws

/-!
# The reference program's six named stages

Read at one cell `j` of the `[16384, 7, 7]` grid, the reference's intermediate arrays are functions of the
two rows `g = cellRow x1 j` (target) and `p = cellRow x0 j` (prediction).  This module proves that for six
of them: the object and no-object flags, the overlaps with the two predicted boxes, and the two
responsibility masks.

The steps: (1) scalar facts — a comparison bit converted to a number is `flag` of the bit, dividing by
two is multiplying by one half; (2) a channel read (slice one channel, drop the unit axis) is the array at
`(j 0, j 1, j 2, c)`; (3) the overlap written with divisions by two is `iou`; (4) the line of operations,
read one operation at a time down to the arguments, then compared pointwise.
-/

noncomputable section

namespace Cert.Yolo.Ref

open Cert.ReferenceIdeal Cert.ReferenceIdeal.Gen Idealize.ShloMosaic Idealize.ShloMosaic.TcCoe Idealize.SL.Sem
  Idealize.ShloMosaic.StableHlo Idealize.ShloMosaic.ValueIdx

/-! ## Scalar facts -/

/-- A one-bit word converted to a float is 0 or 1: the `flag` of the bit. -/
theorem uitofp_flag (b : BitVec 1) : FloatOps.uitofp (F := Ideal) .f32 b = flag b := by
  have h : b = 0#1 ∨ b = 1#1 := by revert b; decide
  rcases h with rfl | rfl
  · show (((0#1 : BitVec 1).toNat : ℝ) : EReal) = ((((0#1 : BitVec 1).setWidth 32).toInt : ℝ) : EReal)
    have h1 : (0#1 : BitVec 1).toNat = 0 := by decide
    have h2 : ((0#1 : BitVec 1).setWidth 32).toInt = 0 := by decide
    rw [h1, h2]; norm_num
  · show (((1#1 : BitVec 1).toNat : ℝ) : EReal) = ((((1#1 : BitVec 1).setWidth 32).toInt : ℝ) : EReal)
    have h1 : (1#1 : BitVec 1).toNat = 1 := by decide
    have h2 : ((1#1 : BitVec 1).setWidth 32).toInt = 1 := by decide
    rw [h1, h2]; norm_num

/-- The pattern `0x40000000` is the real number 2. -/
theorem twoC_val : twoC = ((2 : ℝ) : EReal) := by
  simp [twoC, Ideal.ofBits, Ideal.ieee, -EReal.coe_mul]; norm_num

/-- The pattern `0x3F000000` is the real number 1/2. -/
theorem halfC_val : halfC = ((1 / 2 : ℝ) : EReal) := by
  simp [halfC, Ideal.ofBits, Ideal.ieee, -EReal.coe_mul]; norm_num

/-- Dividing by two is multiplying by one half, at the infinities too. -/
theorem div_two (a : EReal) : Ideal.div a twoC = a * halfC := by
  rw [twoC_val, halfC_val]
  exact Ideal.div_coe (by norm_num) a

/-! ## Channel reads

Slicing channel `c` out of `[16384, 7, 7, 30]` and dropping the unit axis reads the array at `(j 0, j 1, j 2, c)`:
the index `(j 0, j 1, j 2, 0)` of the slice has the same row-major position as `j`. -/

/-- One channel sliced directly from the array. -/
theorem read30 {c : Nat} (hc : c < 30) (x : Arr) (hs : S16384x7x7x30.Slices ![0, 0, 0, c] S16384x7x7x1)
    (hn : S16384x7x7x1.ShapeCasts S16384x7x7) (j : S16384x7x7.Idx) :
    shapeCast S16384x7x7 (extractStridedSlice S16384x7x7x1 ![0, 0, 0, c] x hs) hn j
      = x (ix4 (j 0) (j 1) (j 2) ⟨c, hc⟩) := by
  rw [shapeCast_apply _ hn j (ix4 (j 0) (j 1) (j 2) (0 : Fin 1)) (by
    rewrite [Shape.rowMajor_val_four, Shape.rowMajor_val_three]
    show (((j 0).val * 7 + (j 1).val) * 7 + (j 2).val) * 1 + 0 = ((j 0).val * 7 + (j 1).val) * 7 + (j 2).val
    omega)]
  exact extractStridedSlice_apply _ x hs _ _ (fun a => match a with
    | ⟨0, _⟩ => by show (j 0).val = 0 + (j 0).val; omega
    | ⟨1, _⟩ => by show (j 1).val = 0 + (j 1).val; omega
    | ⟨2, _⟩ => by show (j 2).val = 0 + (j 2).val; omega
    | ⟨3, _⟩ => by show c = c + 0; omega)

/-- One channel sliced from a four-channel slice (channels `o … o + 3`) of the array. -/
theorem read4 {o c : Nat} (hc : c < 4) (hoc : o + c < 30) (x : Arr)
    (hs4 : S16384x7x7x30.Slices ![0, 0, 0, o] S16384x7x7x4) (hs1 : S16384x7x7x4.Slices ![0, 0, 0, c] S16384x7x7x1)
    (hn : S16384x7x7x1.ShapeCasts S16384x7x7) (j : S16384x7x7.Idx) :
    shapeCast S16384x7x7
        (extractStridedSlice S16384x7x7x1 ![0, 0, 0, c] (extractStridedSlice S16384x7x7x4 ![0, 0, 0, o] x hs4) hs1) hn j
      = x (ix4 (j 0) (j 1) (j 2) ⟨o + c, hoc⟩) := by
  rw [shapeCast_apply _ hn j (ix4 (j 0) (j 1) (j 2) (0 : Fin 1)) (by
    rewrite [Shape.rowMajor_val_four, Shape.rowMajor_val_three]
    show (((j 0).val * 7 + (j 1).val) * 7 + (j 2).val) * 1 + 0 = ((j 0).val * 7 + (j 1).val) * 7 + (j 2).val
    omega)]
  rw [extractStridedSlice_apply _ _ hs1 _ (ix4 (j 0) (j 1) (j 2) (⟨c, hc⟩ : Fin 4)) (fun a => match a with
    | ⟨0, _⟩ => by show (j 0).val = 0 + (j 0).val; omega
    | ⟨1, _⟩ => by show (j 1).val = 0 + (j 1).val; omega
    | ⟨2, _⟩ => by show (j 2).val = 0 + (j 2).val; omega
    | ⟨3, _⟩ => by show c = c + 0; omega)]
  exact extractStridedSlice_apply _ x hs4 _ _ (fun a => match a with
    | ⟨0, _⟩ => by show (j 0).val = 0 + (j 0).val; omega
    | ⟨1, _⟩ => by show (j 1).val = 0 + (j 1).val; omega
    | ⟨2, _⟩ => by show (j 2).val = 0 + (j 2).val; omega
    | ⟨3, _⟩ => by show o + c = o + c; omega)

/-! ## The line, one operation at a time

What the line leaves in the buffer its `k`-th operation writes is that operation's function of what the line leaves
in its operands; one rewriting step per operation, by the operation's number of operands. -/

local macro "st0 " V:term:max k:num : tactic =>
  `(tactic| rw [Cert.Line.nullary_at (Cert.Yolo.RefLine.hW (F := Idealize.ShloMosaic.Ideal)) $V $k _ _ _ rfl (by decide)])
local macro "st1 " V:term:max k:num : tactic =>
  `(tactic| rw [Cert.CubePad.Line.Writes.unary_at (Cert.Yolo.RefLine.hW (F := Idealize.ShloMosaic.Ideal)) $V $k _ _ _ _ _ rfl
    (by decide) (by decide)])
local macro "st2 " V:term:max k:num : tactic =>
  `(tactic| rw [Cert.Line.binary_at (Cert.Yolo.RefLine.hW (F := Idealize.ShloMosaic.Ideal)) $V $k _ _ _ _ _ _ _ rfl
    (by decide) (by decide) (by decide)])
local macro "st3 " V:term:max k:num : tactic =>
  `(tactic| rw [Cert.Line.ternary_at (Cert.Yolo.RefLine.hW (F := Idealize.ShloMosaic.Ideal)) $V $k _ _ _ _ _ _ _ _ _ rfl
    (by decide) (by decide) (by decide) (by decide)])
local macro "stR " V:term:max k:num : tactic =>
  `(tactic| rw [Cert.CubePad.Line.Writes.reshape_at (Cert.Yolo.RefLine.hW (F := Idealize.ShloMosaic.Ideal)) $V $k _ _ _ _ _ _ rfl
    (by decide) (by decide)])

section Line

variable (V : Valuation τ sig (Elt Ideal))

-- what the line leaves in buffer `r`
set_option quotPrecheck false in
local notation:max "𝔸 " r:max => StableHlo.after (Cert.Yolo.RefLine.ops (F := Ideal)) V (Proc.devRef .tc r)
-- the prediction array
set_option quotPrecheck false in
local notation "𝕪" => (V (Proc.devRef .tc main_arg0) : Arr)
-- the target array
set_option quotPrecheck false in
local notation "𝕘" => (V (Proc.devRef .tc main_arg1) : Arr)

/-! ### The four-channel slices -/

set_option maxRecDepth 8192 in
set_option maxHeartbeats 1000000 in
theorem s_v26 : 𝔸 main_v26 = extractStridedSlice S16384x7x7x4 ![0, 0, 0, 0] 𝕘 slices_S16384x7x7x30_S16384x7x7x4_0_0_0_0 := by
  st1 V 30
  rw [Cert.CubePad.Line.Writes.arg (Cert.Yolo.RefLine.hW (F := Ideal)) V (r := main_arg1) (by decide)]
  all_goals rfl
set_option maxRecDepth 8192 in
set_option maxHeartbeats 1000000 in
theorem s_v27 : 𝔸 main_v27 = extractStridedSlice S16384x7x7x4 ![0, 0, 0, 0] 𝕪 slices_S16384x7x7x30_S16384x7x7x4_0_0_0_0 := by
  st1 V 31
  rw [Cert.CubePad.Line.Writes.arg (Cert.Yolo.RefLine.hW (F := Ideal)) V (r := main_arg0) (by decide)]
  all_goals rfl
set_option maxRecDepth 8192 in
set_option maxHeartbeats 1000000 in
theorem s_v87 : 𝔸 main_v87 = extractStridedSlice S16384x7x7x4 ![0, 0, 0, 5] 𝕪 slices_S16384x7x7x30_S16384x7x7x4_0_0_0_5 := by
  st1 V 106
  rw [Cert.CubePad.Line.Writes.arg (Cert.Yolo.RefLine.hW (F := Ideal)) V (r := main_arg0) (by decide)]
  all_goals rfl

/-! ### The channel reads -/

set_option maxRecDepth 8192 in
set_option maxHeartbeats 1000000 in
theorem rd_v1 : 𝔸 main_v1 = fun j : S16384x7x7.Idx => cellRow 𝕘 j 4 := by
  stR V 1; st1 V 0
  rw [Cert.CubePad.Line.Writes.arg (Cert.Yolo.RefLine.hW (F := Ideal)) V (r := main_arg1) (by decide)]
  funext j
  exact read30 (c := 4) (by decide) _ _ _ j
set_option maxRecDepth 8192 in
set_option maxHeartbeats 1000000 in
theorem rd_v6 : 𝔸 main_v6 = fun j : S16384x7x7.Idx => cellRow 𝕘 j 4 := by
  stR V 7; st1 V 6
  rw [Cert.CubePad.Line.Writes.arg (Cert.Yolo.RefLine.hW (F := Ideal)) V (r := main_arg1) (by decide)]
  funext j
  exact read30 (c := 4) (by decide) _ _ _ j
set_option maxRecDepth 8192 in
set_option maxHeartbeats 1000000 in
theorem rd_v29 : 𝔸 main_v29 = fun j : S16384x7x7.Idx => cellRow 𝕘 j 0 := by
  stR V 33; st1 V 32
  rw [s_v26 V]
  funext j
  exact read4 (o := 0) (c := 0) (by decide) (by decide) _ _ _ _ j
set_option maxRecDepth 8192 in
set_option maxHeartbeats 1000000 in
theorem rd_v31 : 𝔸 main_v31 = fun j : S16384x7x7.Idx => cellRow 𝕘 j 1 := by
  stR V 35; st1 V 34
  rw [s_v26 V]
  funext j
  exact read4 (o := 0) (c := 1) (by decide) (by decide) _ _ _ _ j
set_option maxRecDepth 8192 in
set_option maxHeartbeats 1000000 in
theorem rd_v33 : 𝔸 main_v33 = fun j : S16384x7x7.Idx => cellRow 𝕘 j 2 := by
  stR V 37; st1 V 36
  rw [s_v26 V]
  funext j
  exact read4 (o := 0) (c := 2) (by decide) (by decide) _ _ _ _ j
set_option maxRecDepth 8192 in
set_option maxHeartbeats 1000000 in
theorem rd_v35 : 𝔸 main_v35 = fun j : S16384x7x7.Idx => cellRow 𝕘 j 3 := by
  stR V 39; st1 V 38
  rw [s_v26 V]
  funext j
  exact read4 (o := 0) (c := 3) (by decide) (by decide) _ _ _ _ j
set_option maxRecDepth 8192 in
set_option maxHeartbeats 1000000 in
theorem rd_v37 : 𝔸 main_v37 = fun j : S16384x7x7.Idx => cellRow 𝕪 j 0 := by
  stR V 41; st1 V 40
  rw [s_v27 V]
  funext j
  exact read4 (o := 0) (c := 0) (by decide) (by decide) _ _ _ _ j
set_option maxRecDepth 8192 in
set_option maxHeartbeats 1000000 in
theorem rd_v39 : 𝔸 main_v39 = fun j : S16384x7x7.Idx => cellRow 𝕪 j 1 := by
  stR V 43; st1 V 42
  rw [s_v27 V]
  funext j
  exact read4 (o := 0) (c := 1) (by decide) (by decide) _ _ _ _ j
set_option maxRecDepth 8192 in
set_option maxHeartbeats 1000000 in
theorem rd_v41 : 𝔸 main_v41 = fun j : S16384x7x7.Idx => cellRow 𝕪 j 2 := by
  stR V 45; st1 V 44
  rw [s_v27 V]
  funext j
  exact read4 (o := 0) (c := 2) (by decide) (by decide) _ _ _ _ j
set_option maxRecDepth 8192 in
set_option maxHeartbeats 1000000 in
theorem rd_v43 : 𝔸 main_v43 = fun j : S16384x7x7.Idx => cellRow 𝕪 j 3 := by
  stR V 47; st1 V 46
  rw [s_v27 V]
  funext j
  exact read4 (o := 0) (c := 3) (by decide) (by decide) _ _ _ _ j
set_option maxRecDepth 8192 in
set_option maxHeartbeats 1000000 in
theorem rd_v89 : 𝔸 main_v89 = fun j : S16384x7x7.Idx => cellRow 𝕘 j 0 := by
  stR V 108; st1 V 107
  rw [s_v26 V]
  funext j
  exact read4 (o := 0) (c := 0) (by decide) (by decide) _ _ _ _ j
set_option maxRecDepth 8192 in
set_option maxHeartbeats 1000000 in
theorem rd_v91 : 𝔸 main_v91 = fun j : S16384x7x7.Idx => cellRow 𝕘 j 1 := by
  stR V 110; st1 V 109
  rw [s_v26 V]
  funext j
  exact read4 (o := 0) (c := 1) (by decide) (by decide) _ _ _ _ j
set_option maxRecDepth 8192 in
set_option maxHeartbeats 1000000 in
theorem rd_v93 : 𝔸 main_v93 = fun j : S16384x7x7.Idx => cellRow 𝕘 j 2 := by
  stR V 112; st1 V 111
  rw [s_v26 V]
  funext j
  exact read4 (o := 0) (c := 2) (by decide) (by decide) _ _ _ _ j
set_option maxRecDepth 8192 in
set_option maxHeartbeats 1000000 in
theorem rd_v95 : 𝔸 main_v95 = fun j : S16384x7x7.Idx => cellRow 𝕘 j 3 := by
  stR V 114; st1 V 113
  rw [s_v26 V]
  funext j
  exact read4 (o := 0) (c := 3) (by decide) (by decide) _ _ _ _ j
set_option maxRecDepth 8192 in
set_option maxHeartbeats 1000000 in
theorem rd_v97 : 𝔸 main_v97 = fun j : S16384x7x7.Idx => cellRow 𝕪 j 5 := by
  stR V 116; st1 V 115
  rw [s_v87 V]
  funext j
  exact read4 (o := 5) (c := 0) (by decide) (by decide) _ _ _ _ j
set_option maxRecDepth 8192 in
set_option maxHeartbeats 1000000 in
theorem rd_v99 : 𝔸 main_v99 = fun j : S16384x7x7.Idx => cellRow 𝕪 j 6 := by
  stR V 118; st1 V 117
  rw [s_v87 V]
  funext j
  exact read4 (o := 5) (c := 1) (by decide) (by decide) _ _ _ _ j
set_option maxRecDepth 8192 in
set_option maxHeartbeats 1000000 in
theorem rd_v101 : 𝔸 main_v101 = fun j : S16384x7x7.Idx => cellRow 𝕪 j 7 := by
  stR V 120; st1 V 119
  rw [s_v87 V]
  funext j
  exact read4 (o := 5) (c := 2) (by decide) (by decide) _ _ _ _ j
set_option maxRecDepth 8192 in
set_option maxHeartbeats 1000000 in
theorem rd_v103 : 𝔸 main_v103 = fun j : S16384x7x7.Idx => cellRow 𝕪 j 8 := by
  stR V 122; st1 V 121
  rw [s_v87 V]
  funext j
  exact read4 (o := 5) (c := 3) (by decide) (by decide) _ _ _ _ j

/-! ### The splat constants -/

set_option maxRecDepth 8192 in
set_option maxHeartbeats 1000000 in
theorem c_v2 : 𝔸 main_v2 = fun _ : S16384x7x7.Idx => zeroC := by
  st1 V 3; st0 V 2
  all_goals rfl
set_option maxRecDepth 8192 in
set_option maxHeartbeats 1000000 in
theorem c_v7 : 𝔸 main_v7 = fun _ : S16384x7x7.Idx => zeroC := by
  st1 V 9; st0 V 8
  all_goals rfl
set_option maxRecDepth 8192 in
set_option maxHeartbeats 1000000 in
theorem c_v44 : 𝔸 main_v44 = fun _ : S16384x7x7.Idx => twoC := by
  st1 V 49; st0 V 48
  all_goals rfl
set_option maxRecDepth 8192 in
set_option maxHeartbeats 1000000 in
theorem c_v47 : 𝔸 main_v47 = fun _ : S16384x7x7.Idx => twoC := by
  st1 V 53; st0 V 52
  all_goals rfl
set_option maxRecDepth 8192 in
set_option maxHeartbeats 1000000 in
theorem c_v51 : 𝔸 main_v51 = fun _ : S16384x7x7.Idx => twoC := by
  st1 V 58; st0 V 57
  all_goals rfl
set_option maxRecDepth 8192 in
set_option maxHeartbeats 1000000 in
theorem c_v54 : 𝔸 main_v54 = fun _ : S16384x7x7.Idx => twoC := by
  st1 V 62; st0 V 61
  all_goals rfl
set_option maxRecDepth 8192 in
set_option maxHeartbeats 1000000 in
theorem c_v58 : 𝔸 main_v58 = fun _ : S16384x7x7.Idx => twoC := by
  st1 V 67; st0 V 66
  all_goals rfl
set_option maxRecDepth 8192 in
set_option maxHeartbeats 1000000 in
theorem c_v61 : 𝔸 main_v61 = fun _ : S16384x7x7.Idx => twoC := by
  st1 V 71; st0 V 70
  all_goals rfl
set_option maxRecDepth 8192 in
set_option maxHeartbeats 1000000 in
theorem c_v65 : 𝔸 main_v65 = fun _ : S16384x7x7.Idx => twoC := by
  st1 V 76; st0 V 75
  all_goals rfl
set_option maxRecDepth 8192 in
set_option maxHeartbeats 1000000 in
theorem c_v68 : 𝔸 main_v68 = fun _ : S16384x7x7.Idx => twoC := by
  st1 V 80; st0 V 79
  all_goals rfl
set_option maxRecDepth 8192 in
set_option maxHeartbeats 1000000 in
theorem c_v82 : 𝔸 main_v82 = fun _ : S16384x7x7.Idx => zeroC := by
  st1 V 95; st0 V 94
  all_goals rfl
set_option maxRecDepth 8192 in
set_option maxHeartbeats 1000000 in
theorem c_call0_v1 : 𝔸 main_call0_v1 = fun _ : S16384x7x7.Idx => oneC := by
  st1 V 99; st1 V 98; st0 V 97
  all_goals rfl
set_option maxRecDepth 8192 in
set_option maxHeartbeats 1000000 in
theorem c_call1_v1 : 𝔸 main_call1_v1 = fun _ : S16384x7x7.Idx => zeroC := by
  st1 V 104; st1 V 103; st0 V 102
  all_goals rfl
set_option maxRecDepth 8192 in
set_option maxHeartbeats 1000000 in
theorem c_v104 : 𝔸 main_v104 = fun _ : S16384x7x7.Idx => twoC := by
  st1 V 124; st0 V 123
  all_goals rfl
set_option maxRecDepth 8192 in
set_option maxHeartbeats 1000000 in
theorem c_v107 : 𝔸 main_v107 = fun _ : S16384x7x7.Idx => twoC := by
  st1 V 128; st0 V 127
  all_goals rfl
set_option maxRecDepth 8192 in
set_option maxHeartbeats 1000000 in
theorem c_v111 : 𝔸 main_v111 = fun _ : S16384x7x7.Idx => twoC := by
  st1 V 133; st0 V 132
  all_goals rfl
set_option maxRecDepth 8192 in
set_option maxHeartbeats 1000000 in
theorem c_v114 : 𝔸 main_v114 = fun _ : S16384x7x7.Idx => twoC := by
  st1 V 137; st0 V 136
  all_goals rfl
set_option maxRecDepth 8192 in
set_option maxHeartbeats 1000000 in
theorem c_v118 : 𝔸 main_v118 = fun _ : S16384x7x7.Idx => twoC := by
  st1 V 142; st0 V 141
  all_goals rfl
set_option maxRecDepth 8192 in
set_option maxHeartbeats 1000000 in
theorem c_v121 : 𝔸 main_v121 = fun _ : S16384x7x7.Idx => twoC := by
  st1 V 146; st0 V 145
  all_goals rfl
set_option maxRecDepth 8192 in
set_option maxHeartbeats 1000000 in
theorem c_v125 : 𝔸 main_v125 = fun _ : S16384x7x7.Idx => twoC := by
  st1 V 151; st0 V 150
  all_goals rfl
set_option maxRecDepth 8192 in
set_option maxHeartbeats 1000000 in
theorem c_v128 : 𝔸 main_v128 = fun _ : S16384x7x7.Idx => twoC := by
  st1 V 155; st0 V 154
  all_goals rfl
set_option maxRecDepth 8192 in
set_option maxHeartbeats 1000000 in
theorem c_v142 : 𝔸 main_v142 = fun _ : S16384x7x7.Idx => zeroC := by
  st1 V 170; st0 V 169
  all_goals rfl
set_option maxRecDepth 8192 in
set_option maxHeartbeats 1000000 in
theorem c_call2_v1 : 𝔸 main_call2_v1 = fun _ : S16384x7x7.Idx => oneC := by
  st1 V 174; st1 V 173; st0 V 172
  all_goals rfl
set_option maxRecDepth 8192 in
set_option maxHeartbeats 1000000 in
theorem c_call3_v1 : 𝔸 main_call3_v1 = fun _ : S16384x7x7.Idx => zeroC := by
  st1 V 179; st1 V 178; st0 V 177
  all_goals rfl
set_option maxRecDepth 8192 in
set_option maxHeartbeats 1000000 in
theorem c_v150 : 𝔸 main_v150 = fun _ : S16384x7x7.Idx => oneC := by
  st1 V 185; st0 V 184
  all_goals rfl

/-! ### The flags -/

set_option maxRecDepth 8192 in
set_option maxHeartbeats 1000000 in
/-- The object flag: the target's confidence is positive. -/
theorem stage_v4 : 𝔸 main_v4 = fun j : S16384x7x7.Idx => obj (cellRow 𝕘 j) := by
  st1 V 5; st2 V 4
  rw [c_v2 V, rd_v1 V]
  funext j
  exact uitofp_flag _
set_option maxRecDepth 8192 in
set_option maxHeartbeats 1000000 in
/-- The no-object flag: the target's confidence is zero. -/
theorem stage_v9 : 𝔸 main_v9 = fun j : S16384x7x7.Idx => noobj (cellRow 𝕘 j) := by
  st1 V 11; st2 V 10
  rw [c_v7 V, rd_v6 V]
  funext j
  exact uitofp_flag _

/-! ### The overlap with the first predicted box (channels 0–3) -/

set_option maxRecDepth 8192 in
set_option maxHeartbeats 1000000 in
theorem half_v45 : 𝔸 main_v45 = fun j : S16384x7x7.Idx => cellRow 𝕘 j 2 * halfC := by
  st2 V 50
  rw [c_v44 V, rd_v33 V]
  funext j
  exact div_two _
set_option maxRecDepth 8192 in
set_option maxHeartbeats 1000000 in
theorem half_v48 : 𝔸 main_v48 = fun j : S16384x7x7.Idx => cellRow 𝕪 j 2 * halfC := by
  st2 V 54
  rw [c_v47 V, rd_v41 V]
  funext j
  exact div_two _
set_option maxRecDepth 8192 in
set_option maxHeartbeats 1000000 in
theorem half_v52 : 𝔸 main_v52 = fun j : S16384x7x7.Idx => cellRow 𝕘 j 3 * halfC := by
  st2 V 59
  rw [c_v51 V, rd_v35 V]
  funext j
  exact div_two _
set_option maxRecDepth 8192 in
set_option maxHeartbeats 1000000 in
theorem half_v55 : 𝔸 main_v55 = fun j : S16384x7x7.Idx => cellRow 𝕪 j 3 * halfC := by
  st2 V 63
  rw [c_v54 V, rd_v43 V]
  funext j
  exact div_two _
set_option maxRecDepth 8192 in
set_option maxHeartbeats 1000000 in
theorem half_v59 : 𝔸 main_v59 = fun j : S16384x7x7.Idx => cellRow 𝕘 j 2 * halfC := by
  st2 V 68
  rw [c_v58 V, rd_v33 V]
  funext j
  exact div_two _
set_option maxRecDepth 8192 in
set_option maxHeartbeats 1000000 in
theorem half_v62 : 𝔸 main_v62 = fun j : S16384x7x7.Idx => cellRow 𝕪 j 2 * halfC := by
  st2 V 72
  rw [c_v61 V, rd_v41 V]
  funext j
  exact div_two _
set_option maxRecDepth 8192 in
set_option maxHeartbeats 1000000 in
theorem half_v66 : 𝔸 main_v66 = fun j : S16384x7x7.Idx => cellRow 𝕘 j 3 * halfC := by
  st2 V 77
  rw [c_v65 V, rd_v35 V]
  funext j
  exact div_two _
set_option maxRecDepth 8192 in
set_option maxHeartbeats 1000000 in
theorem half_v69 : 𝔸 main_v69 = fun j : S16384x7x7.Idx => cellRow 𝕪 j 3 * halfC := by
  st2 V 81
  rw [c_v68 V, rd_v43 V]
  funext j
  exact div_two _
set_option maxRecDepth 8192 in
set_option maxHeartbeats 1000000 in
/-- Left edge of the overlap. -/
theorem xl_v50 : 𝔸 main_v50 = fun j : S16384x7x7.Idx => max (cellRow 𝕘 j 0 - cellRow 𝕘 j 2 * halfC) (cellRow 𝕪 j 0 - cellRow 𝕪 j 2 * halfC) := by
  st2 V 56; st2 V 55; st2 V 51
  rw [half_v48 V, half_v45 V, rd_v37 V, rd_v29 V]
  funext j
  rfl
set_option maxRecDepth 8192 in
set_option maxHeartbeats 1000000 in
/-- Top edge of the overlap. -/
theorem yt_v57 : 𝔸 main_v57 = fun j : S16384x7x7.Idx => max (cellRow 𝕘 j 1 - cellRow 𝕘 j 3 * halfC) (cellRow 𝕪 j 1 - cellRow 𝕪 j 3 * halfC) := by
  st2 V 65; st2 V 64; st2 V 60
  rw [half_v55 V, half_v52 V, rd_v39 V, rd_v31 V]
  funext j
  rfl
set_option maxRecDepth 8192 in
set_option maxHeartbeats 1000000 in
/-- Right edge of the overlap. -/
theorem xr_v64 : 𝔸 main_v64 = fun j : S16384x7x7.Idx => min (cellRow 𝕘 j 0 + cellRow 𝕘 j 2 * halfC) (cellRow 𝕪 j 0 + cellRow 𝕪 j 2 * halfC) := by
  st2 V 74; st2 V 73; st2 V 69
  rw [half_v62 V, half_v59 V, rd_v37 V, rd_v29 V]
  funext j
  rfl
set_option maxRecDepth 8192 in
set_option maxHeartbeats 1000000 in
/-- Bottom edge of the overlap. -/
theorem yb_v71 : 𝔸 main_v71 = fun j : S16384x7x7.Idx => min (cellRow 𝕘 j 1 + cellRow 𝕘 j 3 * halfC) (cellRow 𝕪 j 1 + cellRow 𝕪 j 3 * halfC) := by
  st2 V 83; st2 V 82; st2 V 78
  rw [half_v69 V, half_v66 V, rd_v39 V, rd_v31 V]
  funext j
  rfl
set_option maxRecDepth 8192 in
set_option maxHeartbeats 1000000 in
/-- The overlap's area (meaningful when both sides are nonnegative). -/
theorem inter_v77 : 𝔸 main_v77 = fun j : S16384x7x7.Idx => ((min (cellRow 𝕘 j 0 + cellRow 𝕘 j 2 * halfC) (cellRow 𝕪 j 0 + cellRow 𝕪 j 2 * halfC)) - (max (cellRow 𝕘 j 0 - cellRow 𝕘 j 2 * halfC) (cellRow 𝕪 j 0 - cellRow 𝕪 j 2 * halfC))) * ((min (cellRow 𝕘 j 1 + cellRow 𝕘 j 3 * halfC) (cellRow 𝕪 j 1 + cellRow 𝕪 j 3 * halfC)) - (max (cellRow 𝕘 j 1 - cellRow 𝕘 j 3 * halfC) (cellRow 𝕪 j 1 - cellRow 𝕪 j 3 * halfC))) := by
  st2 V 89; st2 V 88; st2 V 87
  rw [yb_v71 V, xr_v64 V, yt_v57 V, xl_v50 V]
  funext j
  rfl
set_option maxRecDepth 8192 in
set_option maxHeartbeats 1000000 in
/-- The union's area. -/
theorem union_v81 : 𝔸 main_v81 = fun j : S16384x7x7.Idx => cellRow 𝕘 j 2 * cellRow 𝕘 j 3 + cellRow 𝕪 j 2 * cellRow 𝕪 j 3 - ((min (cellRow 𝕘 j 0 + cellRow 𝕘 j 2 * halfC) (cellRow 𝕪 j 0 + cellRow 𝕪 j 2 * halfC)) - (max (cellRow 𝕘 j 0 - cellRow 𝕘 j 2 * halfC) (cellRow 𝕪 j 0 - cellRow 𝕪 j 2 * halfC))) * ((min (cellRow 𝕘 j 1 + cellRow 𝕘 j 3 * halfC) (cellRow 𝕪 j 1 + cellRow 𝕪 j 3 * halfC)) - (max (cellRow 𝕘 j 1 - cellRow 𝕘 j 3 * halfC) (cellRow 𝕪 j 1 - cellRow 𝕪 j 3 * halfC))) := by
  st2 V 93; st2 V 92; st2 V 91; st2 V 90
  rw [inter_v77 V, rd_v43 V, rd_v41 V, rd_v35 V, rd_v33 V]
  funext j
  rfl
set_option maxRecDepth 8192 in
set_option maxHeartbeats 1000000 in
/-- Intersection over union of the target box with the first predicted box. -/
theorem stage_v86 : 𝔸 main_v86 = fun j : S16384x7x7.Idx => iou1 (cellRow 𝕘 j) (cellRow 𝕪 j) := by
  st3 V 105; st2 V 101; st3 V 100; st2 V 96; st2 V 86; st2 V 85
  st2 V 84
  rw [c_call1_v1 V, c_call0_v1 V, c_v82 V, union_v81 V, inter_v77 V, yb_v71 V]
  rw [xr_v64 V, yt_v57 V, xl_v50 V]
  funext j
  rfl

/-! ### The overlap with the second predicted box (channels 5–8) -/

set_option maxRecDepth 8192 in
set_option maxHeartbeats 1000000 in
theorem half_v105 : 𝔸 main_v105 = fun j : S16384x7x7.Idx => cellRow 𝕘 j 2 * halfC := by
  st2 V 125
  rw [c_v104 V, rd_v93 V]
  funext j
  exact div_two _
set_option maxRecDepth 8192 in
set_option maxHeartbeats 1000000 in
theorem half_v108 : 𝔸 main_v108 = fun j : S16384x7x7.Idx => cellRow 𝕪 j 7 * halfC := by
  st2 V 129
  rw [c_v107 V, rd_v101 V]
  funext j
  exact div_two _
set_option maxRecDepth 8192 in
set_option maxHeartbeats 1000000 in
theorem half_v112 : 𝔸 main_v112 = fun j : S16384x7x7.Idx => cellRow 𝕘 j 3 * halfC := by
  st2 V 134
  rw [c_v111 V, rd_v95 V]
  funext j
  exact div_two _
set_option maxRecDepth 8192 in
set_option maxHeartbeats 1000000 in
theorem half_v115 : 𝔸 main_v115 = fun j : S16384x7x7.Idx => cellRow 𝕪 j 8 * halfC := by
  st2 V 138
  rw [c_v114 V, rd_v103 V]
  funext j
  exact div_two _
set_option maxRecDepth 8192 in
set_option maxHeartbeats 1000000 in
theorem half_v119 : 𝔸 main_v119 = fun j : S16384x7x7.Idx => cellRow 𝕘 j 2 * halfC := by
  st2 V 143
  rw [c_v118 V, rd_v93 V]
  funext j
  exact div_two _
set_option maxRecDepth 8192 in
set_option maxHeartbeats 1000000 in
theorem half_v122 : 𝔸 main_v122 = fun j : S16384x7x7.Idx => cellRow 𝕪 j 7 * halfC := by
  st2 V 147
  rw [c_v121 V, rd_v101 V]
  funext j
  exact div_two _
set_option maxRecDepth 8192 in
set_option maxHeartbeats 1000000 in
theorem half_v126 : 𝔸 main_v126 = fun j : S16384x7x7.Idx => cellRow 𝕘 j 3 * halfC := by
  st2 V 152
  rw [c_v125 V, rd_v95 V]
  funext j
  exact div_two _
set_option maxRecDepth 8192 in
set_option maxHeartbeats 1000000 in
theorem half_v129 : 𝔸 main_v129 = fun j : S16384x7x7.Idx => cellRow 𝕪 j 8 * halfC := by
  st2 V 156
  rw [c_v128 V, rd_v103 V]
  funext j
  exact div_two _
set_option maxRecDepth 8192 in
set_option maxHeartbeats 1000000 in
/-- Left edge of the overlap. -/
theorem xl_v110 : 𝔸 main_v110 = fun j : S16384x7x7.Idx => max (cellRow 𝕘 j 0 - cellRow 𝕘 j 2 * halfC) (cellRow 𝕪 j 5 - cellRow 𝕪 j 7 * halfC) := by
  st2 V 131; st2 V 130; st2 V 126
  rw [half_v108 V, half_v105 V, rd_v97 V, rd_v89 V]
  funext j
  rfl
set_option maxRecDepth 8192 in
set_option maxHeartbeats 1000000 in
/-- Top edge of the overlap. -/
theorem yt_v117 : 𝔸 main_v117 = fun j : S16384x7x7.Idx => max (cellRow 𝕘 j 1 - cellRow 𝕘 j 3 * halfC) (cellRow 𝕪 j 6 - cellRow 𝕪 j 8 * halfC) := by
  st2 V 140; st2 V 139; st2 V 135
  rw [half_v115 V, half_v112 V, rd_v99 V, rd_v91 V]
  funext j
  rfl
set_option maxRecDepth 8192 in
set_option maxHeartbeats 1000000 in
/-- Right edge of the overlap. -/
theorem xr_v124 : 𝔸 main_v124 = fun j : S16384x7x7.Idx => min (cellRow 𝕘 j 0 + cellRow 𝕘 j 2 * halfC) (cellRow 𝕪 j 5 + cellRow 𝕪 j 7 * halfC) := by
  st2 V 149; st2 V 148; st2 V 144
  rw [half_v122 V, half_v119 V, rd_v97 V, rd_v89 V]
  funext j
  rfl
set_option maxRecDepth 8192 in
set_option maxHeartbeats 1000000 in
/-- Bottom edge of the overlap. -/
theorem yb_v131 : 𝔸 main_v131 = fun j : S16384x7x7.Idx => min (cellRow 𝕘 j 1 + cellRow 𝕘 j 3 * halfC) (cellRow 𝕪 j 6 + cellRow 𝕪 j 8 * halfC) := by
  st2 V 158; st2 V 157; st2 V 153
  rw [half_v129 V, half_v126 V, rd_v99 V, rd_v91 V]
  funext j
  rfl
set_option maxRecDepth 8192 in
set_option maxHeartbeats 1000000 in
/-- The overlap's area (meaningful when both sides are nonnegative). -/
theorem inter_v137 : 𝔸 main_v137 = fun j : S16384x7x7.Idx => ((min (cellRow 𝕘 j 0 + cellRow 𝕘 j 2 * halfC) (cellRow 𝕪 j 5 + cellRow 𝕪 j 7 * halfC)) - (max (cellRow 𝕘 j 0 - cellRow 𝕘 j 2 * halfC) (cellRow 𝕪 j 5 - cellRow 𝕪 j 7 * halfC))) * ((min (cellRow 𝕘 j 1 + cellRow 𝕘 j 3 * halfC) (cellRow 𝕪 j 6 + cellRow 𝕪 j 8 * halfC)) - (max (cellRow 𝕘 j 1 - cellRow 𝕘 j 3 * halfC) (cellRow 𝕪 j 6 - cellRow 𝕪 j 8 * halfC))) := by
  st2 V 164; st2 V 163; st2 V 162
  rw [yb_v131 V, xr_v124 V, yt_v117 V, xl_v110 V]
  funext j
  rfl
set_option maxRecDepth 8192 in
set_option maxHeartbeats 1000000 in
/-- The union's area. -/
theorem union_v141 : 𝔸 main_v141 = fun j : S16384x7x7.Idx => cellRow 𝕘 j 2 * cellRow 𝕘 j 3 + cellRow 𝕪 j 7 * cellRow 𝕪 j 8 - ((min (cellRow 𝕘 j 0 + cellRow 𝕘 j 2 * halfC) (cellRow 𝕪 j 5 + cellRow 𝕪 j 7 * halfC)) - (max (cellRow 𝕘 j 0 - cellRow 𝕘 j 2 * halfC) (cellRow 𝕪 j 5 - cellRow 𝕪 j 7 * halfC))) * ((min (cellRow 𝕘 j 1 + cellRow 𝕘 j 3 * halfC) (cellRow 𝕪 j 6 + cellRow 𝕪 j 8 * halfC)) - (max (cellRow 𝕘 j 1 - cellRow 𝕘 j 3 * halfC) (cellRow 𝕪 j 6 - cellRow 𝕪 j 8 * halfC))) := by
  st2 V 168; st2 V 167; st2 V 166; st2 V 165
  rw [inter_v137 V, rd_v103 V, rd_v101 V, rd_v95 V, rd_v93 V]
  funext j
  rfl
set_option maxRecDepth 8192 in
set_option maxHeartbeats 1000000 in
/-- Intersection over union of the target box with the second predicted box. -/
theorem stage_v146 : 𝔸 main_v146 = fun j : S16384x7x7.Idx => iou2 (cellRow 𝕘 j) (cellRow 𝕪 j) := by
  st3 V 180; st2 V 176; st3 V 175; st2 V 171; st2 V 161; st2 V 160
  st2 V 159
  rw [c_call3_v1 V, c_call2_v1 V, c_v142 V, union_v141 V, inter_v137 V, yb_v131 V]
  rw [xr_v124 V, yt_v117 V, xl_v110 V]
  funext j
  rfl

/-! ### The responsibility masks -/

set_option maxRecDepth 8192 in
set_option maxHeartbeats 1000000 in
/-- 1 where the first box overlaps the target strictly more. -/
theorem resp_v148 : 𝔸 main_v148 = fun j : S16384x7x7.Idx => resp (cellRow 𝕘 j) (cellRow 𝕪 j) := by
  st1 V 182; st2 V 181
  rw [stage_v146 V, stage_v86 V]
  funext j
  exact uitofp_flag _
set_option maxRecDepth 8192 in
set_option maxHeartbeats 1000000 in
/-- The first box's responsibility mask. -/
theorem stage_v149 : 𝔸 main_v149 = fun j : S16384x7x7.Idx => m1 (cellRow 𝕘 j) (cellRow 𝕪 j) := by
  st2 V 183
  rw [resp_v148 V, stage_v4 V]
  funext j
  rfl
set_option maxRecDepth 8192 in
set_option maxHeartbeats 1000000 in
/-- The second box's responsibility mask. -/
theorem stage_v152 : 𝔸 main_v152 = fun j : S16384x7x7.Idx => m2 (cellRow 𝕘 j) (cellRow 𝕪 j) := by
  st2 V 187; st2 V 186
  rw [c_v150 V, resp_v148 V, stage_v4 V]
  funext j
  rfl

end Line

end Cert.Yolo.Ref

end
-- ==== Proof.RefTotal.lean ====
import proofs.«107280_j5325759447314_1_alg».proof.Proof.RefLine
import proofs.«107280_j5325759447314_1_alg».proof.Proof.Spec
import Idealize.ShloMosaic.Lib.Pipeline.Value
import Idealize.ShloMosaic.PureOps.Ideal.Laws

/-!
# The reference's result from its six named stages

The reference computes, for every cell, the object and no-object masks, the two boxes' overlaps with the target
box and the two responsibility masks; from these it forms five per-cell terms (centre, size, object confidence,
no-object confidence, class), sums each over all cells from zero, weights the sums by 5, 5, 1, ½ and 1, adds
them and divides by 16384.

This module reads the second half of that line: GIVEN what the six stage buffers hold (the masks `obj`, `noobj`,
`m1`, `m2` and the overlaps `iou1`, `iou2` of the spec, cell by cell), the result buffer holds the spec's
`referenceTotal`.  Each term is read one operation at a time down to the stages and the channel reads (a channel
read is a one-channel slice reshaped to [16384, 7, 7]: the cell's channel); each sum is the host's total sum
from the constant zero; the scalar tail is pointwise on rank-0 buffers.
-/

noncomputable section

open scoped BigOperators

namespace Cert.Yolo.Ref

open Cert.ReferenceIdeal Cert.ReferenceIdeal.Gen Idealize.ShloMosaic Idealize.ShloMosaic.ValueIdx Idealize.ShloMosaic.TcCoe Idealize.SL.Sem Idealize.ShloMosaic.StableHlo
open Cert.Line

/-! ## Layout and sums, read at an index -/

/-- Channel `c` of an array, taken as a one-channel slice and reshaped to [16384, 7, 7], is the cell's channel `c`:
    the reshape keeps the row-major position `(j0 * 7 + j1) * 7 + j2`, and the slice shifts the last coordinate by `c`. -/
theorem chan_read (x : S16384x7x7x30.Idx → EReal) (c : ℕ) (hc : c < 30)
    (hs : S16384x7x7x30.Slices ![0, 0, 0, c] S16384x7x7x1) (hr : S16384x7x7x1.ShapeCasts S16384x7x7)
    (j : S16384x7x7.Idx) :
    shapeCast S16384x7x7 (extractStridedSlice S16384x7x7x1 ![0, 0, 0, c] x hs) hr j = cellRow x j ⟨c, hc⟩ := by
  refine (shapeCast_apply _ hr j (ix4 (j 0) (j 1) (j 2) 0) ?_).trans ?_
  · rewrite [Shape.rowMajor_val_four, Shape.rowMajor_val_three]
    show (((j 0).val * 7 + (j 1).val) * 7 + (j 2).val) * 1 + 0 = ((j 0).val * 7 + (j 1).val) * 7 + (j 2).val
    omega
  · exact extractStridedSlice_apply ![0, 0, 0, c] x hs (ix4 (j 0) (j 1) (j 2) 0) (ix4 (j 0) (j 1) (j 2) ⟨c, hc⟩)
      (fun a => match a with
        | ⟨0, _⟩ => by show (j 0).val = 0 + (j 0).val; omega
        | ⟨1, _⟩ => by show (j 1).val = 0 + (j 1).val; omega
        | ⟨2, _⟩ => by show (j 2).val = 0 + (j 2).val; omega
        | ⟨3, _⟩ => by show c = c + 0; omega)

/-- The twenty class channels taken as one slice: entry `(j0, j1, j2, k)` is the cell's channel `10 + k`. -/
theorem cls_read (x : S16384x7x7x30.Idx → EReal) (hs : S16384x7x7x30.Slices ![0, 0, 0, 10] S16384x7x7x20)
    (j : S16384x7x7x20.Idx) :
    extractStridedSlice S16384x7x7x20 ![0, 0, 0, 10] x hs j = cellRow x (ix3 (j 0) (j 1) (j 2)) (cls (j 3)) :=
  extractStridedSlice_apply ![0, 0, 0, 10] x hs j (ix4 (j 0) (j 1) (j 2) (cls (j 3)))
    (fun a => match a with
      | ⟨0, _⟩ => by show (j 0).val = 0 + (j 0).val; omega
      | ⟨1, _⟩ => by show (j 1).val = 0 + (j 1).val; omega
      | ⟨2, _⟩ => by show (j 2).val = 0 + (j 2).val; omega
      | ⟨3, _⟩ => by show 10 + (j 3).val = 10 + (j 3).val; rfl)

/-- A per-cell quantity broadcast along a new unit axis and then along the twenty class channels is read at the cell. -/
theorem bcast_cell (o : S16384x7x7.Idx → EReal)
    (hb1 : S16384x7x7.BroadcastsInDim S16384x7x7x1 (![0, 1, 2] : Fin 3 → Fin S16384x7x7x1.rank))
    (hb2 : S16384x7x7x1.BroadcastsInDim S16384x7x7x20 (![0, 1, 2, 3] : Fin 4 → Fin S16384x7x7x20.rank))
    (j : S16384x7x7x20.Idx) :
    broadcastInDim S16384x7x7x20 ![0, 1, 2, 3] hb2 (broadcastInDim S16384x7x7x1 ![0, 1, 2] hb1 o) j
      = o (ix3 (j 0) (j 1) (j 2)) := by
  refine (broadcastInDim_apply _ hb2 _ j (ix4 (j 0) (j 1) (j 2) 0) (fun a => match a with
    | ⟨0, _⟩ => rfl
    | ⟨1, _⟩ => rfl
    | ⟨2, _⟩ => rfl
    | ⟨3, _⟩ => rfl)).trans ?_
  exact broadcastInDim_apply _ hb1 o (ix4 (j 0) (j 1) (j 2) 0) (ix3 (j 0) (j 1) (j 2)) (fun a => match a with
    | ⟨0, _⟩ => rfl
    | ⟨1, _⟩ => rfl
    | ⟨2, _⟩ => rfl)

/-- The host's sum of a [16384, 7, 7] array from the constant zero: zero plus the sum over all cells. -/
theorem sum3 (x : S16384x7x7.Idx → EReal) (h' : S16384x7x7.ReducesTo [0, 1, 2] S_) (hu : 0 < S_.numel) :
    (Host.reduceAdd (F := Ideal) (φ := .f32) x (constant (F := Ideal) S_ .f32 0x00000000#32) h' hu : S_.Idx → EReal)
      = fun _ => zeroC + ∑ j : S16384x7x7.Idx, x j := by
  funext i
  show Ideal.hostReduceAdd h' x (Ideal.ofBits .f32 0x00000000#32) i = _
  rw [Ideal.hostReduceAdd_total h' (fun b => b.elim0)]
  rfl

/-- The same for a [16384, 7, 7, 20] array. -/
theorem sum4 (x : S16384x7x7x20.Idx → EReal) (h' : S16384x7x7x20.ReducesTo [0, 1, 2, 3] S_) (hu : 0 < S_.numel) :
    (Host.reduceAdd (F := Ideal) (φ := .f32) x (constant (F := Ideal) S_ .f32 0x00000000#32) h' hu : S_.Idx → EReal)
      = fun _ => zeroC + ∑ j : S16384x7x7x20.Idx, x j := by
  funext i
  show Ideal.hostReduceAdd h' x (Ideal.ofBits .f32 0x00000000#32) i = _
  rw [Ideal.hostReduceAdd_total h' (fun b => b.elim0)]
  rfl

/-- The scalar tail: the five sums weighted, added in the program's order and divided by 16384. -/
theorem tail_fn (a b c d e : S_.Idx → EReal) :
    (Host.divf (F := Ideal)
      (addf (addf (addf (addf (mulf (constant (F := Ideal) S_ .f32 0x40A00000#32) a)
          (mulf (constant (F := Ideal) S_ .f32 0x40A00000#32) b)) c)
          (mulf (constant (F := Ideal) S_ .f32 0x3F000000#32) d)) e : Vec Ideal S_ .f32)
      (constant (F := Ideal) S_ .f32 0x46800000#32) : S_.Idx → EReal)
      = fun i => Ideal.div ((((fiveC * a i + fiveC * b i) + c i) + halfC * d i) + e i) cellsC := rfl

/-! ## The line's buffers -/

variable (V : Valuation τ sig (Elt Ideal))

/-- What the line leaves in buffer `b`, from the contents `V`. -/
local notation "S[" b "]" => StableHlo.after (Cert.Yolo.RefLine.ops (F := Ideal)) V (Proc.devRef Proc.tc b)
local notation "hL" => (Cert.Yolo.RefLine.hW (F := Ideal))

/-- The prediction array. -/
abbrev x0 : Arr := V (Proc.devRef .tc main_arg0)
/-- The target array. -/
abbrev x1 : Arr := V (Proc.devRef .tc main_arg1)

/-- A channel buffer: a reshape (operation `k1`) of a one-channel slice (operation `k0`) of an argument. -/
local macro "chan_buf " V:term:max k1:num k0:num : tactic =>
  `(tactic| (line_step (Cert.Yolo.RefLine.hW (F := Ideal)) $V $k1
             line_step (Cert.Yolo.RefLine.hW (F := Ideal)) $V $k0
             rw [Cert.CubePad.Line.Writes.arg (Cert.Yolo.RefLine.hW (F := Ideal)) $V (by decide)]
             funext j
             exact chan_read _ _ (by decide) _ _ j))

/-! ### The channel buffers the five terms read -/

theorem ch_v19 : (S[main_v19] : S16384x7x7.Idx → EReal) = fun j => cellRow (x1 V) j 4 := by
  chan_buf V 22 21
theorem ch_v21 : (S[main_v21] : S16384x7x7.Idx → EReal) = fun j => cellRow (x0 V) j 4 := by
  chan_buf V 24 23
theorem ch_v154 : (S[main_v154] : S16384x7x7.Idx → EReal) = fun j => cellRow (x0 V) j 4 := by
  chan_buf V 189 188
theorem ch_v159 : (S[main_v159] : S16384x7x7.Idx → EReal) = fun j => cellRow (x0 V) j 9 := by
  chan_buf V 194 193
theorem ch_v166 : (S[main_v166] : S16384x7x7.Idx → EReal) = fun j => cellRow (x1 V) j 0 := by
  chan_buf V 202 201
theorem ch_v168 : (S[main_v168] : S16384x7x7.Idx → EReal) = fun j => cellRow (x0 V) j 0 := by
  chan_buf V 204 203
theorem ch_v172 : (S[main_v172] : S16384x7x7.Idx → EReal) = fun j => cellRow (x1 V) j 1 := by
  chan_buf V 208 207
theorem ch_v174 : (S[main_v174] : S16384x7x7.Idx → EReal) = fun j => cellRow (x0 V) j 1 := by
  chan_buf V 210 209
theorem ch_v180 : (S[main_v180] : S16384x7x7.Idx → EReal) = fun j => cellRow (x1 V) j 0 := by
  chan_buf V 216 215
theorem ch_v182 : (S[main_v182] : S16384x7x7.Idx → EReal) = fun j => cellRow (x0 V) j 5 := by
  chan_buf V 218 217
theorem ch_v186 : (S[main_v186] : S16384x7x7.Idx → EReal) = fun j => cellRow (x1 V) j 1 := by
  chan_buf V 222 221
theorem ch_v188 : (S[main_v188] : S16384x7x7.Idx → EReal) = fun j => cellRow (x0 V) j 6 := by
  chan_buf V 224 223
theorem ch_v196 : (S[main_v196] : S16384x7x7.Idx → EReal) = fun j => cellRow (x1 V) j 2 := by
  chan_buf V 233 232
theorem ch_v198 : (S[main_v198] : S16384x7x7.Idx → EReal) = fun j => cellRow (x0 V) j 2 := by
  chan_buf V 235 234
theorem ch_v202 : (S[main_v202] : S16384x7x7.Idx → EReal) = fun j => cellRow (x1 V) j 3 := by
  chan_buf V 239 238
theorem ch_v204 : (S[main_v204] : S16384x7x7.Idx → EReal) = fun j => cellRow (x0 V) j 3 := by
  chan_buf V 241 240
theorem ch_v210 : (S[main_v210] : S16384x7x7.Idx → EReal) = fun j => cellRow (x1 V) j 2 := by
  chan_buf V 247 246
theorem ch_v212 : (S[main_v212] : S16384x7x7.Idx → EReal) = fun j => cellRow (x0 V) j 7 := by
  chan_buf V 249 248
theorem ch_v216 : (S[main_v216] : S16384x7x7.Idx → EReal) = fun j => cellRow (x1 V) j 3 := by
  chan_buf V 253 252
theorem ch_v218 : (S[main_v218] : S16384x7x7.Idx → EReal) = fun j => cellRow (x0 V) j 8 := by
  chan_buf V 255 254

/-! ## The five terms, cell by cell -/

/-- The no-object confidence term. -/
theorem term_cn (h9 : (S[main_v9] : S16384x7x7.Idx → EReal) = fun j => noobj (cellRow (x1 V) j)) :
    (S[main_v24] : S16384x7x7.Idx → EReal) = fun j => cnT (cellRow (x1 V) j) (cellRow (x0 V) j) := by
  line_step hL V 27
  line_step hL V 26
  line_step hL V 25
  rw [ch_v19 V, ch_v21 V, h9]
  rfl

/-- The object confidence term. -/
theorem term_co (h86 : (S[main_v86] : S16384x7x7.Idx → EReal) = fun j => iou1 (cellRow (x1 V) j) (cellRow (x0 V) j))
    (h146 : (S[main_v146] : S16384x7x7.Idx → EReal) = fun j => iou2 (cellRow (x1 V) j) (cellRow (x0 V) j))
    (h149 : (S[main_v149] : S16384x7x7.Idx → EReal) = fun j => m1 (cellRow (x1 V) j) (cellRow (x0 V) j))
    (h152 : (S[main_v152] : S16384x7x7.Idx → EReal) = fun j => m2 (cellRow (x1 V) j) (cellRow (x0 V) j)) :
    (S[main_v163] : S16384x7x7.Idx → EReal) = fun j => coT (cellRow (x1 V) j) (cellRow (x0 V) j) := by
  line_step hL V 198
  line_step hL V 197
  line_step hL V 196
  line_step hL V 195
  line_step hL V 192
  line_step hL V 191
  line_step hL V 190
  rw [ch_v154 V, ch_v159 V, h86, h146, h149, h152]
  rfl

/-- The centre term. -/
theorem term_xy (h149 : (S[main_v149] : S16384x7x7.Idx → EReal) = fun j => m1 (cellRow (x1 V) j) (cellRow (x0 V) j))
    (h152 : (S[main_v152] : S16384x7x7.Idx → EReal) = fun j => m2 (cellRow (x1 V) j) (cellRow (x0 V) j)) :
    (S[main_v193] : S16384x7x7.Idx → EReal) = fun j => xyT (cellRow (x1 V) j) (cellRow (x0 V) j) := by
  line_step hL V 229
  line_step hL V 228
  line_step hL V 227
  line_step hL V 226
  line_step hL V 225
  line_step hL V 220
  line_step hL V 219
  line_step hL V 214
  line_step hL V 213
  line_step hL V 212
  line_step hL V 211
  line_step hL V 206
  line_step hL V 205
  rw [ch_v166 V, ch_v168 V, ch_v172 V, ch_v174 V, ch_v180 V, ch_v182 V, ch_v186 V, ch_v188 V, h149, h152]
  rfl

/-- The size term. -/
theorem term_wh (h149 : (S[main_v149] : S16384x7x7.Idx → EReal) = fun j => m1 (cellRow (x1 V) j) (cellRow (x0 V) j))
    (h152 : (S[main_v152] : S16384x7x7.Idx → EReal) = fun j => m2 (cellRow (x1 V) j) (cellRow (x0 V) j)) :
    (S[main_v223] : S16384x7x7.Idx → EReal) = fun j => whT (cellRow (x1 V) j) (cellRow (x0 V) j) := by
  line_step hL V 260
  line_step hL V 259
  line_step hL V 258
  line_step hL V 257
  line_step hL V 256
  line_step hL V 251
  line_step hL V 250
  line_step hL V 245
  line_step hL V 244
  line_step hL V 243
  line_step hL V 242
  line_step hL V 237
  line_step hL V 236
  rw [ch_v196 V, ch_v198 V, ch_v202 V, ch_v204 V, ch_v210 V, ch_v212 V, ch_v216 V, ch_v218 V, h149, h152]
  rfl

/-- The class term, over cells and class channels. -/
theorem term_cls (h4 : (S[main_v4] : S16384x7x7.Idx → EReal) = fun j => obj (cellRow (x1 V) j)) :
    (S[main_v16] : S16384x7x7x20.Idx → EReal) = fun j =>
      clsT (cellRow (x1 V) (ix3 (j 0) (j 1) (j 2))) (cellRow (x0 V) (ix3 (j 0) (j 1) (j 2))) (j 3) := by
  line_step hL V 18
  line_step hL V 17
  line_step hL V 16
  line_step hL V 15
  line_step hL V 14
  line_step hL V 13
  line_step hL V 12
  rw [Cert.CubePad.Line.Writes.arg hL V (r := main_arg0) (by decide),
    Cert.CubePad.Line.Writes.arg hL V (r := main_arg1) (by decide), h4]
  funext j
  have e1 := bcast_cell (fun j => obj (cellRow (x1 V) j)) bcast_S16384x7x7_S16384x7x7x1_0_1_2
    bcast_S16384x7x7x1_S16384x7x7x20_0_1_2_3 j
  have e2 := cls_read (x1 V) slices_S16384x7x7x30_S16384x7x7x20_0_0_0_10 j
  have e3 := cls_read (x0 V) slices_S16384x7x7x30_S16384x7x7x20_0_0_0_10 j
  exact congrArg₂ (fun a b : EReal => a * b) e1
    (congrArg₂ (fun a b : EReal => a * b) (congrArg₂ (fun a b : EReal => a - b) e2 e3)
      (congrArg₂ (fun a b : EReal => a - b) e2 e3))

/-! ## The five sums -/

theorem sum_cn (h9 : (S[main_v9] : S16384x7x7.Idx → EReal) = fun j => noobj (cellRow (x1 V) j)) :
    (S[main_v25] : S_.Idx → EReal)
      = fun _ => zeroC + ∑ j : S16384x7x7.Idx, cnT (cellRow (x1 V) j) (cellRow (x0 V) j) := by
  line_step hL V 29
  line_step hL V 28
  rw [term_cn V h9]
  exact sum3 _ _ _

theorem sum_co (h86 : (S[main_v86] : S16384x7x7.Idx → EReal) = fun j => iou1 (cellRow (x1 V) j) (cellRow (x0 V) j))
    (h146 : (S[main_v146] : S16384x7x7.Idx → EReal) = fun j => iou2 (cellRow (x1 V) j) (cellRow (x0 V) j))
    (h149 : (S[main_v149] : S16384x7x7.Idx → EReal) = fun j => m1 (cellRow (x1 V) j) (cellRow (x0 V) j))
    (h152 : (S[main_v152] : S16384x7x7.Idx → EReal) = fun j => m2 (cellRow (x1 V) j) (cellRow (x0 V) j)) :
    (S[main_v164] : S_.Idx → EReal)
      = fun _ => zeroC + ∑ j : S16384x7x7.Idx, coT (cellRow (x1 V) j) (cellRow (x0 V) j) := by
  line_step hL V 200
  line_step hL V 199
  rw [term_co V h86 h146 h149 h152]
  exact sum3 _ _ _

theorem sum_xy (h149 : (S[main_v149] : S16384x7x7.Idx → EReal) = fun j => m1 (cellRow (x1 V) j) (cellRow (x0 V) j))
    (h152 : (S[main_v152] : S16384x7x7.Idx → EReal) = fun j => m2 (cellRow (x1 V) j) (cellRow (x0 V) j)) :
    (S[main_v194] : S_.Idx → EReal)
      = fun _ => zeroC + ∑ j : S16384x7x7.Idx, xyT (cellRow (x1 V) j) (cellRow (x0 V) j) := by
  line_step hL V 231
  line_step hL V 230
  rw [term_xy V h149 h152]
  exact sum3 _ _ _

theorem sum_wh (h149 : (S[main_v149] : S16384x7x7.Idx → EReal) = fun j => m1 (cellRow (x1 V) j) (cellRow (x0 V) j))
    (h152 : (S[main_v152] : S16384x7x7.Idx → EReal) = fun j => m2 (cellRow (x1 V) j) (cellRow (x0 V) j)) :
    (S[main_v224] : S_.Idx → EReal)
      = fun _ => zeroC + ∑ j : S16384x7x7.Idx, whT (cellRow (x1 V) j) (cellRow (x0 V) j) := by
  line_step hL V 262
  line_step hL V 261
  rw [term_wh V h149 h152]
  exact sum3 _ _ _

theorem sum_cls (h4 : (S[main_v4] : S16384x7x7.Idx → EReal) = fun j => obj (cellRow (x1 V) j)) :
    (S[main_v17] : S_.Idx → EReal)
      = fun _ => zeroC + ∑ j : S16384x7x7x20.Idx,
          clsT (cellRow (x1 V) (ix3 (j 0) (j 1) (j 2))) (cellRow (x0 V) (ix3 (j 0) (j 1) (j 2))) (j 3) := by
  line_step hL V 20
  line_step hL V 19
  rw [term_cls V h4]
  exact sum4 _ _ _

/-! ## The total -/

/-- THE REFERENCE'S RESULT, given the six named stages: the spec's reference arrangement of the total. -/
theorem total_of_stages
    (h4 : (S[main_v4] : S16384x7x7.Idx → EReal) = fun j => obj (cellRow (x1 V) j))
    (h9 : (S[main_v9] : S16384x7x7.Idx → EReal) = fun j => noobj (cellRow (x1 V) j))
    (h86 : (S[main_v86] : S16384x7x7.Idx → EReal) = fun j => iou1 (cellRow (x1 V) j) (cellRow (x0 V) j))
    (h146 : (S[main_v146] : S16384x7x7.Idx → EReal) = fun j => iou2 (cellRow (x1 V) j) (cellRow (x0 V) j))
    (h149 : (S[main_v149] : S16384x7x7.Idx → EReal) = fun j => m1 (cellRow (x1 V) j) (cellRow (x0 V) j))
    (h152 : (S[main_v152] : S16384x7x7.Idx → EReal) = fun j => m2 (cellRow (x1 V) j) (cellRow (x0 V) j)) :
    (S[main_v232] : S_.Idx → EReal) = fun _ => referenceTotal (x0 V) (x1 V) := by
  line_step hL V 274
  line_step hL V 273
  line_step hL V 272
  line_step hL V 271
  line_step hL V 270
  line_step hL V 269
  line_step hL V 268
  line_step hL V 267
  line_step hL V 266
  line_step hL V 265
  line_step hL V 264
  line_step hL V 263
  rw [sum_xy V h149 h152, sum_wh V h149 h152, sum_co V h86 h146 h149 h152, sum_cn V h9, sum_cls V h4]
  exact tail_fn _ _ _ _ _

end Cert.Yolo.Ref

end
-- ==== Proof.Regroup.lean ====
import Mathlib.Data.EReal.Operations
import Mathlib.Algebra.BigOperators.Fin
import proofs.«107280_j5325759447314_1_alg».proof.Proof.Spec

/-!
# The two arrangements of the total agree

The kernel adds the cells' losses block by block; the reference sums each of the five terms over all
cells, weights the sums and adds them.  Over the extended reals addition is commutative and
associative without any side condition, so every regrouping of a finite sum is free.  The one law
that needs an argument is that a nonnegative real factor may be moved across a finite sum: it holds
because multiplication by a nonnegative real distributes over the extended reals' addition, even at
the infinities.

The module first proves the generic statements (a factor across a sum; a sum over consecutive blocks;
a sum over a box of coordinates in row-major numbering; a sum over an index set of rank 3 or 4 as an
iterated sum over the coordinates), then reads the constants, then instantiates.
-/

noncomputable section

open scoped BigOperators

namespace Cert.Yolo

open Idealize.ShloMosaic Idealize.ShloMosaic.ValueIdx

/-! ## Generic sums -/

/-- A nonnegative real factor moves across a finite sum of extended reals. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- `a` consecutive blocks of `m` terms are the first `a * m` terms. -/
theorem sum_range_blocks {M : Type*} [AddCommMonoid M] (F : ℕ → M) (m a : ℕ) :
    ∑ i ∈ Finset.range a, ∑ r : Fin m, F (i * m + r.val) = ∑ n ∈ Finset.range (a * m), F n := by
  induction a with
  | zero => simp
  | succ a ih =>
    rw [Finset.sum_range_succ, ih, add_one_mul, Finset.sum_range_add]
    congr 1
    exact (Finset.sum_range fun x => F (a * m + x)).symm

/-- A sum over a box of three coordinates, numbered in row-major order, is the sum over the numbers. -/
theorem sum_fin3 {M : Type*} [AddCommMonoid M] (G : ℕ → M) (n0 n1 n2 : ℕ) :
    ∑ a : Fin n0, ∑ b : Fin n1, ∑ c : Fin n2, G ((a.val * n1 + b.val) * n2 + c.val)
      = ∑ n ∈ Finset.range (n0 * n1 * n2), G n := by
  rw [← sum_range_blocks G n2 (n0 * n1),
    ← sum_range_blocks (fun i => ∑ c : Fin n2, G (i * n2 + c.val)) n1 n0, Finset.sum_range]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f,
    Fintype.sum_prod_type]
  simp only [Fintype.sum_prod_type]
  rfl

/-! ## The constants -/

theorem zeroC_eq : zeroC = 0 := Ideal.ofBits_zero_f32

theorem fiveC_eq : fiveC = ((5 : ℝ) : EReal) := by
  unfold fiveC
  simp [Ideal.ofBits, Ideal.ieee, -EReal.coe_mul]; norm_num

theorem halfC_eq : halfC = ((1 / 2 : ℝ) : EReal) := by
  unfold halfC
  simp [Ideal.ofBits, Ideal.ieee, -EReal.coe_mul]; norm_num

/-! ## Rows by number and rows by cell -/

/-- Row number `(a * 7 + b) * 7 + c` of the flattened array is cell `(a, b, c)`: the number's quotient by 49 is
    `a` (already below 16384), its quotient by 7 has remainder `b`, and its remainder by 7 is `c`. -/
theorem flatRow_eq (x : Arr) (a : Fin 16384) (b c : Fin 7) :
    flatRow x ((a.val * 7 + b.val) * 7 + c.val) = cellRow x (ix3 a b c) := by
  have ha := a.isLt
  have hb := b.isLt
  have hc := c.isLt
  have key : ∀ (a' : Fin 16384) (b' c' : Fin 7) (k : Fin 30), a' = a → b' = b → c' = c →
      x (ix4 a' b' c' k) = x (ix4 a b c k) := by
    intro a' b' c' k h1 h2 h3
    rw [h1, h2, h3]
  funext k
  exact key _ _ _ k (Fin.ext (by show _ / 49 % 16384 = a.val; omega))
    (Fin.ext (by show _ / 7 % 7 = b.val; omega)) (Fin.ext (by show _ % 7 = c.val; omega))

/-- A row-wise quantity summed over the cells is the same quantity summed over the row numbers. -/
theorem sum_cells (h : Row → Row → EReal) (y g : Arr) :
    ∑ j : (⟨3, ![16384, 7, 7]⟩ : Shape).Idx, h (cellRow g j) (cellRow y j)
      = ∑ n ∈ Finset.range 802816, h (flatRow g n) (flatRow y n) := by
  rw [sum_idx3, show (802816 : ℕ) = 16384 * 7 * 7 from by norm_num,
    ← sum_fin3 (fun n => h (flatRow g n) (flatRow y n)) 16384 7 7]
  refine Finset.sum_congr rfl fun a _ => Finset.sum_congr rfl fun b _ => Finset.sum_congr rfl fun c _ => ?_
  rw [flatRow_eq, flatRow_eq]

/-- The class term summed over cells and class channels at once is the cells' class sums summed. -/
theorem sum_cls (y g : Arr) :
    ∑ j : (⟨4, ![16384, 7, 7, 20]⟩ : Shape).Idx,
        clsT (cellRow g (ix3 (j 0) (j 1) (j 2))) (cellRow y (ix3 (j 0) (j 1) (j 2))) (j 3)
      = ∑ j : (⟨3, ![16384, 7, 7]⟩ : Shape).Idx, clsSum (cellRow g j) (cellRow y j) := by
  rw [sum_idx4, sum_idx3]
  rfl

/-! ## The kernel's numerator -/

/-- The two cores' accumulators together are the sum of all 802816 rows' losses. -/
theorem kernel_num (y g : Arr) :
    accSum y g 0 195 + accSum y g 1 195 = ∑ n ∈ Finset.range 802816, rowT (flatRow g n) (flatRow y n) := by
  have h := sum_range_blocks (fun n => rowT (flatRow g n) (flatRow y n)) 2048 392
  rw [show (802816 : ℕ) = 392 * 2048 from by norm_num, ← h, show (392 : ℕ) = 196 + 196 from by norm_num,
    Finset.sum_range_add]
  unfold accSum tileSum
  rw [zeroC_eq, zero_add, zero_add]
  simp only [zero_mul, zero_add, one_mul, Nat.reduceAdd]

/-! ## The theorem -/

/-- The kernel's arrangement of the total and the reference's are the same extended real. -/
theorem kernelTotal_eq_referenceTotal (y g : Arr) : kernelTotal y g = referenceTotal y g := by
  unfold kernelTotal referenceTotal
  refine congrArg (fun t => Ideal.div t cellsC) ?_
  rw [kernel_num, sum_cls, sum_cells xyT, sum_cells whT, sum_cells coT, sum_cells cnT, sum_cells clsSum]
  simp only [rowT, fiveC_eq, halfC_eq, zeroC_eq, zero_add, Finset.sum_add_distrib]
  rw [coe_mul_sum _ 5 (by norm_num), coe_mul_sum _ 5 (by norm_num), coe_mul_sum _ (1 / 2) (by norm_num)]

end Cert.Yolo

end
-- ==== Proof.lean ====
/-
  The detection loss of two [16384, 7, 7, 30] arrays, computed two ways, is one extended real.

  Each of the 802816 cells contributes 5·xy + 5·wh + conf_obj + ½·conf_noobj + class, a function of the cell's 30
  channels of the prediction and of the target (Proof/Spec.lean).  The kernel flattens the arrays to [802816, 30],
  sums the cells of each block of 2048 rows, accumulates 196 blocks per core into the entry (0, 0) of a scratch
  buffer, writes each core's accumulator to its block of a [2, 8, 128] output after the core's last step, and the
  host adds the two entries (c, 0, 0) and divides by 16384 (Proof/KernelRow.lean: one row; Proof/Pieces.lean and
  Proof/Accum.lean: the accumulator point by point; Proof/KernelOut.lean, Proof/KernelHost.lean,
  Proof/KernelValue.lean: the output array and the host lines around the region).  The reference sums each of the five
  terms over all cells first and weights the sums afterwards (Proof/RefLine.lean: its 275 host operations as a line;
  Proof/RefStages.lean, Proof/RefTotal.lean: the line read one operation at a time).  The two arrangements agree
  because a finite sum of extended reals may be regrouped and reordered freely, and a nonnegative real factor (5, ½)
  distributes over a sum of extended reals even at the infinities (Proof/Regroup.lean); the kernel's x·½ is the
  reference's x/2.  No operation was rewritten on the way to the idealized kernel, so that claim is trivial; the three
  frames are the kernel's generated frames and the reference line's run.
-/
import proofs.«107280_j5325759447314_1_alg».proof.Defs
import proofs.«107280_j5325759447314_1_alg».proof.Proof.Gen.Kernel
import proofs.«107280_j5325759447314_1_alg».proof.Proof.Gen.Kernel.Skeleton
import proofs.«107280_j5325759447314_1_alg».proof.Proof.Gen.Kernel.Launch
import proofs.«107280_j5325759447314_1_alg».proof.Proof.Gen.Kernel.Points
import proofs.«107280_j5325759447314_1_alg».proof.Proof.Gen.Kernel.Frame
import proofs.«107280_j5325759447314_1_alg».proof.Proof.Gen.KernelIdeal
import proofs.«107280_j5325759447314_1_alg».proof.Proof.Gen.KernelIdeal.Skeleton
import proofs.«107280_j5325759447314_1_alg».proof.Proof.Gen.KernelIdeal.Launch
import proofs.«107280_j5325759447314_1_alg».proof.Proof.Gen.KernelIdeal.Points
import proofs.«107280_j5325759447314_1_alg».proof.Proof.Gen.KernelIdeal.Frame
import proofs.«107280_j5325759447314_1_alg».proof.Proof.Gen.ReferenceIdeal
import proofs.«107280_j5325759447314_1_alg».proof.Proof.Gen.Pre_finite_inputs
import proofs.«107280_j5325759447314_1_alg».proof.Proof.KernelValue
import proofs.«107280_j5325759447314_1_alg».proof.Proof.RefStages
import proofs.«107280_j5325759447314_1_alg».proof.Proof.RefTotal
import proofs.«107280_j5325759447314_1_alg».proof.Proof.Regroup
import Idealize.ShloMosaic.Adequacy
import Idealize.ShloMosaic.Init

noncomputable section

namespace Cert.Proof

open Idealize.ShloMosaic Idealize.ShloMosaic.TcCoe Idealize.SL.Sem Idealize.ShloMosaic.StableHlo

/-- The reference line leaves its result buffer at the reference's arrangement of the total of the argument buffers:
    the six named stages, then the five terms, their sums and the scalar tail. -/
theorem ref_total (V : Valuation Cert.ReferenceIdeal.τ Cert.ReferenceIdeal.sig (Elt Ideal)) :
    after (Cert.Yolo.RefLine.ops (F := Ideal)) V (Proc.devRef .tc Cert.ReferenceIdeal.main_v232)
      = fun _ => Cert.Yolo.referenceTotal (V (Proc.devRef .tc Cert.ReferenceIdeal.main_arg0)) (V (Proc.devRef .tc Cert.ReferenceIdeal.main_arg1)) :=
  Cert.Yolo.Ref.total_of_stages V (Cert.Yolo.Ref.stage_v4 V) (Cert.Yolo.Ref.stage_v9 V) (Cert.Yolo.Ref.stage_v86 V)
    (Cert.Yolo.Ref.stage_v146 V) (Cert.Yolo.Ref.stage_v149 V) (Cert.Yolo.Ref.stage_v152 V)

/-- The reference writes neither argument. -/
theorem ref_arg0 (V : Valuation Cert.ReferenceIdeal.τ Cert.ReferenceIdeal.sig (Elt Ideal)) :
    after (Cert.Yolo.RefLine.ops (F := Ideal)) V (Proc.devRef .tc Cert.ReferenceIdeal.main_arg0) = V (Proc.devRef .tc Cert.ReferenceIdeal.main_arg0) :=
  Cert.CubePad.Line.Writes.arg Cert.Yolo.RefLine.hW V (by decide)
theorem ref_arg1 (V : Valuation Cert.ReferenceIdeal.τ Cert.ReferenceIdeal.sig (Elt Ideal)) :
    after (Cert.Yolo.RefLine.ops (F := Ideal)) V (Proc.devRef .tc Cert.ReferenceIdeal.main_arg1) = V (Proc.devRef .tc Cert.ReferenceIdeal.main_arg1) :=
  Cert.CubePad.Line.Writes.arg Cert.Yolo.RefLine.hW V (by decide)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono
    (fun _ h c => ⟨(h c Cert.ReferenceIdeal.main_arg0).trans (ref_arg0 _), (h c Cert.ReferenceIdeal.main_arg1).trans (ref_arg1 _)⟩)
    (Cert.Yolo.RefLine.run (F := Ideal) m ρ)

/-- Both idealized programs end with the same extended real: the kernel's arrangement of the total of its arrays, the
    reference's arrangement of the total of arrays that agree with them, and the two arrangements are equal. -/
theorem algebraic : Cert.algebraic_KernelIdeal_ReferenceIdeal := by
  intro m ρ m' ρ' _ hagree
  refine ⟨fun c => fun _ => Cert.Yolo.kernelTotal (Cert.Yolo.Accum.Y m c) (Cert.Yolo.Accum.G m c),
    Cert.Yolo.KernelValue.run m ρ, ?_⟩
  refine (θ_run Cert.ReferenceIdeal.defs _ _).mono (fun _ h c => ⟨(h c Cert.ReferenceIdeal.main_v232).trans ?_,
    (h c Cert.ReferenceIdeal.main_arg0).trans (ref_arg0 _), (h c Cert.ReferenceIdeal.main_arg1).trans (ref_arg1 _)⟩)
    (Cert.Yolo.RefLine.run (F := Ideal) m' ρ')
  have ha0 : launchContents m' c (Proc.devRef .tc Cert.ReferenceIdeal.main_arg0)
      = m ((c.tc : Thread Cert.KernelIdeal.nD Cert.KernelIdeal.τ).loc Cert.KernelIdeal.main_arg0) := (hagree c).1
  have ha1 : launchContents m' c (Proc.devRef .tc Cert.ReferenceIdeal.main_arg1)
      = m ((c.tc : Thread Cert.KernelIdeal.nD Cert.KernelIdeal.τ).loc Cert.KernelIdeal.main_arg1) := (hagree c).2
  rw [ref_total, ha0, ha1]
  exact funext fun _ => (Cert.Yolo.kernelTotal_eq_referenceTotal _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
